-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v73)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v73) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v114) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S100000 : Shape := ⟨1, ![100000]⟩
abbrev S128x64 : Shape := ⟨2, ![128, 64]⟩
abbrev S64 : Shape := ⟨1, ![64]⟩
abbrev S64x64 : Shape := ⟨2, ![64, 64]⟩
abbrev S64x32 : Shape := ⟨2, ![64, 32]⟩
abbrev S32 : Shape := ⟨1, ![32]⟩
abbrev S32x2 : Shape := ⟨2, ![32, 2]⟩
abbrev S2 : Shape := ⟨1, ![2]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_
  bcast_S_S32x2 : S_.BroadcastsInDim S32x2 (![] : Fin 0 → Fin S32x2.rank)
  reducesTo_S32x2_S_d0_1 : S32x2.ReducesTo [0, 1] S_
  bcast_S_S2 : S_.BroadcastsInDim S2 (![] : Fin 0 → Fin S2.rank)
  reducesTo_S2_S_d0 : S2.ReducesTo [0] S_

variable [Facts]

def fn_part2 {F : FTy → Type} [FloatOps F] (main_arg9 : FVec F S32x2 .f32) (main_arg10 : FVec F S2 .f32) (main_v33 : IVec S_ 1) : IVec S_ 1 :=
  let main_v34 : FVec F S32x2 .f32 := Host.absf main_arg9
  let main_cst_12 : FVec F S_ .f32 := constant S_ .f32 0x7F800000#32
  let main_v35 : FVec F S32x2 .f32 := broadcastInDim S32x2 ![] bcast_S_S32x2 main_cst_12
  let main_v36 : IVec S32x2 1 := cmpf .olt main_v34 main_v35
  let main_c_13 : IVec S_ 1 := constantI S_ 1 1#1
  let main_v37 : IVec S_ 1 := (fun x v => Host.reduce IntOp.andi x v reducesTo_S32x2_S_d0_1 h_S_) main_v36 main_c_13
  let main_v38 : IVec S_ 1 := andi main_v33 main_v37
  let main_v39 : FVec F S2 .f32 := Host.absf main_arg10
  let main_cst_14 : FVec F S_ .f32 := constant S_ .f32 0x7F800000#32
  let main_v40 : FVec F S2 .f32 := broadcastInDim S2 ![] bcast_S_S2 main_cst_14
  let main_v41 : IVec S2 1 := cmpf .olt main_v39 main_v40
  let main_c_15 : IVec S_ 1 := constantI S_ 1 1#1
  let main_v42 : IVec S_ 1 := (fun x v => Host.reduce IntOp.andi x v reducesTo_S2_S_d0 h_S_) main_v41 main_c_15
  let main_v43 : IVec S_ 1 := andi main_v38 main_v42
  main_v43

def fn_part1 {F : FTy → Type} [FloatOps F] (main_arg6 : FVec F S64 .f32) (main_arg7 : FVec F S64x32 .f32) (main_arg8 : FVec F S32 .f32) (main_arg9 : FVec F S32x2 .f32) (main_arg10 : FVec F S2 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg6
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x32 .f32 := Host.absf main_arg7
  let main_cst_8 : FVec F S_ .f32 := constant S_ .f32 0x7F800000#32
  let main_v25 : FVec F S64x32 .f32 := broadcastInDim S64x32 ![] bcast_S_S64x32 main_cst_8
  let main_v26 : IVec S64x32 1 := cmpf .olt main_v24 main_v25
  let main_c_9 : IVec S_ 1 := constantI S_ 1 1#1
  let main_v27 : IVec S_ 1 := (fun x v => Host.reduce IntOp.andi x v reducesTo_S64x32_S_d0_1 h_S_) main_v26 main_c_9
  let main_v28 : IVec S_ 1 := andi main_v23 main_v27
  let main_v29 : FVec F S32 .f32 := Host.absf main_arg8
  let main_cst_10 : FVec F S_ .f32 := constant S_ .f32 0x7F800000#32
  let main_v30 : FVec F S32 .f32 := broadcastInDim S32 ![] bcast_S_S32 main_cst_10
  let main_v31 : IVec S32 1 := cmpf .olt main_v29 main_v30
  let main_c_11 : IVec S_ 1 := constantI S_ 1 1#1
  let main_v32 : IVec S_ 1 := (fun x v => Host.reduce IntOp.andi x v reducesTo_S32_S_d0 h_S_) main_v31 main_c_11
  let main_v33 : IVec S_ 1 := andi main_v28 main_v32
  fn_part2 (F := F) main_arg9 main_arg10 main_v33

def fn {F : FTy → Type} [FloatOps F] (main_arg0 : FVec F S100000x128 .f32) (main_arg1 : IVec S2x1600000 32) (main_arg2 : IVec S100000 32) (main_arg3 : FVec F S128x64 .f32) (main_arg4 : FVec F S64 .f32) (main_arg5 : FVec F S64x64 .f32) (main_arg6 : FVec F S64 .f32) (main_arg7 : FVec F S64x32 .f32) (main_arg8 : FVec F S32 .f32) (main_arg9 : FVec F S32x2 .f32) (main_arg10 : FVec F S2 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x64 .f32 := Host.absf main_arg3
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S64 .f32 := Host.absf main_arg4
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg5
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg6 main_arg7 main_arg8 main_arg9 main_arg10 main_v13 main_v16
-- ==== Kernel.lean ====
abbrev S100000x128 : Shape := ⟨2, ![100000, 128]⟩
abbrev S2x1600000 : Shape := ⟨2, ![2, 1600000]⟩
abbrev S100000 : Shape := ⟨1, ![100000]⟩
abbrev S128x64 : Shape := ⟨2, ![128, 64]⟩
abbrev S64 : Shape := ⟨1, ![64]⟩
abbrev S64x64 : Shape := ⟨2, ![64, 64]⟩
abbrev S64x32 : Shape := ⟨2, ![64, 32]⟩
abbrev S32 : Shape := ⟨1, ![32]⟩
abbrev S32x2 : Shape := ⟨2, ![32, 2]⟩
abbrev S2 : Shape := ⟨1, ![2]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S100000x1 : Shape := ⟨2, ![100000, 1]⟩
abbrev S1x64 : Shape := ⟨2, ![1, 64]⟩
abbrev S1x32 : Shape := ⟨2, ![1, 32]⟩
abbrev S1x2 : Shape := ⟨2, ![1, 2]⟩
abbrev S100000x64 : Shape := ⟨2, ![100000, 64]⟩
abbrev S5000x128 : Shape := ⟨2, ![5000, 128]⟩
abbrev S5000x64 : Shape := ⟨2, ![5000, 64]⟩
abbrev S1600000x64 : Shape := ⟨2, ![1600000, 64]⟩
abbrev S5000x1 : Shape := ⟨2, ![5000, 1]⟩
abbrev S256x64 : Shape := ⟨2, ![256, 64]⟩
abbrev S256 : Shape := ⟨1, ![256]⟩
abbrev S256x1 : Shape := ⟨2, ![256, 1]⟩
abbrev S256x2 : Shape := ⟨2, ![256, 2]⟩
abbrev S256x32 : Shape := ⟨2, ![256, 32]⟩

abbrev nBuf : Space → Nat
  | .hbm => 102
  | .vmem => 30
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S100000, .i32⟩
  | .hbm, ⟨3, _⟩ => ⟨S128x64, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S64x32, .f32⟩
  | .hbm, ⟨8, _⟩ => ⟨S32, .f32⟩
  | .hbm, ⟨9, _⟩ => ⟨S32x2, .f32⟩
  | .hbm, ⟨10, _⟩ => ⟨S2, .f32⟩
  | .hbm, ⟨11, _⟩ => ⟨S1x1600000, .i32⟩
  | .hbm, ⟨12, _⟩ => ⟨S1600000, .i32⟩
  | .hbm, ⟨13, _⟩ => ⟨S1x1600000, .i32⟩
  | .hbm, ⟨14, _⟩ => ⟨S1600000, .i32⟩
  | .hbm, ⟨15, _⟩ => ⟨S_, .f32⟩
  | .hbm, ⟨16, _⟩ => ⟨S1600000, .f32⟩
  | .hbm, ⟨17, _⟩ => ⟨S_, .f32⟩
  | .hbm, ⟨18, _⟩ => ⟨S100000, .f32⟩
  | .hbm, ⟨19, _⟩ => ⟨S1600000x1, .i32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .f32⟩
  | .hbm, ⟨24, _⟩ => ⟨S100000, .f32⟩
  | .hbm, ⟨25, _⟩ => ⟨S_, .i32⟩
  | .hbm, ⟨26, _⟩ => ⟨S1600000, .i32⟩
  | .hbm, ⟨27, _⟩ => ⟨S1600000, .i1⟩
  | .hbm, ⟨28, _⟩ => ⟨S_, .i32⟩
  | .hbm, ⟨29, _⟩ => ⟨S1600000, .i32⟩
  | .hbm, ⟨30, _⟩ => ⟨S1600000, .i32⟩
  | .hbm, ⟨31, _⟩ => ⟨S1600000, .i32⟩
  | .hbm, ⟨32, _⟩ => ⟨S1600000x1, .i32⟩
  | .hbm, ⟨33, _⟩ => ⟨S1600000, .f32⟩
  | .hbm, ⟨34, _⟩ => ⟨S_, .i32⟩
  | .hbm, ⟨35, _⟩ => ⟨S1600000, .i32⟩
  | .hbm, ⟨36, _⟩ => ⟨S1600000, .i1⟩
  | .hbm, ⟨37, _⟩ => ⟨S_, .i32⟩
  | .hbm, ⟨38, _⟩ => ⟨S1600000, .i32⟩
  | .hbm, ⟨39, _⟩ => ⟨S1600000, .i32⟩
  | .hbm, ⟨40, _⟩ => ⟨S1600000, .i32⟩
  | .hbm, ⟨41, _⟩ => ⟨S1600000x1, .i32⟩
  | .hbm, ⟨42, _⟩ => ⟨S1600000, .f32⟩
  | .hbm, ⟨43, _⟩ => ⟨S1600000, .f32⟩
  | .hbm, ⟨44, _⟩ => ⟨S100000, .f32⟩
  | .hbm, ⟨45, _⟩ => ⟨S100000x1, .f32⟩
  | .hbm, ⟨46, _⟩ => ⟨S1x64, .f32⟩
  | .hbm, ⟨47, _⟩ => ⟨S1x64, .f32⟩
  | .hbm, ⟨48, _⟩ => ⟨S1x32, .f32⟩
  | .hbm, ⟨49, _⟩ => ⟨S1x2, .f32⟩
  | .hbm, ⟨50, _⟩ => ⟨S100000x64, .f32⟩
  | .hbm, ⟨51, _⟩ => ⟨S1600000x1, .f32⟩
  | .hbm, ⟨52, _⟩ => ⟨S_, .i32⟩
  | .hbm, ⟨53, _⟩ => ⟨S1600000, .i32⟩
  | .hbm, ⟨54, _⟩ => ⟨S1600000, .i1⟩
  | .hbm, ⟨55, _⟩ => ⟨S_, .i32⟩
  | .hbm, ⟨56, _⟩ => ⟨S1600000, .i32⟩
  | .hbm, ⟨57, _⟩ => ⟨S1600000, .i32⟩
  | .hbm, ⟨58, _⟩ => ⟨S1600000, .i32⟩
  | .hbm, ⟨59, _⟩ => ⟨S1600000x1, .i32⟩
  | .hbm, ⟨60, _⟩ => ⟨S1600000x64, .f32⟩
  | .hbm, ⟨61, _⟩ => ⟨S1600000x64, .f32⟩
  | .hbm, ⟨62, _⟩ => ⟨S1600000x64, .f32⟩
  | .hbm, ⟨63, _⟩ => ⟨S_, .f32⟩
  | .hbm, ⟨64, _⟩ => ⟨S100000x64, .f32⟩
  | .hbm, ⟨65, _⟩ => ⟨S1600000x1, .i32⟩
  | .hbm, ⟨66, _⟩ => ⟨S100000x64, .f32⟩
  | .hbm, ⟨67, _⟩ => ⟨S100000x64, .f32⟩
  | .hbm, ⟨68, _⟩ => ⟨S1600000x1, .f32⟩
  | .hbm, ⟨69, _⟩ => ⟨S_, .i32⟩
  | .hbm, ⟨70, _⟩ => ⟨S1600000, .i32⟩
  | .hbm, ⟨71, _⟩ => ⟨S1600000, .i1⟩
  | .hbm, ⟨72, _⟩ => ⟨S_, .i32⟩
  | .hbm, ⟨73, _⟩ => ⟨S1600000, .i32⟩
  | .hbm, ⟨74, _⟩ => ⟨S1600000, .i32⟩
  | .hbm, ⟨75, _⟩ => ⟨S1600000, .i32⟩
  | .hbm, ⟨76, _⟩ => ⟨S1600000x1, .i32⟩
  | .hbm, ⟨77, _⟩ => ⟨S1600000x64, .f32⟩
  | .hbm, ⟨78, _⟩ => ⟨S1600000x64, .f32⟩
  | .hbm, ⟨79, _⟩ => ⟨S1600000x64, .f32⟩
  | .hbm, ⟨80, _⟩ => ⟨S_, .f32⟩
  | .hbm, ⟨81, _⟩ => ⟨S100000x64, .f32⟩
  | .hbm, ⟨82, _⟩ => ⟨S1600000x1, .i32⟩
  | .hbm, ⟨83, _⟩ => ⟨S100000x64, .f32⟩
  | .hbm, ⟨84, _⟩ => ⟨S100000x64, .f32⟩
  | .hbm, ⟨85, _⟩ => ⟨S_, .f32⟩
  | .hbm, ⟨86, _⟩ => ⟨S256x64, .f32⟩
  | .hbm, ⟨87, _⟩ => ⟨S100000x1, .i32⟩
  | .hbm, ⟨88, _⟩ => ⟨S256x64, .f32⟩
  | .hbm, ⟨89, _⟩ => ⟨S_, .f32⟩
  | .hbm, ⟨90, _⟩ => ⟨S100000, .f32⟩
  | .hbm, ⟨91, _⟩ => ⟨S_, .f32⟩
  | .hbm, ⟨92, _⟩ => ⟨S256, .f32⟩
  | .hbm, ⟨93, _⟩ => ⟨S100000x1, .i32⟩
  | .hbm, ⟨94, _⟩ => ⟨S256, .f32⟩
  | .hbm, ⟨95, _⟩ => ⟨S_, .f32⟩
  | .hbm, ⟨96, _⟩ => ⟨S256, .f32⟩
  | .hbm, ⟨97, _⟩ => ⟨S256, .f32⟩
  | .hbm, ⟨98, _⟩ => ⟨S256x1, .f32⟩
  | .hbm, ⟨99, _⟩ => ⟨S256x64, .f32⟩
  | .hbm, ⟨100, _⟩ => ⟨S256x64, .f32⟩
  | .hbm, ⟨101, _⟩ => ⟨S256x2, .f32⟩
  | .local _ .vmem, ⟨0, _⟩ => ⟨S5000x128, .f32⟩
  | .local _ .vmem, ⟨1, _⟩ => ⟨S5000x128, .f32⟩
  | .local _ .vmem, ⟨2, _⟩ => ⟨S128x64, .f32⟩
  | .local _ .vmem, ⟨3, _⟩ => ⟨S5000x64, .f32⟩
  | .local _ .vmem, ⟨4, _⟩ => ⟨S5000x64, .f32⟩
  | .local _ .vmem, ⟨5, _⟩ => ⟨S5000x64, .f32⟩
  | .local _ .vmem, ⟨6, _⟩ => ⟨S5000x64, .f32⟩
  | .local _ .vmem, ⟨7, _⟩ => ⟨S5000x64, .f32⟩
  | .local _ .vmem, ⟨8, _⟩ => ⟨S5000x64, .f32⟩
  | .local _ .vmem, ⟨9, _⟩ => ⟨S5000x1, .f32⟩
  | .local _ .vmem, ⟨10, _⟩ => ⟨S5000x1, .f32⟩
  | .local _ .vmem, ⟨11, _⟩ => ⟨S1x64, .f32⟩
  | .local _ .vmem, ⟨12, _⟩ => ⟨S64x64, .f32⟩
  | .local _ .vmem, ⟨13, _⟩ => ⟨S5000x64, .f32⟩
  | .local _ .vmem, ⟨14, _⟩ => ⟨S5000x64, .f32⟩
  | .local _ .vmem, ⟨15, _⟩ => ⟨S5000x64, .f32⟩
  | .local _ .vmem, ⟨16, _⟩ => ⟨S5000x64, .f32⟩
  | .local _ .vmem, ⟨17, _⟩ => ⟨S5000x64, .f32⟩
  | .local _ .vmem, ⟨18, _⟩ => ⟨S5000x64, .f32⟩
  | .local _ .vmem, ⟨19, _⟩ => ⟨S5000x1, .f32⟩
  | .local _ .vmem, ⟨20, _⟩ => ⟨S5000x1, .f32⟩
  | .local _ .vmem, ⟨21, _⟩ => ⟨S1x64, .f32⟩
  | .local _ .vmem, ⟨22, _⟩ => ⟨S5000x64, .f32⟩
  | .local _ .vmem, ⟨23, _⟩ => ⟨S5000x64, .f32⟩
  | .local _ .vmem, ⟨24, _⟩ => ⟨S256x64, .f32⟩
  | .local _ .vmem, ⟨25, _⟩ => ⟨S64x32, .f32⟩
  | .local _ .vmem, ⟨26, _⟩ => ⟨S1x32, .f32⟩
  | .local _ .vmem, ⟨27, _⟩ => ⟨S32x2, .f32⟩
  | .local _ .vmem, ⟨28, _⟩ => ⟨S1x2, .f32⟩
  | .local _ .vmem, ⟨29, _⟩ => ⟨S256x2, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst : Ref sig .tc := ⟨.hbm, 15, rfl⟩
abbrev main_v4 : Ref sig .tc := ⟨.hbm, 16, rfl⟩
abbrev main_cst_0 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_cst_1 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_c : Ref sig .tc := ⟨.hbm, 25, rfl⟩
abbrev main_v11 : Ref sig .tc := ⟨.hbm, 26, rfl⟩
abbrev main_v12 : Ref sig .tc := ⟨.hbm, 27, rfl⟩
abbrev main_c_2 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_c_3 : Ref sig .tc := ⟨.hbm, 34, rfl⟩
abbrev main_v18 : Ref sig .tc := ⟨.hbm, 35, rfl⟩
abbrev main_v19 : Ref sig .tc := ⟨.hbm, 36, rfl⟩
abbrev main_c_4 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_c_5 : Ref sig .tc := ⟨.hbm, 52, rfl⟩
abbrev main_v34 : Ref sig .tc := ⟨.hbm, 53, rfl⟩
abbrev main_v35 : Ref sig .tc := ⟨.hbm, 54, rfl⟩
abbrev main_c_6 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_cst_7 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_c_8 : Ref sig .tc := ⟨.hbm, 69, rfl⟩
abbrev main_v48 : Ref sig .tc := ⟨.hbm, 70, rfl⟩
abbrev main_v49 : Ref sig .tc := ⟨.hbm, 71, rfl⟩
abbrev main_c_9 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_cst_10 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_cst_11 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_cst_12 : Ref sig .tc := ⟨.hbm, 89, rfl⟩
abbrev main_v64 : Ref sig .tc := ⟨.hbm, 90, rfl⟩
abbrev main_cst_13 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_cst_14 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg5_0 : Ref sig .tc := ⟨.vmem, 13, rfl⟩
abbrev cc1_stg5_1 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg1_1 : Ref sig .tc := ⟨.vmem, 18, rfl⟩
abbrev cc2_stg2_0 : Ref sig .tc := ⟨.vmem, 19, rfl⟩
abbrev cc2_stg2_1 : Ref sig .tc := ⟨.vmem, 20, rfl⟩
abbrev cc2_stg3_0 : Ref sig .tc := ⟨.vmem, 21, rfl⟩
abbrev cc2_stg4_0 : Ref sig .tc := ⟨.vmem, 22, rfl⟩
abbrev cc2_stg4_1 : Ref sig .tc := ⟨.vmem, 23, rfl⟩
abbrev cc3_stg0_0 : Ref sig .tc := ⟨.vmem, 24, rfl⟩
abbrev cc3_stg1_0 : Ref sig .tc := ⟨.vmem, 25, rfl⟩
abbrev cc3_stg2_0 : Ref sig .tc := ⟨.vmem, 26, rfl⟩
abbrev cc3_stg3_0 : Ref sig .tc := ⟨.vmem, 27, rfl⟩
abbrev cc3_stg4_0 : Ref sig .tc := ⟨.vmem, 28, rfl⟩
abbrev cc3_stg5_0 : Ref sig .tc := ⟨.vmem, 29, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem4_0 : DmaSem sig := 12
abbrev cc1_sem5_0 : DmaSem sig := 13
abbrev cc1_sem5_1 : DmaSem sig := 14
abbrev cc2_sem0_0 : DmaSem sig := 15
abbrev cc2_sem0_1 : DmaSem sig := 16
abbrev cc2_sem1_0 : DmaSem sig := 17
abbrev cc2_sem1_1 : DmaSem sig := 18
abbrev cc2_sem2_0 : DmaSem sig := 19
abbrev cc2_sem2_1 : DmaSem sig := 20
abbrev cc2_sem3_0 : DmaSem sig := 21
abbrev cc2_sem4_0 : DmaSem sig := 22
abbrev cc2_sem4_1 : DmaSem sig := 23
abbrev cc3_sem0_0 : DmaSem sig := 24
abbrev cc3_sem1_0 : DmaSem sig := 25
abbrev cc3_sem2_0 : DmaSem sig := 26
abbrev cc3_sem3_0 : DmaSem sig := 27
abbrev cc3_sem4_0 : DmaSem sig := 28
abbrev cc3_sem5_0 : DmaSem sig := 29

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S64x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S5000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S1x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S5000x64 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev grid3 : Pipeline.Grid := ⟨1, ![1], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage3_0 : Fin 1 → Memref sig .tc .vmem S256x64 .f32 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))
abbrev reads3_0 : Fin grid3.rank → Bool := ![false]

abbrev stage3_1 : Fin 1 → Memref sig .tc .vmem S64x32 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x32 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S32x2 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x2 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S256x2 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  shapeCasts_S100000_S100000x1 : S100000.ShapeCasts S100000x1
  shapeCasts_S64_S1x64 : S64.ShapeCasts S1x64
  shapeCasts_S32_S1x32 : S32.ShapeCasts S1x32
  shapeCasts_S2_S1x2 : S2.ShapeCasts S1x2
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S5000x64_S5000x64_0_0 : ∀ a, (![0, 0] : Fin 2 → Nat) a + S5000x64.size a ≤ S5000x64.size a
  h_S5000x64 : 0 < S5000x64.numel
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  shapeCasts_S5000x64_S5000x64 : S5000x64.ShapeCasts S5000x64
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x64 : S5000x1.Broadcasts S5000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S64x64_S64x64_0_0 : ∀ a, (![0, 0] : Fin 2 → Nat) a + S64x64.size a ≤ S64x64.size a
  h_S64x64 : 0 < S64x64.numel
  bcast_S_S256x64 : S_.BroadcastsInDim S256x64 (![] : Fin 0 → Fin S256x64.rank)
  bcast_S100000_S100000x1_0 : S100000.BroadcastsInDim S100000x1 (![0] : Fin 1 → Fin S100000x1.rank)
  bcast_S_S256 : S_.BroadcastsInDim S256 (![] : Fin 0 → Fin S256.rank)
  bcast_S256_S256x1_0 : S256.BroadcastsInDim S256x1 (![0] : Fin 1 → Fin S256x1.rank)
  bcast_S256x1_S256x64_0_1 : S256x1.BroadcastsInDim S256x64 (![0, 1] : Fin 2 → Fin S256x64.rank)
  inb_S256x64_S256x64_0_0 : ∀ a, (![0, 0] : Fin 2 → Nat) a + S256x64.size a ≤ S256x64.size a
  h_S256x64 : 0 < S256x64.numel
  shapeCasts_S256x64_S256x64 : S256x64.ShapeCasts S256x64
  inb_S64x32_S64x32_0_0 : ∀ a, (![0, 0] : Fin 2 → Nat) a + S64x32.size a ≤ S64x32.size a
  h_S64x32 : 0 < S64x32.numel
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S256x32 : S1x32.Broadcasts S256x32
  inb_S32x2_S32x2_0_0 : ∀ a, (![0, 0] : Fin 2 → Nat) a + S32x2.size a ≤ S32x2.size a
  h_S32x2 : 0 < S32x2.numel
  inb_S1x2_S1x2_0_0 : ∀ a, (![0, 0] : Fin 2 → Nat) a + S1x2.size a ≤ S1x2.size a
  h_S1x2 : 0 < S1x2.numel
  shapeCasts_S1x2_S1x2 : S1x2.ShapeCasts S1x2
  broadcasts_S1x2_S256x2 : S1x2.Broadcasts S256x2
  inb_S256x2_S256x2_0_0 : ∀ a, (![0, 0] : Fin 2 → Nat) a + S256x2.size a ≤ S256x2.size a
  h_S256x2 : 0 < S256x2.numel
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  dot_S5000x128_S128x64_S5000x64_1_0_0_1_n_n_wf : DotDims.WF S5000x128 S128x64 S5000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S5000x64_S64x64_S5000x64_1_0_0_1_n_n_wf : DotDims.WF S5000x64 S64x64 S5000x64 [1] [0] [0] [1] [] []
  scatter_S256x64_S100000x1_S100000x64_1_0_0_1_wf : ScatterDims.WF S256x64 S100000x1 S100000x64 [1] [0] [0] 1
  scatter_S256_S100000x1_S100000_n_0_0_1_wf : ScatterDims.WF S256 S100000x1 S100000 [] [0] [0] 1
  dot_S256x64_S64x32_S256x32_1_0_0_1_n_n_wf : DotDims.WF S256x64 S64x32 S256x32 [1] [0] [0] [1] [] []
  dot_S256x32_S32x2_S256x2_1_0_0_1_n_n_wf : DotDims.WF S256x32 S32x2 S256x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x64.size a ≤ S100000x64.size a
  hwx0_2 : ∀ i : grid0.Coords, EltTy.bits .f32 = 32 ∨ (Rect.block (s := S100000x64) S5000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x64.size a ≤ S100000x64.size a
  hwx1_1 : ∀ i : grid1.Coords, EltTy.bits .f32 = 32 ∨ (Rect.block (s := S100000x64) S5000x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x1.size a ≤ S100000x1.size a
  hwx1_2 : ∀ i : grid1.Coords, EltTy.bits .f32 = 32 ∨ (Rect.block (s := S100000x1) S5000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64x64.size a ≤ S64x64.size a
  hwx1_4 : ∀ i : grid1.Coords, EltTy.bits .f32 = 32 ∨ (Rect.block (s := S64x64) S64x64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x64.size a ≤ S100000x64.size a
  hwx1_5 : ∀ i : grid1.Coords, EltTy.bits .f32 = 32 ∨ (Rect.block (s := S100000x64) S5000x64.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S100000x64.size a
  hwx2_0 : ∀ i : grid2.Coords, EltTy.bits .f32 = 32 ∨ (Rect.block (s := S100000x64) S5000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x64.size a ≤ S100000x64.size a
  hwx2_1 : ∀ i : grid2.Coords, EltTy.bits .f32 = 32 ∨ (Rect.block (s := S100000x64) S5000x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x1.size a ≤ S100000x1.size a
  hwx2_2 : ∀ i : grid2.Coords, EltTy.bits .f32 = 32 ∨ (Rect.block (s := S100000x1) S5000x1.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x64.size a ≤ S1x64.size a
  hwx2_3 : ∀ i : grid2.Coords, EltTy.bits .f32 = 32 ∨ (Rect.block (s := S1x64) S1x64.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S5000x64.size a ≤ S100000x64.size a
  hwx2_4 : ∀ i : grid2.Coords, EltTy.bits .f32 = 32 ∨ (Rect.block (s := S100000x64) S5000x64.size (cc2_transform_4 i) (hinb2_4 i)).WholeWords (EltTy.packing .f32)
  hrank3 : 0 < grid3.rank
  hstage3_0 : ∀ j, (stage3_0 j).IsWhole
  nbuf3_0 : grid3.bufCount reads3_0 true = 1
  hreads3_0 : ∀ i i' : grid3.Coords, (∀ a, reads3_0 a = true → i a = i' a) → cc3_transform_0 i = cc3_transform_0 i'
  hinb3_0 : ∀ (i : grid3.Coords) a, (cc3_transform_0 i a + 1) * S256x64.size a ≤ S256x64.size a
  hwx3_0 : ∀ i : grid3.Coords, EltTy.bits .f32 = 32 ∨ (Rect.block (s := S256x64) S256x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S64x32.size a ≤ S64x32.size a
  hwx3_1 : ∀ i : grid3.Coords, EltTy.bits .f32 = 32 ∨ (Rect.block (s := S64x32) S64x32.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x32.size a ≤ S1x32.size a
  hwx3_2 : ∀ i : grid3.Coords, EltTy.bits .f32 = 32 ∨ (Rect.block (s := S1x32) S1x32.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S32x2.size a ≤ S32x2.size a
  hwx3_3 : ∀ i : grid3.Coords, EltTy.bits .f32 = 32 ∨ (Rect.block (s := S32x2) S32x2.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x2.size a ≤ S1x2.size a
  hwx3_4 : ∀ i : grid3.Coords, EltTy.bits .f32 = 32 ∨ (Rect.block (s := S1x2) S1x2.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S256x2.size a ≤ S256x2.size a
  hwx3_5 : ∀ i : grid3.Coords, EltTy.bits .f32 = 32 ∨ (Rect.block (s := S256x2) S256x2.size (cc3_transform_5 i) (hinb3_5 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def scatter_S256x64_S100000x1_S100000x64_1_0_0_1 : ScatterDims S256x64 S100000x1 S100000x64 where
  updateWindowDims := [1]
  insertedWindowDims := [0]
  scatterDimsToOperandDims := [0]
  indexVectorDim := 1
  wf := scatter_S256x64_S100000x1_S100000x64_1_0_0_1_wf
def scatter_S256_S100000x1_S100000_n_0_0_1 : ScatterDims S256 S100000x1 S100000 where
  updateWindowDims := []
  insertedWindowDims := [0]
  scatterDimsToOperandDims := [0]
  indexVectorDim := 1
  wf := scatter_S256_S100000x1_S100000_n_0_0_1_wf
def dot_S256x64_S64x32_S256x32_1_0_0_1_n_n : DotDims S256x64 S64x32 S256x32 where
  lhsContracting := [1]
  rhsContracting := [0]
  lhsNonContracting := [0]
  rhsNonContracting := [1]
  lhsBatch := []
  rhsBatch := []
  wf := dot_S256x64_S64x32_S256x32_1_0_0_1_n_n_wf
def dot_S256x32_S32x2_S256x2_1_0_0_1_n_n : DotDims S256x32 S32x2 S256x2 where
  lhsContracting := [1]
  rhsContracting := [0]
  lhsNonContracting := [0]
  rhsNonContracting := [1]
  lhsBatch := []
  rhsBatch := []
  wf := dot_S256x32_S32x2_S256x2_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v32) S5000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v45) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v32) S5000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v27) S5000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v28) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg5) S64x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v46) S5000x64.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v59) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v46) S5000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v27) S5000x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v29) S1x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v60) S5000x64.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev win3_0 : Pipeline.Window sig grid3 :=
  Pipeline.Window.ofSpec (Memref.whole main_v72) S256x64.size cc3_transform_0 reads3_0 false true 1 stage3_0 sem3_0
    hrank3 hreads3_0 hinb3_0 nbuf3_0 (Memref.isWhole_whole _) hwx3_0 hstage3_0

abbrev win3_1 : Pipeline.Window sig grid3 :=
  Pipeline.Window.ofSpec (Memref.whole main_arg7) S64x32.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v30) S1x32.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_arg9) S32x2.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v31) S1x2.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v73) S256x2.size cc3_transform_5 reads3_5 true true 1 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S100000 : Shape := ⟨1, ![100000]⟩
abbrev S128x64 : Shape := ⟨2, ![128, 64]⟩
abbrev S64 : Shape := ⟨1, ![64]⟩
abbrev S64x64 : Shape := ⟨2, ![64, 64]⟩
abbrev S64x32 : Shape := ⟨2, ![64, 32]⟩
abbrev S32 : Shape := ⟨1, ![32]⟩
abbrev S32x2 : Shape := ⟨2, ![32, 2]⟩
abbrev S2 : Shape := ⟨1, ![2]⟩
abbrev S1x1600000 : Shape := ⟨2, ![1, 1600000]⟩
abbrev S1600000 : Shape := ⟨1, ![1600000]⟩
abbrev S100000x64 : Shape := ⟨2, ![100000, 64]⟩
abbrev S_ : Shape := ⟨0, ![]⟩
abbrev S1600000x1 : Shape := ⟨2, ![1600000, 1]⟩
abbrev S1600000x64 : Shape := ⟨2, ![1600000, 64]⟩
abbrev S100000x1 : Shape := ⟨2, ![100000, 1]⟩
abbrev S1x64 : Shape := ⟨2, ![1, 64]⟩
abbrev S256x64 : Shape := ⟨2, ![256, 64]⟩
abbrev S256 : Shape := ⟨1, ![256]⟩
abbrev S256x1 : Shape := ⟨2, ![256, 1]⟩
abbrev S256x32 : Shape := ⟨2, ![256, 32]⟩
abbrev S1x32 : Shape := ⟨2, ![1, 32]⟩
abbrev S256x2 : Shape := ⟨2, ![256, 2]⟩
abbrev S1x2 : Shape := ⟨2, ![1, 2]⟩

abbrev nBuf : Space → Nat
  | .hbm => 156
  | .vmem => 0
  | .smem => 0
  | _ => 0

abbrev hbmTy0_0 (i : Nat) : BufTy := match i % 128 with
  | 0 => ⟨S100000x128, .f32⟩
  | 1 => ⟨S2x1600000, .i32⟩
  | 2 => ⟨S100000, .i32⟩
  | 3 => ⟨S128x64, .f32⟩
  | 4 => ⟨S64, .f32⟩
  | 5 => ⟨S64x64, .f32⟩
  | 6 => ⟨S64, .f32⟩
  | 7 => ⟨S64x32, .f32⟩
  | 8 => ⟨S32, .f32⟩
  | 9 => ⟨S32x2, .f32⟩
  | 10 => ⟨S2, .f32⟩
  | 11 => ⟨S1x1600000, .i32⟩
  | 12 => ⟨S1600000, .i32⟩
  | 13 => ⟨S1x1600000, .i32⟩
  | 14 => ⟨S1600000, .i32⟩
  | 15 => ⟨S100000x64, .f32⟩
  | 16 => ⟨S_, .f32⟩
  | 17 => ⟨S1600000, .f32⟩
  | 18 => ⟨S_, .f32⟩
  | 19 => ⟨S100000, .f32⟩
  | 20 => ⟨S1600000x1, .i32⟩
  | 21 => ⟨S100000, .f32⟩
  | 22 => ⟨S_, .f32⟩
  | 23 => ⟨S100000, .f32⟩
  | 24 => ⟨S100000, .f32⟩
  | 25 => ⟨S100000, .f32⟩
  | 26 => ⟨S_, .i32⟩
  | 27 => ⟨S1600000, .i32⟩
  | 28 => ⟨S1600000, .i1⟩
  | 29 => ⟨S_, .i32⟩
  | 30 => ⟨S1600000, .i32⟩
  | 31 => ⟨S1600000, .i32⟩
  | 32 => ⟨S1600000, .i32⟩
  | 33 => ⟨S1600000x1, .i32⟩
  | 34 => ⟨S1600000, .f32⟩
  | 35 => ⟨S_, .i32⟩
  | 36 => ⟨S1600000, .i32⟩
  | 37 => ⟨S1600000, .i1⟩
  | 38 => ⟨S_, .i32⟩
  | 39 => ⟨S1600000, .i32⟩
  | 40 => ⟨S1600000, .i32⟩
  | 41 => ⟨S1600000, .i32⟩
  | 42 => ⟨S1600000x1, .i32⟩
  | 43 => ⟨S1600000, .f32⟩
  | 44 => ⟨S1600000, .f32⟩
  | 45 => ⟨S1600000x1, .f32⟩
  | 46 => ⟨S_, .i32⟩
  | 47 => ⟨S1600000, .i32⟩
  | 48 => ⟨S1600000, .i1⟩
  | 49 => ⟨S_, .i32⟩
  | 50 => ⟨S1600000, .i32⟩
  | 51 => ⟨S1600000, .i32⟩
  | 52 => ⟨S1600000, .i32⟩
  | 53 => ⟨S1600000x1, .i32⟩
  | 54 => ⟨S1600000x64, .f32⟩
  | 55 => ⟨S1600000x64, .f32⟩
  | 56 => ⟨S1600000x64, .f32⟩
  | 57 => ⟨S_, .f32⟩
  | 58 => ⟨S100000x64, .f32⟩
  | 59 => ⟨S1600000x1, .i32⟩
  | 60 => ⟨S100000x64, .f32⟩
  | 61 => ⟨S100000, .f32⟩
  | 62 => ⟨S100000x1, .f32⟩
  | 63 => ⟨S100000x64, .f32⟩
  | 64 => ⟨S100000x64, .f32⟩
  | 65 => ⟨S100000x64, .f32⟩
  | 66 => ⟨S1x64, .f32⟩
  | 67 => ⟨S100000x64, .f32⟩
  | 68 => ⟨S100000x64, .f32⟩
  | 69 => ⟨S_, .f32⟩
  | 70 => ⟨S100000x64, .f32⟩
  | 71 => ⟨S100000x64, .f32⟩
  | 72 => ⟨S100000x64, .f32⟩
  | 73 => ⟨S_, .f32⟩
  | 74 => ⟨S1600000, .f32⟩
  | 75 => ⟨S_, .f32⟩
  | 76 => ⟨S100000, .f32⟩
  | 77 => ⟨S1600000x1, .i32⟩
  | 78 => ⟨S100000, .f32⟩
  | 79 => ⟨S_, .f32⟩
  | 80 => ⟨S100000, .f32⟩
  | 81 => ⟨S100000, .f32⟩
  | 82 => ⟨S100000, .f32⟩
  | 83 => ⟨S_, .i32⟩
  | 84 => ⟨S1600000, .i32⟩
  | 85 => ⟨S1600000, .i1⟩
  | 86 => ⟨S_, .i32⟩
  | 87 => ⟨S1600000, .i32⟩
  | 88 => ⟨S1600000, .i32⟩
  | 89 => ⟨S1600000, .i32⟩
  | 90 => ⟨S1600000x1, .i32⟩
  | 91 => ⟨S1600000, .f32⟩
  | 92 => ⟨S_, .i32⟩
  | 93 => ⟨S1600000, .i32⟩
  | 94 => ⟨S1600000, .i1⟩
  | 95 => ⟨S_, .i32⟩
  | 96 => ⟨S1600000, .i32⟩
  | 97 => ⟨S1600000, .i32⟩
  | 98 => ⟨S1600000, .i32⟩
  | 99 => ⟨S1600000x1, .i32⟩
  | 100 => ⟨S1600000, .f32⟩
  | 101 => ⟨S1600000, .f32⟩
  | 102 => ⟨S1600000x1, .f32⟩
  | 103 => ⟨S_, .i32⟩
  | 104 => ⟨S1600000, .i32⟩
  | 105 => ⟨S1600000, .i1⟩
  | 106 => ⟨S_, .i32⟩
  | 107 => ⟨S1600000, .i32⟩
  | 108 => ⟨S1600000, .i32⟩
  | 109 => ⟨S1600000, .i32⟩
  | 110 => ⟨S1600000x1, .i32⟩
  | 111 => ⟨S1600000x64, .f32⟩
  | 112 => ⟨S1600000x64, .f32⟩
  | 113 => ⟨S1600000x64, .f32⟩
  | 114 => ⟨S_, .f32⟩
  | 115 => ⟨S100000x64, .f32⟩
  | 116 => ⟨S1600000x1, .i32⟩
  | 117 => ⟨S100000x64, .f32⟩
  | 118 => ⟨S100000, .f32⟩
  | 119 => ⟨S100000x1, .f32⟩
  | 120 => ⟨S100000x64, .f32⟩
  | 121 => ⟨S100000x64, .f32⟩
  | 122 => ⟨S100000x64, .f32⟩
  | 123 => ⟨S1x64, .f32⟩
  | 124 => ⟨S100000x64, .f32⟩
  | 125 => ⟨S100000x64, .f32⟩
  | 126 => ⟨S_, .f32⟩
  | 127 => ⟨S100000x64, .f32⟩
  | _ => ⟨S100000x128, .f32⟩

abbrev hbmTy0_1 (i : Nat) : BufTy := match i % 128 with
  | 0 => ⟨S100000x64, .f32⟩
  | 1 => ⟨S_, .f32⟩
  | 2 => ⟨S256x64, .f32⟩
  | 3 => ⟨S100000x1, .i32⟩
  | 4 => ⟨S256x64, .f32⟩
  | 5 => ⟨S_, .f32⟩
  | 6 => ⟨S100000, .f32⟩
  | 7 => ⟨S_, .f32⟩
  | 8 => ⟨S256, .f32⟩
  | 9 => ⟨S100000x1, .i32⟩
  | 10 => ⟨S256, .f32⟩
  | 11 => ⟨S_, .f32⟩
  | 12 => ⟨S256, .f32⟩
  | 13 => ⟨S256, .f32⟩
  | 14 => ⟨S256x1, .f32⟩
  | 15 => ⟨S256x64, .f32⟩
  | 16 => ⟨S256x64, .f32⟩
  | 17 => ⟨S256x32, .f32⟩
  | 18 => ⟨S1x32, .f32⟩
  | 19 => ⟨S256x32, .f32⟩
  | 20 => ⟨S256x32, .f32⟩
  | 21 => ⟨S_, .f32⟩
  | 22 => ⟨S256x32, .f32⟩
  | 23 => ⟨S256x32, .f32⟩
  | 24 => ⟨S256x2, .f32⟩
  | 25 => ⟨S1x2, .f32⟩
  | 26 => ⟨S256x2, .f32⟩
  | 27 => ⟨S256x2, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_cst : Ref sig .tc := ⟨.hbm, 16, rfl⟩
abbrev main_v5 : Ref sig .tc := ⟨.hbm, 17, rfl⟩
abbrev main_cst_0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_cst_1 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_c : Ref sig .tc := ⟨.hbm, 26, rfl⟩
abbrev main_v12 : Ref sig .tc := ⟨.hbm, 27, rfl⟩
abbrev main_v13 : Ref sig .tc := ⟨.hbm, 28, rfl⟩
abbrev main_c_2 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_c_3 : Ref sig .tc := ⟨.hbm, 35, rfl⟩
abbrev main_v19 : Ref sig .tc := ⟨.hbm, 36, rfl⟩
abbrev main_v20 : Ref sig .tc := ⟨.hbm, 37, rfl⟩
abbrev main_c_4 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_c_5 : Ref sig .tc := ⟨.hbm, 46, rfl⟩
abbrev main_v28 : Ref sig .tc := ⟨.hbm, 47, rfl⟩
abbrev main_v29 : Ref sig .tc := ⟨.hbm, 48, rfl⟩
abbrev main_c_6 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_cst_7 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_call0_cst : Ref sig .tc := ⟨.hbm, 69, rfl⟩
abbrev main_call0_v0 : Ref sig .tc := ⟨.hbm, 70, rfl⟩
abbrev main_v48 : Ref sig .tc := ⟨.hbm, 71, rfl⟩
abbrev main_v49 : Ref sig .tc := ⟨.hbm, 72, rfl⟩
abbrev main_cst_8 : Ref sig .tc := ⟨.hbm, 73, rfl⟩
abbrev main_v50 : Ref sig .tc := ⟨.hbm, 74, rfl⟩
abbrev main_cst_9 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_cst_10 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_c_11 : Ref sig .tc := ⟨.hbm, 83, rfl⟩
abbrev main_v57 : Ref sig .tc := ⟨.hbm, 84, rfl⟩
abbrev main_v58 : Ref sig .tc := ⟨.hbm, 85, rfl⟩
abbrev main_c_12 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_c_13 : Ref sig .tc := ⟨.hbm, 92, rfl⟩
abbrev main_v64 : Ref sig .tc := ⟨.hbm, 93, rfl⟩
abbrev main_v65 : Ref sig .tc := ⟨.hbm, 94, rfl⟩
abbrev main_c_14 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_c_15 : Ref sig .tc := ⟨.hbm, 103, rfl⟩
abbrev main_v73 : Ref sig .tc := ⟨.hbm, 104, rfl⟩
abbrev main_v74 : Ref sig .tc := ⟨.hbm, 105, rfl⟩
abbrev main_c_16 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_cst_17 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_v89 : Ref sig .tc := ⟨.hbm, 122, rfl⟩
abbrev main_v90 : Ref sig .tc := ⟨.hbm, 123, rfl⟩
abbrev main_v91 : Ref sig .tc := ⟨.hbm, 124, rfl⟩
abbrev main_v92 : Ref sig .tc := ⟨.hbm, 125, rfl⟩
abbrev main_call1_cst : Ref sig .tc := ⟨.hbm, 126, rfl⟩
abbrev main_call1_v0 : Ref sig .tc := ⟨.hbm, 127, rfl⟩
abbrev main_v93 : Ref sig .tc := ⟨.hbm, 128, rfl⟩
abbrev main_cst_18 : Ref sig .tc := ⟨.hbm, 129, rfl⟩
abbrev main_v94 : Ref sig .tc := ⟨.hbm, 130, rfl⟩
abbrev main_v95 : Ref sig .tc := ⟨.hbm, 131, rfl⟩
abbrev main_v96 : Ref sig .tc := ⟨.hbm, 132, rfl⟩
abbrev main_cst_19 : Ref sig .tc := ⟨.hbm, 133, rfl⟩
abbrev main_v97 : Ref sig .tc := ⟨.hbm, 134, rfl⟩
abbrev main_cst_20 : Ref sig .tc := ⟨.hbm, 135, rfl⟩
abbrev main_v98 : Ref sig .tc := ⟨.hbm, 136, rfl⟩
abbrev main_v99 : Ref sig .tc := ⟨.hbm, 137, rfl⟩
abbrev main_v100 : Ref sig .tc := ⟨.hbm, 138, rfl⟩
abbrev main_cst_21 : Ref sig .tc := ⟨.hbm, 139, rfl⟩
abbrev main_v101 : Ref sig .tc := ⟨.hbm, 140, rfl⟩
abbrev main_v102 : Ref sig .tc := ⟨.hbm, 141, rfl⟩
abbrev main_v103 : Ref sig .tc := ⟨.hbm, 142, rfl⟩
abbrev main_v104 : Ref sig .tc := ⟨.hbm, 143, rfl⟩
abbrev main_v105 : Ref sig .tc := ⟨.hbm, 144, rfl⟩
abbrev main_v106 : Ref sig .tc := ⟨.hbm, 145, rfl⟩
abbrev main_v107 : Ref sig .tc := ⟨.hbm, 146, rfl⟩
abbrev main_v108 : Ref sig .tc := ⟨.hbm, 147, rfl⟩
abbrev main_v109 : Ref sig .tc := ⟨.hbm, 148, rfl⟩
abbrev main_call2_cst : Ref sig .tc := ⟨.hbm, 149, rfl⟩
abbrev main_call2_v0 : Ref sig .tc := ⟨.hbm, 150, rfl⟩
abbrev main_v110 : Ref sig .tc := ⟨.hbm, 151, rfl⟩
abbrev main_v111 : Ref sig .tc := ⟨.hbm, 152, rfl⟩
abbrev main_v112 : Ref sig .tc := ⟨.hbm, 153, rfl⟩
abbrev main_v113 : Ref sig .tc := ⟨.hbm, 154, rfl⟩
abbrev main_v114 : Ref sig .tc := ⟨.hbm, 155, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S256x64 : S_.BroadcastsInDim S256x64 (![] : Fin 0 → Fin S256x64.rank)
  bcast_S_S256 : S_.BroadcastsInDim S256 (![] : Fin 0 → Fin S256.rank)
  bcast_S256_S256x1_0 : S256.BroadcastsInDim S256x1 (![0] : Fin 1 → Fin S256x1.rank)
  bcast_S256x1_S256x64_0_1 : S256x1.BroadcastsInDim S256x64 (![0, 1] : Fin 2 → Fin S256x64.rank)
  bcast_S32_S1x32_1 : S32.BroadcastsInDim S1x32 (![1] : Fin 1 → Fin S1x32.rank)
  bcast_S1x32_S256x32_0_1 : S1x32.BroadcastsInDim S256x32 (![0, 1] : Fin 2 → Fin S256x32.rank)
  bcast_S_S256x32 : S_.BroadcastsInDim S256x32 (![] : Fin 0 → Fin S256x32.rank)
  bcast_S2_S1x2_1 : S2.BroadcastsInDim S1x2 (![1] : Fin 1 → Fin S1x2.rank)
  bcast_S1x2_S256x2_0_1 : S1x2.BroadcastsInDim S256x2 (![0, 1] : Fin 2 → Fin S256x2.rank)
  dot_S100000x128_S128x64_S100000x64_1_0_0_1_n_n_wf : DotDims.WF S100000x128 S128x64 S100000x64 [1] [0] [0] [1] [] []
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S100000x64_S64x64_S100000x64_1_0_0_1_n_n_wf : DotDims.WF S100000x64 S64x64 S100000x64 [1] [0] [0] [1] [] []
  scatter_S256x64_S100000x1_S100000x64_1_0_0_1_wf : ScatterDims.WF S256x64 S100000x1 S100000x64 [1] [0] [0] 1
  scatter_S256_S100000x1_S100000_n_0_0_1_wf : ScatterDims.WF S256 S100000x1 S100000 [] [0] [0] 1
  dot_S256x64_S64x32_S256x32_1_0_0_1_n_n_wf : DotDims.WF S256x64 S64x32 S256x32 [1] [0] [0] [1] [] []
  dot_S256x32_S32x2_S256x2_1_0_0_1_n_n_wf : DotDims.WF S256x32 S32x2 S256x2 [1] [0] [0] [1] [] []

variable [Facts₀]

def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def scatter_S256x64_S100000x1_S100000x64_1_0_0_1 : ScatterDims S256x64 S100000x1 S100000x64 where
  updateWindowDims := [1]
  insertedWindowDims := [0]
  scatterDimsToOperandDims := [0]
  indexVectorDim := 1
  wf := scatter_S256x64_S100000x1_S100000x64_1_0_0_1_wf
def scatter_S256_S100000x1_S100000_n_0_0_1 : ScatterDims S256 S100000x1 S100000 where
  updateWindowDims := []
  insertedWindowDims := [0]
  scatterDimsToOperandDims := [0]
  indexVectorDim := 1
  wf := scatter_S256_S100000x1_S100000_n_0_0_1_wf
def dot_S256x64_S64x32_S256x32_1_0_0_1_n_n : DotDims S256x64 S64x32 S256x32 where
  lhsContracting := [1]
  rhsContracting := [0]
  lhsNonContracting := [0]
  rhsNonContracting := [1]
  lhsBatch := []
  rhsBatch := []
  wf := dot_S256x64_S64x32_S256x32_1_0_0_1_n_n_wf
def dot_S256x32_S32x2_S256x2_1_0_0_1_n_n : DotDims S256x32 S32x2 S256x2 where
  lhsContracting := [1]
  rhsContracting := [0]
  lhsNonContracting := [0]
  rhsNonContracting := [1]
  lhsBatch := []
  rhsBatch := []
  wf := dot_S256x32_S32x2_S256x2_1_0_0_1_n_n_wf

class Facts : Prop extends Facts₀ where

variable [Facts]
-- ==== Proof.KernelRun.lean ====
/-
  The idealized kernel program's run with its result named. The program is four kernel launches among stretches of host
  operations; every weakly fair execution terminates, and in every final state each buffer no kernel scopes holds what the fold
  through the program leaves in it: the launch contents pushed through each host stretch's operations and, at each launch, the
  launch's arrays replaced by what its write-backs leave. Read at the program's result buffer this names the result; read at
  the argument buffers it gives them back unchanged.
-/
import proofs.«171051_j85856396247086_1_alg».proof.Proof.Gen.KernelIdeal.Frame

set_option maxRecDepth 16384

noncomputable section

namespace Cert.KernelIdeal.Whole

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting; the result buffer ends at the last boundary's
    contents and every argument buffer as launched. -/
theorem run_result : θ_run defs (onTc (τ := τ) (main (F := F))) ⟨m, fun _ => 0, ρ⟩ (fun r => ∀ c : Dev nD,
      r.2.mem ((c.tc : Thread nD τ).loc main_v73) = W8 m ρ c (Proc.devRef .tc main_v73)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v73 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c),
       (h c _ (mem_uc main_arg6 (by decide))).trans (W8_main_arg6 m ρ c),
       (h c _ (mem_uc main_arg7 (by decide))).trans (W8_main_arg7 m ρ c),
       (h c _ (mem_uc main_arg8 (by decide))).trans (W8_main_arg8 m ρ c),
       (h c _ (mem_uc main_arg9 (by decide))).trans (W8_main_arg9 m ρ c),
       (h c _ (mem_uc main_arg10 (by decide))).trans (W8_main_arg10 m ρ c)⟩)

end Cert.KernelIdeal.Whole

end
-- ==== Proof.LibPlainDot.lean ====
/-
  A plain two-dimensional matrix product — `M × K` by `K × N`, contracting the left operand's columns with the right operand's
  rows, no batch axis (`DotDims.plain M K N`, the dimension numbers `<[1], [0], [0], [1]>`) — read at an output index over the
  extended reals: both a kernel's `tpu.matmul` into a zero accumulator and the host's `dot_general` are the finite sum
  `Σ_{k < K} lhs (r, k) · rhs (k, j)`, with the contraction index a plain `Fin K` and the operand indices built from coordinates.
  A printed record `dot_S…_1_0_0_1_n_n` of these dimension numbers IS `DotDims.plain M K N` (`rfl`: the lists coincide and the
  well-formedness field is a proposition), so one `rw` with that equation brings a printed product under these lemmas.
-/
import Idealize.ShloMosaic.PureOps.Ideal.Laws
import Idealize.ShloMosaic.Lib.ValueIdx

namespace Idealize.ShloMosaic.PlainDot

open Idealize.ShloMosaic.ValueIdx

variable {M K N : Nat}

theorem contr_rank : (DotDims.plain M K N).contr.rank = 1 := rfl
theorem contr_size : (DotDims.plain M K N).contr.size ⟨0, by rw [contr_rank]; exact Nat.one_pos⟩ = K := rfl

/-- The left operand's row coordinate is the output's. -/
theorem lhsIdx_val0 (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

/-- The left operand's column coordinate is the contraction position. -/
theorem lhsIdx_val1 (j : (⟨2, ![M, N]⟩ : Shape).Idx) (q : (DotDims.plain M K N).contr.Idx) :
    ((DotDims.plain M K N).lhsIdx j q 1).val = (q ⟨0, by rw [contr_rank]; exact Nat.one_pos⟩).val :=
  (DotDims.plain M K N).lhsIdx_val_of_single (cl := (1 : Fin 2)) rfl j q

/-- The right operand's row coordinate is the contraction position. -/
theorem rhsIdx_val0 (j : (⟨2, ![M, N]⟩ : Shape).Idx) (q : (DotDims.plain M K N).contr.Idx) :
    ((DotDims.plain M K N).rhsIdx j q 0).val = (q ⟨0, by rw [contr_rank]; exact Nat.one_pos⟩).val :=
  (DotDims.plain M K N).rhsIdx_val_of_single (cr := (0 : Fin 2)) rfl j q

/-- The right operand's column coordinate is the output's. -/
theorem rhsIdx_val1 (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- The left operand's index at output index `j` and contraction position `k` is `(j₀, k)`. -/
theorem lhsIdx_eq (j : (⟨2, ![M, N]⟩ : Shape).Idx) (k : Fin K) :
    (DotDims.plain M K N).lhsIdx j ((contrEquiv1 (DotDims.plain M K N) K contr_rank contr_size).symm k)
      = ix2 ⟨(j 0).val, idx2_lt0 j⟩ k := by
  have hk := contrEquiv1_symm_val (DotDims.plain M K N) K contr_rank contr_size k
  funext a
  apply Fin.ext
  match a with
  | ⟨0, _⟩ => exact lhsIdx_val0 j _
  | ⟨1, _⟩ => exact (lhsIdx_val1 j _).trans hk

/-- The right operand's index there is `(k, j₁)`. -/
theorem rhsIdx_eq (j : (⟨2, ![M, N]⟩ : Shape).Idx) (k : Fin K) :
    (DotDims.plain M K N).rhsIdx j ((contrEquiv1 (DotDims.plain M K N) K contr_rank contr_size).symm k)
      = ix2 k ⟨(j 1).val, idx2_lt1 j⟩ := by
  have hk := contrEquiv1_symm_val (DotDims.plain M K N) K contr_rank contr_size k
  funext a
  apply Fin.ext
  match a with
  | ⟨0, _⟩ => exact (rhsIdx_val0 j _).trans hk
  | ⟨1, _⟩ => exact rhsIdx_val1 j _

/-- A kernel's plain matrix product into the zero accumulator, at an output index: the sum over the contracted coordinate. -/
theorem matmul_apply {φ₁ φ₂ : FTy} (prec : Option ContractPrecision) (lhs : FVec Ideal ⟨2, ![M, K]⟩ φ₁)
    (rhs : FVec Ideal ⟨2, ![K, N]⟩ φ₂) (j : (⟨2, ![M, N]⟩ : Shape).Idx) :
    FloatOps.matmul (DotDims.plain M K N) prec lhs rhs (constant ⟨2, ![M, N]⟩ .f32 0x00000000#32) j
      = ∑ k : Fin K, lhs (ix2 ⟨(j 0).val, idx2_lt0 j⟩ k) * rhs (ix2 k ⟨(j 1).val, idx2_lt1 j⟩) := by
  rw [Ideal.matmul_constant_zero_apply,
    ← Equiv.sum_comp (contrEquiv1 (DotDims.plain M K N) K contr_rank contr_size).symm]
  refine Finset.sum_congr rfl fun k _ => ?_
  rw [lhsIdx_eq, rhsIdx_eq]

/-- The host's plain `dot_general` at an output index: the same sum. -/
theorem dotGeneral_apply {φ₁ φ₂ : FTy} (prec : Option ContractPrecision) (sched : HostSchedule)
    (lhs : FVec Ideal ⟨2, ![M, K]⟩ φ₁) (rhs : FVec Ideal ⟨2, ![K, N]⟩ φ₂) (j : (⟨2, ![M, N]⟩ : Shape).Idx) :
    FloatOps.dotGeneral (DotDims.plain M K N) prec sched lhs rhs j
      = ∑ k : Fin K, lhs (ix2 ⟨(j 0).val, idx2_lt0 j⟩ k) * rhs (ix2 k ⟨(j 1).val, idx2_lt1 j⟩) := by
  rw [Ideal.dotGeneral_apply,
    ← Equiv.sum_comp (contrEquiv1 (DotDims.plain M K N) K contr_rank contr_size).symm]
  refine Finset.sum_congr rfl fun k _ => ?_
  rw [lhsIdx_eq, rhsIdx_eq]

/-- At an index given by coordinates. -/
theorem matmul_apply_ix2 {φ₁ φ₂ : FTy} (prec : Option ContractPrecision) (lhs : FVec Ideal ⟨2, ![M, K]⟩ φ₁)
    (rhs : FVec Ideal ⟨2, ![K, N]⟩ φ₂) (r : Fin M) (c : Fin N) :
    FloatOps.matmul (DotDims.plain M K N) prec lhs rhs (constant ⟨2, ![M, N]⟩ .f32 0x00000000#32) (ix2 r c)
      = ∑ k : Fin K, lhs (ix2 r k) * rhs (ix2 k c) :=
  matmul_apply prec lhs rhs (ix2 r c)

theorem dotGeneral_apply_ix2 {φ₁ φ₂ : FTy} (prec : Option ContractPrecision) (sched : HostSchedule)
    (lhs : FVec Ideal ⟨2, ![M, K]⟩ φ₁) (rhs : FVec Ideal ⟨2, ![K, N]⟩ φ₂) (r : Fin M) (c : Fin N) :
    FloatOps.dotGeneral (DotDims.plain M K N) prec sched lhs rhs (ix2 r c)
      = ∑ k : Fin K, lhs (ix2 r k) * rhs (ix2 k c) :=
  dotGeneral_apply prec sched lhs rhs (ix2 r c)

end Idealize.ShloMosaic.PlainDot
-- ==== Proof.LibRowProduct.lean ====
/-
  Rows times a weight matrix, `Σ_k X(r,k)·W(k,j)`, over the extended reals, as ONE function of the two whole arrays, and
  its two spellings. The host's plain `dot_general` IS that function. A row-tiled kernel multiplies a block of rows,
  both operands first rounded to bf16 (the identity on the extended reals), into a zero accumulator: entry `(p, j)` of
  the block's product is the function's entry at the block's row `p`, so a block that holds the rows `o + p` of `X` yields
  the rows `o + p` of the whole product. No finiteness is used anywhere: a sum of products is the same sum on both sides.
-/
import Idealize.ShloMosaic.PureOps.Ideal.Laws
import Idealize.ShloMosaic.Lib.ValueIdx
import proofs.«171051_j85856396247086_1_alg».proof.Proof.LibPlainDot

namespace Idealize.ShloMosaic.RowProduct

open Idealize.ShloMosaic.ValueIdx

variable {A B K M : Nat}

/-- The product of the rows of `X` with `W`: entry `(r, j)` is `Σ_k X(r,k)·W(k,j)`. -/
noncomputable def prod (X : FVec Ideal ⟨2, ![A, K]⟩ .f32) (W : FVec Ideal ⟨2, ![K, M]⟩ .f32) : FVec Ideal ⟨2, ![A, M]⟩ .f32 :=
  fun i => ∑ k : Fin K, X (ix2 ⟨(i 0).val, idx2_lt0 i⟩ k) * W (ix2 k ⟨(i 1).val, idx2_lt1 i⟩)

theorem prod_ix2 (X : FVec Ideal ⟨2, ![A, K]⟩ .f32) (W : FVec Ideal ⟨2, ![K, M]⟩ .f32) (r : Fin A) (j : Fin M) :
    prod X W (ix2 r j) = ∑ k : Fin K, X (ix2 r k) * W (ix2 k j) := rfl

/-- The host's plain `dot_general` is that product, as whole arrays. -/
theorem host_eq (prec : Option ContractPrecision) (sched : HostSchedule) (X : FVec Ideal ⟨2, ![A, K]⟩ .f32)
    (W : FVec Ideal ⟨2, ![K, M]⟩ .f32) : FloatOps.dotGeneral (DotDims.plain A K M) prec sched X W = prod X W := by
  funext i
  obtain ⟨r, j, rfl⟩ : ∃ (r : Fin A) (j : Fin M), i = ix2 r j := ⟨i 0, i 1, eq_ix2 i⟩
  exact PlainDot.dotGeneral_apply_ix2 prec sched X W r j

/-- A kernel body's product of a block of rows, both operands rounded to bf16, into a zero accumulator, at `(p, j)`. -/
theorem body_apply (prec : Option ContractPrecision) (x0 : FVec Ideal ⟨2, ![B, K]⟩ .f32) (x1 : FVec Ideal ⟨2, ![K, M]⟩ .f32)
    (h0 h1 : FTy.bf16.bits < FTy.f32.bits) (p : Fin B) (j : Fin M) :
    FloatOps.matmul (DotDims.plain B K M) prec (truncf .bf16 x0 h0) (truncf .bf16 x1 h1)
        (constant ⟨2, ![B, M]⟩ .f32 0x00000000#32) (ix2 p j)
      = ∑ k : Fin K, x0 (ix2 p k) * x1 (ix2 k j) :=
  PlainDot.matmul_apply_ix2 prec (truncf .bf16 x0 h0) (truncf .bf16 x1 h1) p j

/-- A block holding the rows `o + p` of `X`, multiplied by the whole `W`, yields the rows `o + p` of the product. -/
theorem block_rows (X : FVec Ideal ⟨2, ![A, K]⟩ .f32) (W : FVec Ideal ⟨2, ![K, M]⟩ .f32)
    (x0 : FVec Ideal ⟨2, ![B, K]⟩ .f32) (x1 : FVec Ideal ⟨2, ![K, M]⟩ .f32) (o : Nat) (p : Fin B) (j : Fin M)
    (hr : o + p.val < A) (h0 : ∀ k : Fin K, x0 (ix2 p k) = X (ix2 ⟨o + p.val, hr⟩ k))
    (h1 : ∀ k : Fin K, x1 (ix2 k j) = W (ix2 k j)) :
    (∑ k : Fin K, x0 (ix2 p k) * x1 (ix2 k j)) = prod X W (ix2 ⟨o + p.val, hr⟩ j) := by
  rw [prod_ix2]
  exact Finset.sum_congr rfl fun k _ => by rw [h0 k, h1 k]

end Idealize.ShloMosaic.RowProduct
-- ==== Proof.Layer1Product.lean ====
/-
  The first launch: the node features times the first weight matrix, `h1 = x · W1`, twenty blocks of 5000 rows.
  At grid point `t` the body multiplies rows `5000 t … 5000 t + 4999` of `x` (rounded to bf16, the identity on the extended
  reals) by the whole of `W1` into a zero accumulator and stores the product as rows `5000 t …` of the result, so entry `(r, j)`
  of the result array after the launch is `Σ_k x(r,k) · W1(k,j)`: the whole array is the row product of the two arrays the launch
  was entered with, whatever they are.
-/
import proofs.«171051_j85856396247086_1_alg».proof.Proof.Gen.KernelIdeal.Frame
import proofs.«171051_j85856396247086_1_alg».proof.Proof.LibRowProduct
import Idealize.ShloMosaic.Lib.Pipeline.Value
import Idealize.ShloMosaic.Lib.ValueIdx

set_option maxRecDepth 16384

noncomputable section

namespace Cert.KernelIdeal.Whole

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen

-- the buffer contents a launch is entered with: every statement below holds for any
variable (V : (c : Dev nD) → (b : Ref sig .tc) → Buf (Elt Ideal) ((c : Thread nD τ).loc b))

theorem zero2 : (![0, 0] : Fin 2 → Nat) = fun _ => 0 := funext fun a => by fin_cases a <;> rfl

/-- The block index maps of the first launch, decided over its twenty points: the rows' blocks move with the point, the
    weight matrix stays. -/
theorem idx0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The feature block at point `t` is rows `5000 t … 5000 t + 4999` of the feature array. -/
theorem blk0_0_apply (c : Dev nD) (t : Fin cfg0.N) (x : S5000x128.Idx) (k : S100000x128.Idx)
    (hk0 : (k 0).val = 5000 * t.val + (x 0).val) (hk1 : (k 1).val = (x 1).val) :
    (iblk0 V c 0 t : Vec Ideal S5000x128 .f32) x = (V c main_arg0 : S100000x128.Idx → Elt Ideal .f32) k := by
  obtain ⟨e0, e1, -⟩ := idx0 t
  unfold iblk0
  rw [View.read_apply]
  show V c main_arg0 _ = V c main_arg0 _
  refine congrArg (V c main_arg0) ?_
  funext a
  apply Fin.ext
  match a with
  | ⟨0, _⟩ => show win0_0.index t 0 * 5000 + 1 * (x 0).val = (k 0).val; rw [e0, hk0]; omega
  | ⟨1, _⟩ => show win0_0.index t 1 * 128 + 1 * (x 1).val = (k 1).val; rw [e1, hk1]; omega

/-- The weight block at every point is the whole weight matrix. -/
theorem blk0_1_apply (c : Dev nD) (t : Fin cfg0.N) (x : S128x64.Idx) (k : S128x64.Idx)
    (hk0 : (k 0).val = (x 0).val) (hk1 : (k 1).val = (x 1).val) :
    (iblk0 V c 1 t : Vec Ideal S128x64 .f32) x = (V c main_arg3 : S128x64.Idx → Elt Ideal .f32) k := by
  obtain ⟨-, -, e2, e3, -⟩ := idx0 t
  unfold iblk0
  rw [View.read_apply]
  show V c main_arg3 _ = V c main_arg3 _
  refine congrArg (V c main_arg3) ?_
  funext a
  apply Fin.ext
  match a with
  | ⟨0, _⟩ => show win0_1.index t 0 * 128 + 1 * (x 0).val = (k 0).val; rw [e2, hk0]; omega
  | ⟨1, _⟩ => show win0_1.index t 1 * 64 + 1 * (x 1).val = (k 1).val; rw [e3, hk1]; omega

/-- The body's stored value at `(p, j)`: the sum over the contracted coordinate. -/
theorem pay0_apply (x0 : Vec Ideal S5000x128 .f32) (x1 : Vec Ideal S128x64 .f32) (p : Fin 5000) (j : Fin 64) :
    k0_pay1 (F := Ideal) x0 x1 (ix2 p j) = ∑ k : Fin 128, x0 (ix2 p k) * x1 (ix2 k j) :=
  RowProduct.body_apply none x0 x1 bitsLt_bf16_f32 bitsLt_bf16_f32 p j

/-- What point `t` stores at `y` is the whole row product at the array index `y` sits at. -/
theorem point0 (c : Dev nD) (t : Fin cfg0.N) (y : S5000x64.Idx) :
    k0_pay1 (F := Ideal) (iblk0 V c 0 t) (iblk0 V c 1 t) y
      = RowProduct.prod (V c main_arg0) (V c main_arg3) (((cfg0.win 2).blk t).view.emb y) := by
  have hN : cfg0.N = 20 := N_0
  have ht := t.isLt
  obtain ⟨p, j, rfl⟩ : ∃ (p : Fin 5000) (j : Fin 64), y = ix2 p j := ⟨y 0, y 1, eq_ix2 y⟩
  obtain ⟨-, -, -, -, e4, e5⟩ := idx0 t
  have hr : 5000 * t.val + p.val < 100000 := by have := p.isLt; omega
  have hemb : ((cfg0.win 2).blk t).view.emb (ix2 p j) = (ix2 ⟨5000 * t.val + p.val, hr⟩ j : S100000x64.Idx) := by
    funext a
    apply Fin.ext
    match a with
    | ⟨0, _⟩ => show win0_2.index t 0 * 5000 + 1 * p.val = 5000 * t.val + p.val; rw [e4]; omega
    | ⟨1, _⟩ => show win0_2.index t 1 * 64 + 1 * j.val = j.val; rw [e5]; omega
  rw [hemb]
  refine (pay0_apply (iblk0 V c 0 t) (iblk0 V c 1 t) p j).trans ?_
  exact RowProduct.block_rows (V c main_arg0) (V c main_arg3) (iblk0 V c 0 t) (iblk0 V c 1 t) (5000 * t.val) p j hr
    (fun k => blk0_0_apply V c t (ix2 p k) (ix2 ⟨5000 * t.val + p.val, hr⟩ k) rfl rfl)
    (fun k => blk0_1_apply V c t (ix2 k j) (ix2 k j) rfl rfl)

/-- What point `t` writes back is block `t` of the row product of the arrays the launch was entered with. -/
theorem flushed0_eq (c : Dev nD) (t : Fin cfg0.N) :
    (dat0 V c).flushed 2 t
      = ((cfg0.win 2).blk t).view.read (Elt Ideal) (RowProduct.prod (V c main_arg0) (V c main_arg3)) := by
  show (cfg0.win 2).cut (grid0.coords t) ((dat0 V c).after 2 t) = _
  rw [after0_2]
  unfold out0_2
  rw [View.canon_unit_zero zero2]
  simp only [View.ld_unit_zero (S := S5000x128) zero2, View.ld_unit_zero (S := S128x64) zero2]
  funext y
  exact point0 V c t y

/-- An index of the result array is in point `t`'s block iff each coordinate is in the block's range on its axis. -/
theorem mem_blk0 (t : Fin cfg0.N) (i : S100000x64.Idx) :
    i ∈ ((cfg0.win 2).blk t).view.set ↔ ∀ a : Fin 2, win0_2.index t a * S5000x64.size a ≤ (i a).val
      ∧ (i a).val < win0_2.index t a * S5000x64.size a + S5000x64.size a := by
  show i ∈ ((View.whole main_v32).slice (win0_2.rect t)).set ↔ _
  rw [View.set_slice_whole, Rect.mem_set_unit]
  exact Iff.rfl

/-- Row `r` of the result is written by the point `r / 5000`. -/
theorem cover0 (i : S100000x64.Idx) :
    ∃ t : Fin cfg0.N, (cfg0.win 2).flush t = true ∧ i ∈ ((cfg0.win 2).blk t).view.set := by
  have hi0 : (i 0).val < 100000 := (i 0).isLt
  have hi1 : (i 1).val < 64 := (i 1).isLt
  have hN : cfg0.N = 20 := N_0
  have hlt : (i 0).val / 5000 < cfg0.N := by rw [hN]; omega
  obtain ⟨-, -, -, -, e4, e5⟩ := idx0 ⟨(i 0).val / 5000, hlt⟩
  refine ⟨⟨(i 0).val / 5000, hlt⟩, flush0_2 _, ?_⟩
  rw [mem_blk0]
  intro a
  match a with
  | ⟨0, _⟩ =>
    show win0_2.index ⟨(i 0).val / 5000, hlt⟩ 0 * 5000 ≤ (i 0).val
      ∧ (i 0).val < win0_2.index ⟨(i 0).val / 5000, hlt⟩ 0 * 5000 + 5000
    rw [e4]; show (i 0).val / 5000 * 5000 ≤ (i 0).val ∧ (i 0).val < (i 0).val / 5000 * 5000 + 5000; omega
  | ⟨1, _⟩ =>
    show win0_2.index ⟨(i 0).val / 5000, hlt⟩ 1 * 64 ≤ (i 1).val
      ∧ (i 1).val < win0_2.index ⟨(i 0).val / 5000, hlt⟩ 1 * 64 + 64
    rw [e5]; omega

/-- The result array after the first launch: the row product of the two arrays it was entered with. -/
theorem final0 (c : Dev nD) :
    (dat0 V c).arrAt 2 cfg0.N = RowProduct.prod (V c main_arg0) (V c main_arg3) :=
  (dat0 V c).arrAt_eq_of_cover 2 (RowProduct.prod (V c main_arg0) (V c main_arg3)) (fun t _ => flushed0_eq V c t) cover0

end Cert.KernelIdeal.Whole

end
-- ==== Proof.LibAffine.lean ====
/-
  Rows times weights plus a bias row, over the extended reals, in its two spellings. A row-tiled kernel computes, for a block
  `x` of rows, `matmul (bf16 x) w 0 + broadcast b`: the rounding of the left operand to bf16 is the identity on the extended
  reals, the matrix unit's product into a zero accumulator is the finite sum over the contracted coordinate, and the bias row
  `[1, M]` is repeated down the rows. The host computes `dot_general X W + broadcast (broadcast b)` with `b` of shape `[M]`
  lifted to `[1, M]` and then to `[A, M]`. Entry `(r, j)` of either is `Σ_k X(r,k)·W(k,j) + b(j)`.
-/
import Idealize.ShloMosaic.PureOps.Ideal.Laws
import Idealize.ShloMosaic.Lib.ValueIdx
import Idealize.ShloMosaic.Lib.ValueLayout
import Idealize.ShloMosaic.Lib.Pipeline.Value
import proofs.«171051_j85856396247086_1_alg».proof.Proof.LibPlainDot

namespace Idealize.ShloMosaic.Affine

open Idealize.ShloMosaic.ValueIdx

variable {A K M : Nat}

/-- Rows times weights plus the bias row: entry `(r, j)` is `Σ_k X(r,k)·W(k,j) + b(0,j)`. -/
noncomputable def affine {φw : FTy} (X : FVec Ideal ⟨2, ![A, K]⟩ .f32) (W : FVec Ideal ⟨2, ![K, M]⟩ φw) (b : FVec Ideal ⟨2, ![1, M]⟩ .f32) :
    FVec Ideal ⟨2, ![A, M]⟩ .f32 :=
  fun i => (∑ k : Fin K, X (ix2 ⟨(i 0).val, idx2_lt0 i⟩ k) * W (ix2 k ⟨(i 1).val, idx2_lt1 i⟩))
    + b (ix2 (0 : Fin 1) ⟨(i 1).val, idx2_lt1 i⟩)

theorem affine_ix2 {φw : FTy} (X : FVec Ideal ⟨2, ![A, K]⟩ .f32) (W : FVec Ideal ⟨2, ![K, M]⟩ φw) (b : FVec Ideal ⟨2, ![1, M]⟩ .f32)
    (p : Fin A) (q : Fin M) :
    affine X W b (ix2 p q) = (∑ k : Fin K, X (ix2 p k) * W (ix2 k q)) + b (ix2 (0 : Fin 1) q) := rfl

/-- The kernel body's value at row `p`, column `q` of its block. -/
theorem body_apply {φw : FTy} (prec : Option ContractPrecision) (x0 : FVec Ideal ⟨2, ![A, K]⟩ .f32) (x1 : FVec Ideal ⟨2, ![K, M]⟩ φw)
    (x2 : FVec Ideal ⟨2, ![1, M]⟩ .f32) (ht : FTy.bf16.bits < FTy.f32.bits)
    (hb : (⟨2, ![1, M]⟩ : Shape).Broadcasts ⟨2, ![A, M]⟩) (p : Fin A) (q : Fin M) :
    addf (FloatOps.matmul (DotDims.plain A K M) prec (truncf .bf16 x0 ht) x1 (constant ⟨2, ![A, M]⟩ .f32 0x00000000#32))
        (broadcastTo ⟨2, ![A, M]⟩ x2 hb) (ix2 p q)
      = affine x0 x1 x2 (ix2 p q) := by
  rw [affine_ix2]
  refine (addf_apply _ _ _).trans ?_
  refine congrArg₂ (· + ·) ?_ ?_
  · exact PlainDot.matmul_apply_ix2 prec (truncf .bf16 x0 ht) x1 p q
  · exact broadcastTo_1b_ab_apply x2 hb p q

/-- A bias `[M]` lifted to `[1, M]` and then to `[A, M]`, at `(p, q)`: its entry `q`. -/
theorem bias_rows_apply (b : FVec Ideal ⟨1, ![M]⟩ .f32) (h1 : (⟨1, ![M]⟩ : Shape).BroadcastsInDim ⟨2, ![1, M]⟩ ![1])
    (h2 : (⟨2, ![1, M]⟩ : Shape).BroadcastsInDim ⟨2, ![A, M]⟩ ![0, 1]) (p : Fin A) (q : Fin M) :
    broadcastInDim ⟨2, ![A, M]⟩ ![0, 1] h2 (broadcastInDim ⟨2, ![1, M]⟩ ![1] h1 b) (ix2 p q) = b (ix1 q) := by
  have hq := q.isLt
  refine (broadcastInDim_apply _ h2 _ (ix2 p q) (ix2 (0 : Fin 1) q) fun a => ?_).trans
    (broadcastInDim_apply _ h1 b (ix2 (0 : Fin 1) q) (ix1 q) fun a => ?_)
  · match a with
    | ⟨0, _⟩ => rfl
    | ⟨1, _⟩ =>
      show q.val = if M = 1 then 0 else q.val
      split
      · omega
      · rfl
  · match a with
    | ⟨0, _⟩ =>
      show q.val = if M = 1 then 0 else q.val
      split
      · omega
      · rfl

/-- The host's spelling at `(p, q)`. -/
theorem host_apply (prec : Option ContractPrecision) (sched : HostSchedule) (X : FVec Ideal ⟨2, ![A, K]⟩ .f32)
    (W : FVec Ideal ⟨2, ![K, M]⟩ .f32) (b : FVec Ideal ⟨1, ![M]⟩ .f32)
    (h1 : (⟨1, ![M]⟩ : Shape).BroadcastsInDim ⟨2, ![1, M]⟩ ![1])
    (h2 : (⟨2, ![1, M]⟩ : Shape).BroadcastsInDim ⟨2, ![A, M]⟩ ![0, 1]) (p : Fin A) (q : Fin M) :
    addf (FloatOps.dotGeneral (DotDims.plain A K M) prec sched X W)
        (broadcastInDim ⟨2, ![A, M]⟩ ![0, 1] h2 (broadcastInDim ⟨2, ![1, M]⟩ ![1] h1 b)) (ix2 p q)
      = (∑ k : Fin K, X (ix2 p k) * W (ix2 k q)) + b (ix1 q) := by
  refine (addf_apply _ _ _).trans ?_
  refine congrArg₂ (· + ·) ?_ ?_
  · exact PlainDot.dotGeneral_apply_ix2 prec sched X W p q
  · exact bias_rows_apply b h1 h2 p q

/-- The two spellings agree: the kernel's weights are the host's rounded to bf16 (the identity here) and its bias row the
    host's bias recast to `[1, M]`. -/
theorem affine_eq_host (prec : Option ContractPrecision) (sched : HostSchedule) (X : FVec Ideal ⟨2, ![A, K]⟩ .f32)
    (W : FVec Ideal ⟨2, ![K, M]⟩ .f32) (b : FVec Ideal ⟨1, ![M]⟩ .f32) (ht : FTy.bf16.bits < FTy.f32.bits)
    (hc : (⟨1, ![M]⟩ : Shape).ShapeCasts ⟨2, ![1, M]⟩)
    (h1 : (⟨1, ![M]⟩ : Shape).BroadcastsInDim ⟨2, ![1, M]⟩ ![1])
    (h2 : (⟨2, ![1, M]⟩ : Shape).BroadcastsInDim ⟨2, ![A, M]⟩ ![0, 1]) :
    affine X (truncf .bf16 W ht) (shapeCast ⟨2, ![1, M]⟩ b hc)
      = addf (FloatOps.dotGeneral (DotDims.plain A K M) prec sched X W)
          (broadcastInDim ⟨2, ![A, M]⟩ ![0, 1] h2 (broadcastInDim ⟨2, ![1, M]⟩ ![1] h1 b)) := by
  funext i
  obtain ⟨p, q, rfl⟩ : ∃ (p : Fin A) (q : Fin M), i = ix2 p q := ⟨i 0, i 1, eq_ix2 i⟩
  rw [host_apply, affine_ix2, shapeCast_a_1a_apply]
  rfl

end Idealize.ShloMosaic.Affine
-- ==== Proof.LibColumn.lean ====
/-
  A column vector kept as a trailing unit axis (`jnp.sum(…, keepdims=True)`), read at an index given by coordinates:
  a vector `[a]` cast to the column `[a, 1]`, and a column `[a, 1]` broadcast along its unit axis to `[a, b]`. Both read the
  operand at the row coordinate alone.
-/
import Idealize.ShloMosaic.Lib.Pipeline.Value
import Idealize.ShloMosaic.Lib.ValueIdx

namespace Idealize.ShloMosaic.Column

open Idealize.ShloMosaic Idealize.ShloMosaic.ValueIdx

variable {α : Type}

/-- An `[a]` array cast to the column `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the operand's row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.Column
-- ==== Proof.LibLifts.lean ====
/-
  Lifting a vector to a matrix with one unit axis, and back, read at coordinates (any extents):
  * a vector [a] lifted by broadcast_in_dim along axis 0 to the column [a, 1] reads, at (n, u), the vector at n;
  * a column [a, 1] reshaped to the vector [a] reads, at n, the column at (n, 0);
  * a vector [b] lifted by broadcast_in_dim along axis 1 to the row [1, b] reads, at (u, f), the vector at f.
-/
import Idealize.ShloMosaic.Lib.Pipeline.Value
import Idealize.ShloMosaic.Lib.ValueIdx

namespace Idealize.ShloMosaic.Lifts

open Idealize.ShloMosaic Idealize.ShloMosaic.ValueIdx

variable {α : Type}

/-- A vector lifted to a column. -/
theorem broadcastInDim_a_a1_apply {a : ℕ} (x : (⟨1, ![a]⟩ : Shape).Idx → α)
    (h : (⟨1, ![a]⟩ : Shape).BroadcastsInDim ⟨2, ![a, 1]⟩ (![0] : Fin 1 → Fin 2)) (n : Fin a) (u : Fin 1) :
    broadcastInDim ⟨2, ![a, 1]⟩ ![0] h x (ix2 n u) = x (ix1 n) := by
  refine broadcastInDim_apply _ h x (ix2 n u) (ix1 n) fun ax => ?_
  match ax with
  | ⟨0, _⟩ =>
    show n.val = if a = 1 then 0 else n.val
    split
    · have := n.isLt; omega
    · rfl

/-- A column reshaped to a vector. -/
theorem shapeCast_a1_a_apply {a : ℕ} (x : (⟨2, ![a, 1]⟩ : Shape).Idx → α)
    (h : (⟨2, ![a, 1]⟩ : Shape).ShapeCasts ⟨1, ![a]⟩) (n : Fin a) :
    shapeCast ⟨1, ![a]⟩ x h (ix1 n) = x (ix2 n (0 : Fin 1)) :=
  shapeCast_apply x h _ _ (by
    rw [Shape.rowMajor_val_two, Shape.rowMajor_val_one]
    show n.val * 1 + 0 = n.val
    omega)

/-- A vector lifted to a row. -/
theorem broadcastInDim_b_1b_apply {b : ℕ} (x : (⟨1, ![b]⟩ : Shape).Idx → α)
    (h : (⟨1, ![b]⟩ : Shape).BroadcastsInDim ⟨2, ![1, b]⟩ (![1] : Fin 1 → Fin 2)) (u : Fin 1) (f : Fin b) :
    broadcastInDim ⟨2, ![1, b]⟩ ![1] h x (ix2 u f) = x (ix1 f) := by
  refine broadcastInDim_apply _ h x (ix2 u f) (ix1 f) fun ax => ?_
  match ax with
  | ⟨0, _⟩ =>
    show f.val = if b = 1 then 0 else f.val
    split
    · have := f.isLt; omega
    · rfl

end Idealize.ShloMosaic.Lifts
-- ==== Proof.LibSelfLoop.lean ====
/-
  The closing step of a graph-convolution layer on the rows of a matrix: the summed neighbour messages plus the node's own
  features scaled by a per-row coefficient, plus a bias, rectified — `max (S(r,j) + d(r)·H(r,j) + b(j)) 0` over the extended
  reals — as ONE function and in its two spellings. A kernel body holds the coefficients as a column `[B, 1]` repeated along
  the columns and the bias as a one-row matrix `[1, M]` repeated down the rows of its block, and takes the maximum with a
  splat zero. The host lifts the coefficient vector `[A]` to `[A, 1]` and then `[A, M]`, the bias vector `[M]` to `[1, M]` and
  then `[A, M]`, and takes the maximum with a rank-0 zero broadcast to `[A, M]`. The zero is the same f32 word on both sides and
  is never evaluated; the additions and the product are applied in the same order on both sides, so no finiteness is used.
  Entry `(r, j)` reads row `r` of `S`, `H` and `d` only, so a block of rows yields the same rows of the result.
-/
import Idealize.ShloMosaic.PureOps.Ideal.Laws
import Idealize.ShloMosaic.Lib.ValueIdx
import Idealize.ShloMosaic.Lib.ValueLayout
import Idealize.ShloMosaic.Lib.Pipeline.Value
import proofs.«171051_j85856396247086_1_alg».proof.Proof.LibAffine
import proofs.«171051_j85856396247086_1_alg».proof.Proof.LibColumn
import proofs.«171051_j85856396247086_1_alg».proof.Proof.LibLifts

namespace Idealize.ShloMosaic.SelfLoop

open Idealize.ShloMosaic.ValueIdx

variable {A B M : Nat}

/-- `max (S(r,j) + d(r,0)·H(r,j) + b(0,j)) 0`, the coefficients a column, the bias a one-row matrix, the zero kept as its word. -/
noncomputable def combine (S H : FVec Ideal ⟨2, ![A, M]⟩ .f32) (d : FVec Ideal ⟨2, ![A, 1]⟩ .f32) (b : FVec Ideal ⟨2, ![1, M]⟩ .f32) :
    FVec Ideal ⟨2, ![A, M]⟩ .f32 :=
  fun i => max ((S i + d (ix2 ⟨(i 0).val, idx2_lt0 i⟩ (0 : Fin 1)) * H i) + b (ix2 (0 : Fin 1) ⟨(i 1).val, idx2_lt1 i⟩))
    (Ideal.ofBits .f32 0x00000000#32)

theorem combine_ix2 (S H : FVec Ideal ⟨2, ![A, M]⟩ .f32) (d : FVec Ideal ⟨2, ![A, 1]⟩ .f32) (b : FVec Ideal ⟨2, ![1, M]⟩ .f32)
    (r : Fin A) (j : Fin M) :
    combine S H d b (ix2 r j)
      = max ((S (ix2 r j) + d (ix2 r (0 : Fin 1)) * H (ix2 r j)) + b (ix2 (0 : Fin 1) j)) (Ideal.ofBits .f32 0x00000000#32) := rfl

/-- The kernel body's spelling at `(p, j)` of its block (the casts to a vector's own shape are the identity). -/
theorem body_apply (x0 x1 : FVec Ideal ⟨2, ![B, M]⟩ .f32) (x2 : FVec Ideal ⟨2, ![B, 1]⟩ .f32) (x3 : FVec Ideal ⟨2, ![1, M]⟩ .f32)
    (h0 : (⟨2, ![B, M]⟩ : Shape).ShapeCasts ⟨2, ![B, M]⟩) (h2 : (⟨2, ![B, 1]⟩ : Shape).ShapeCasts ⟨2, ![B, 1]⟩)
    (h3 : (⟨2, ![1, M]⟩ : Shape).ShapeCasts ⟨2, ![1, M]⟩)
    (hd : (⟨2, ![B, 1]⟩ : Shape).Broadcasts ⟨2, ![B, M]⟩) (hb : (⟨2, ![1, M]⟩ : Shape).Broadcasts ⟨2, ![B, M]⟩)
    (p : Fin B) (j : Fin M) :
    maximumf (addf (addf (shapeCast ⟨2, ![B, M]⟩ x0 h0)
          (mulf (broadcastTo ⟨2, ![B, M]⟩ (shapeCast ⟨2, ![B, 1]⟩ x2 h2) hd) (shapeCast ⟨2, ![B, M]⟩ x1 h0)))
        (broadcastTo ⟨2, ![B, M]⟩ (shapeCast ⟨2, ![1, M]⟩ x3 h3) hb))
        (broadcast ⟨2, ![B, M]⟩ (FloatOps.ofBits (F := Ideal) .f32 0x00000000#32)) (ix2 p j)
      = max ((x0 (ix2 p j) + x2 (ix2 p (0 : Fin 1)) * x1 (ix2 p j)) + x3 (ix2 (0 : Fin 1) j)) (Ideal.ofBits .f32 0x00000000#32) := by
  rw [shapeCast_self, shapeCast_self, shapeCast_self, shapeCast_self]
  refine (maximumf_apply _ _ _).trans ?_
  refine congrArg₂ max ?_ rfl
  refine (addf_apply _ _ _).trans ?_
  refine congrArg₂ (· + ·) ?_ (broadcastTo_1b_ab_apply x3 hb p j)
  refine (addf_apply _ _ _).trans ?_
  refine congrArg (x0 (ix2 p j) + ·) ?_
  refine (mulf_apply _ _ _).trans ?_
  exact congrArg (· * x1 (ix2 p j)) (Column.broadcastTo_a1_ab_apply x2 hd p j)

/-- A block holding the rows `o + p` of `S`, `H` and `d`, with the same bias row, yields the rows `o + p` of the whole result. -/
theorem block_rows (S H : FVec Ideal ⟨2, ![A, M]⟩ .f32) (d : FVec Ideal ⟨2, ![A, 1]⟩ .f32) (b : FVec Ideal ⟨2, ![1, M]⟩ .f32)
    (x0 x1 : FVec Ideal ⟨2, ![B, M]⟩ .f32) (x2 : FVec Ideal ⟨2, ![B, 1]⟩ .f32) (x3 : FVec Ideal ⟨2, ![1, M]⟩ .f32)
    (o : Nat) (p : Fin B) (j : Fin M) (hr : o + p.val < A)
    (h0 : x0 (ix2 p j) = S (ix2 ⟨o + p.val, hr⟩ j)) (h1 : x1 (ix2 p j) = H (ix2 ⟨o + p.val, hr⟩ j))
    (h2 : x2 (ix2 p (0 : Fin 1)) = d (ix2 ⟨o + p.val, hr⟩ (0 : Fin 1))) (h3 : x3 (ix2 (0 : Fin 1) j) = b (ix2 (0 : Fin 1) j)) :
    max ((x0 (ix2 p j) + x2 (ix2 p (0 : Fin 1)) * x1 (ix2 p j)) + x3 (ix2 (0 : Fin 1) j)) (Ideal.ofBits .f32 0x00000000#32)
      = combine S H d b (ix2 ⟨o + p.val, hr⟩ j) := by
  rw [combine_ix2, h0, h1, h2, h3]

/-- A column `[A, 1]` lifted by the host to `[A, M]` reads, at `(r, j)`, the column's row `r`. -/
theorem broadcastInDim_a1_ab_apply {α : Type} (v : (⟨2, ![A, 1]⟩ : Shape).Idx → α)
    (h : (⟨2, ![A, 1]⟩ : Shape).BroadcastsInDim ⟨2, ![A, M]⟩ ![0, 1]) (r : Fin A) (j : Fin M) :
    broadcastInDim ⟨2, ![A, M]⟩ ![0, 1] h v (ix2 r j) = v (ix2 r (0 : Fin 1)) := by
  refine broadcastInDim_apply _ h v (ix2 r j) (ix2 r (0 : Fin 1)) fun a => ?_
  match a with
  | ⟨0, _⟩ =>
    show r.val = if A = 1 then 0 else r.val
    split
    · have := r.isLt; omega
    · rfl
  | ⟨1, _⟩ => rfl

/-- The host's spelling at `(r, j)`. -/
theorem host_apply (S H : FVec Ideal ⟨2, ![A, M]⟩ .f32) (dd : FVec Ideal ⟨1, ![A]⟩ .f32) (bb : FVec Ideal ⟨1, ![M]⟩ .f32)
    (hl : (⟨1, ![A]⟩ : Shape).BroadcastsInDim ⟨2, ![A, 1]⟩ ![0])
    (hc : (⟨2, ![A, 1]⟩ : Shape).BroadcastsInDim ⟨2, ![A, M]⟩ ![0, 1])
    (h1 : (⟨1, ![M]⟩ : Shape).BroadcastsInDim ⟨2, ![1, M]⟩ ![1])
    (h2 : (⟨2, ![1, M]⟩ : Shape).BroadcastsInDim ⟨2, ![A, M]⟩ ![0, 1])
    (hz : (⟨0, ![]⟩ : Shape).BroadcastsInDim ⟨2, ![A, M]⟩ ![]) (r : Fin A) (j : Fin M) :
    maximumf (addf (addf S (mulf (broadcastInDim ⟨2, ![A, M]⟩ ![0, 1] hc (broadcastInDim ⟨2, ![A, 1]⟩ ![0] hl dd)) H))
          (broadcastInDim ⟨2, ![A, M]⟩ ![0, 1] h2 (broadcastInDim ⟨2, ![1, M]⟩ ![1] h1 bb)))
        (broadcastInDim ⟨2, ![A, M]⟩ ![] hz (constant (F := Ideal) ⟨0, ![]⟩ .f32 0x00000000#32)) (ix2 r j)
      = max ((S (ix2 r j) + dd (ix1 r) * H (ix2 r j)) + bb (ix1 j)) (Ideal.ofBits .f32 0x00000000#32) := by
  refine (maximumf_apply _ _ _).trans ?_
  refine congrArg₂ max ?_ ?_
  · refine (addf_apply _ _ _).trans ?_
    refine congrArg₂ (· + ·) ?_ (Affine.bias_rows_apply bb h1 h2 r j)
    refine (addf_apply _ _ _).trans ?_
    refine congrArg (S (ix2 r j) + ·) ?_
    refine (mulf_apply _ _ _).trans ?_
    refine congrArg (· * H (ix2 r j)) ?_
    exact (broadcastInDim_a1_ab_apply _ hc r j).trans (Lifts.broadcastInDim_a_a1_apply dd hl r (0 : Fin 1))
  · exact broadcastInDim_apply _ hz _ (ix2 r j) (fun a => a.elim0) (fun a => a.elim0)

/-- The two spellings agree as whole arrays: the kernel's coefficient column is the host's coefficient vector recast to
    `[A, 1]`, and its bias row the host's bias vector recast to `[1, M]`. -/
theorem combine_eq_host (S H : FVec Ideal ⟨2, ![A, M]⟩ .f32) (dd : FVec Ideal ⟨1, ![A]⟩ .f32) (bb : FVec Ideal ⟨1, ![M]⟩ .f32)
    (hcd : (⟨1, ![A]⟩ : Shape).ShapeCasts ⟨2, ![A, 1]⟩) (hcb : (⟨1, ![M]⟩ : Shape).ShapeCasts ⟨2, ![1, M]⟩)
    (hl : (⟨1, ![A]⟩ : Shape).BroadcastsInDim ⟨2, ![A, 1]⟩ ![0])
    (hc : (⟨2, ![A, 1]⟩ : Shape).BroadcastsInDim ⟨2, ![A, M]⟩ ![0, 1])
    (h1 : (⟨1, ![M]⟩ : Shape).BroadcastsInDim ⟨2, ![1, M]⟩ ![1])
    (h2 : (⟨2, ![1, M]⟩ : Shape).BroadcastsInDim ⟨2, ![A, M]⟩ ![0, 1])
    (hz : (⟨0, ![]⟩ : Shape).BroadcastsInDim ⟨2, ![A, M]⟩ ![]) :
    combine S H (shapeCast ⟨2, ![A, 1]⟩ dd hcd) (shapeCast ⟨2, ![1, M]⟩ bb hcb)
      = maximumf (addf (addf S (mulf (broadcastInDim ⟨2, ![A, M]⟩ ![0, 1] hc (broadcastInDim ⟨2, ![A, 1]⟩ ![0] hl dd)) H))
            (broadcastInDim ⟨2, ![A, M]⟩ ![0, 1] h2 (broadcastInDim ⟨2, ![1, M]⟩ ![1] h1 bb)))
          (broadcastInDim ⟨2, ![A, M]⟩ ![] hz (constant (F := Ideal) ⟨0, ![]⟩ .f32 0x00000000#32)) := by
  funext i
  obtain ⟨r, j, rfl⟩ : ∃ (r : Fin A) (j : Fin M), i = ix2 r j := ⟨i 0, i 1, eq_ix2 i⟩
  rw [host_apply, combine_ix2, shapeCast_a_1a_apply, Column.shapeCast_a_a1_apply]

end Idealize.ShloMosaic.SelfLoop
-- ==== Proof.Layer1Close.lean ====
/-
  The second launch: the first layer's closing step fused with the second linear map, twenty blocks of 5000 rows.
  At grid point `t` the body takes rows `5000 t …` of the aggregated messages `S`, of the first layer's product `H` and of the
  self-loop coefficient column `d`, the bias row `b` and the whole second weight matrix `W`, forms
  `max (S(r,k) + d(r)·H(r,k) + b(k)) 0`, rounds it and `W` to bf16 (the identity on the extended reals), multiplies into a zero
  accumulator and stores the product as rows `5000 t …` of the result. So the result array after the launch is the row product of
  the closed layer with `W`, as one function of the five arrays the launch was entered with, whatever they are.
-/
import proofs.«171051_j85856396247086_1_alg».proof.Proof.Gen.KernelIdeal.Frame
import proofs.«171051_j85856396247086_1_alg».proof.Proof.LibRowProduct
import proofs.«171051_j85856396247086_1_alg».proof.Proof.LibSelfLoop
import Idealize.ShloMosaic.Lib.Pipeline.Value
import Idealize.ShloMosaic.Lib.ValueIdx

set_option maxRecDepth 16384

noncomputable section

namespace Cert.KernelIdeal.Whole

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen

-- the buffer contents a launch is entered with: every statement below holds for any
variable (V : (c : Dev nD) → (b : Ref sig .tc) → Buf (Elt Ideal) ((c : Thread nD τ).loc b))

theorem hz1 : (![0, 0] : Fin 2 → Nat) = fun _ => 0 := funext fun a => by fin_cases a <;> rfl

theorem idx1_0 : ∀ t : Fin cfg1.N, win1_0.index t (0 : Fin 2) = t.val ∧ win1_0.index t (1 : Fin 2) = 0 :=
  (by decide +kernel : ∀ t : Fin grid1.N, _)

/-- The message block at point `t` is rows `5000 t …` of the aggregated messages. -/
theorem blk1_0_apply (c : Dev nD) (t : Fin cfg1.N) (x : S5000x64.Idx) (k : S100000x64.Idx)
    (hk0 : (k 0).val = 5000 * t.val + (x 0).val) (hk1 : (k 1).val = (x 1).val) :
    (iblk1 V c 0 t : Vec Ideal S5000x64 .f32) x = (V c main_v45 : S100000x64.Idx → Elt Ideal .f32) k := by
  obtain ⟨e0, e1⟩ := idx1_0 t
  unfold iblk1
  rw [View.read_apply]
  show V c main_v45 _ = V c main_v45 _
  refine congrArg (V c main_v45) ?_
  funext a
  apply Fin.ext
  match a with
  | ⟨0, _⟩ => show win1_0.index t 0 * 5000 + 1 * (x 0).val = (k 0).val; rw [e0, hk0]; omega
  | ⟨1, _⟩ => show win1_0.index t 1 * 64 + 1 * (x 1).val = (k 1).val; rw [e1, hk1]; omega

theorem idx1_1 : ∀ t : Fin cfg1.N, win1_1.index t (0 : Fin 2) = t.val ∧ win1_1.index t (1 : Fin 2) = 0 :=
  (by decide +kernel : ∀ t : Fin grid1.N, _)

/-- The feature block at point `t` is rows `5000 t …` of the first layer's product. -/
theorem blk1_1_apply (c : Dev nD) (t : Fin cfg1.N) (x : S5000x64.Idx) (k : S100000x64.Idx)
    (hk0 : (k 0).val = 5000 * t.val + (x 0).val) (hk1 : (k 1).val = (x 1).val) :
    (iblk1 V c 1 t : Vec Ideal S5000x64 .f32) x = (V c main_v32 : S100000x64.Idx → Elt Ideal .f32) k := by
  obtain ⟨e0, e1⟩ := idx1_1 t
  unfold iblk1
  rw [View.read_apply]
  show V c main_v32 _ = V c main_v32 _
  refine congrArg (V c main_v32) ?_
  funext a
  apply Fin.ext
  match a with
  | ⟨0, _⟩ => show win1_1.index t 0 * 5000 + 1 * (x 0).val = (k 0).val; rw [e0, hk0]; omega
  | ⟨1, _⟩ => show win1_1.index t 1 * 64 + 1 * (x 1).val = (k 1).val; rw [e1, hk1]; omega

theorem idx1_2 : ∀ t : Fin cfg1.N, win1_2.index t (0 : Fin 2) = t.val ∧ win1_2.index t (1 : Fin 2) = 0 :=
  (by decide +kernel : ∀ t : Fin grid1.N, _)

/-- The coefficient block at point `t` is rows `5000 t …` of the coefficient column. -/
theorem blk1_2_apply (c : Dev nD) (t : Fin cfg1.N) (x : S5000x1.Idx) (k : S100000x1.Idx)
    (hk0 : (k 0).val = 5000 * t.val + (x 0).val) (hk1 : (k 1).val = (x 1).val) :
    (iblk1 V c 2 t : Vec Ideal S5000x1 .f32) x = (V c main_v27 : S100000x1.Idx → Elt Ideal .f32) k := by
  obtain ⟨e0, e1⟩ := idx1_2 t
  unfold iblk1
  rw [View.read_apply]
  show V c main_v27 _ = V c main_v27 _
  refine congrArg (V c main_v27) ?_
  funext a
  apply Fin.ext
  match a with
  | ⟨0, _⟩ => show win1_2.index t 0 * 5000 + 1 * (x 0).val = (k 0).val; rw [e0, hk0]; omega
  | ⟨1, _⟩ => show win1_2.index t 1 * 1 + 1 * (x 1).val = (k 1).val; rw [e1, hk1]; omega

theorem idx1_3 : ∀ t : Fin cfg1.N, win1_3.index t (0 : Fin 2) = 0 ∧ win1_3.index t (1 : Fin 2) = 0 :=
  (by decide +kernel : ∀ t : Fin grid1.N, _)

/-- The bias block at every point is the whole bias row. -/
theorem blk1_3_apply (c : Dev nD) (t : Fin cfg1.N) (x : S1x64.Idx) (k : S1x64.Idx)
    (hk0 : (k 0).val = (x 0).val) (hk1 : (k 1).val = (x 1).val) :
    (iblk1 V c 3 t : Vec Ideal S1x64 .f32) x = (V c main_v28 : S1x64.Idx → Elt Ideal .f32) k := by
  obtain ⟨e0, e1⟩ := idx1_3 t
  unfold iblk1
  rw [View.read_apply]
  show V c main_v28 _ = V c main_v28 _
  refine congrArg (V c main_v28) ?_
  funext a
  apply Fin.ext
  match a with
  | ⟨0, _⟩ => show win1_3.index t 0 * 1 + 1 * (x 0).val = (k 0).val; rw [e0, hk0]; omega
  | ⟨1, _⟩ => show win1_3.index t 1 * 64 + 1 * (x 1).val = (k 1).val; rw [e1, hk1]; omega

theorem idx1_4 : ∀ t : Fin cfg1.N, win1_4.index t (0 : Fin 2) = 0 ∧ win1_4.index t (1 : Fin 2) = 0 :=
  (by decide +kernel : ∀ t : Fin grid1.N, _)

/-- The weight block at every point is the whole weight matrix. -/
theorem blk1_4_apply (c : Dev nD) (t : Fin cfg1.N) (x : S64x64.Idx) (k : S64x64.Idx)
    (hk0 : (k 0).val = (x 0).val) (hk1 : (k 1).val = (x 1).val) :
    (iblk1 V c 4 t : Vec Ideal S64x64 .f32) x = (V c main_arg5 : S64x64.Idx → Elt Ideal .f32) k := by
  obtain ⟨e0, e1⟩ := idx1_4 t
  unfold iblk1
  rw [View.read_apply]
  show V c main_arg5 _ = V c main_arg5 _
  refine congrArg (V c main_arg5) ?_
  funext a
  apply Fin.ext
  match a with
  | ⟨0, _⟩ => show win1_4.index t 0 * 64 + 1 * (x 0).val = (k 0).val; rw [e0, hk0]; omega
  | ⟨1, _⟩ => show win1_4.index t 1 * 64 + 1 * (x 1).val = (k 1).val; rw [e1, hk1]; omega

theorem idx1_5 : ∀ t : Fin cfg1.N, win1_5.index t (0 : Fin 2) = t.val ∧ win1_5.index t (1 : Fin 2) = 0 :=
  (by decide +kernel : ∀ t : Fin grid1.N, _)

/-- An index of the result array is in point `t`'s block iff each coordinate is in the block's range on its axis. -/
theorem mem_blk1 (t : Fin cfg1.N) (i : S100000x64.Idx) :
    i ∈ ((cfg1.win 5).blk t).view.set ↔ ∀ a : Fin 2, win1_5.index t a * S5000x64.size a ≤ (i a).val
      ∧ (i a).val < win1_5.index t a * S5000x64.size a + S5000x64.size a := by
  show i ∈ ((View.whole main_v46).slice (win1_5.rect t)).set ↔ _
  rw [View.set_slice_whole, Rect.mem_set_unit]
  exact Iff.rfl

/-- The body's stored value at `(p, j)`: the closed layer's row `p` contracted with column `j` of the weights. -/
theorem pay1_apply (x0 x4 : Vec Ideal S5000x64 .f32) (x2 : Vec Ideal S5000x1 .f32) (x9 : Vec Ideal S1x64 .f32)
    (x16 : Vec Ideal S64x64 .f32) (p : Fin 5000) (j : Fin 64) :
    k1_pay1 (F := Ideal) x0 x2 x4 x9 x16 (ix2 p j)
      = ∑ k : Fin 64, max ((x0 (ix2 p k) + x2 (ix2 p (0 : Fin 1)) * x4 (ix2 p k)) + x9 (ix2 (0 : Fin 1) k))
            (Ideal.ofBits .f32 0x00000000#32) * x16 (ix2 k j) := by
  unfold k1_pay1
  refine (PlainDot.matmul_apply_ix2 none _ _ p j).trans ?_
  refine Finset.sum_congr rfl fun k _ => ?_
  refine congrArg₂ (· * ·) ?_ rfl
  exact SelfLoop.body_apply x0 x4 x2 x9 shapeCasts_S5000x64_S5000x64 shapeCasts_S5000x1_S5000x1 shapeCasts_S1x64_S1x64
    broadcasts_S5000x1_S5000x64 broadcasts_S1x64_S5000x64 p k

/-- What point `t` stores at `y` is the whole array function at the array index `y` sits at. -/
theorem point1 (c : Dev nD) (t : Fin cfg1.N) (y : S5000x64.Idx) :
    k1_pay1 (F := Ideal) (iblk1 V c 0 t) (iblk1 V c 2 t) (iblk1 V c 1 t) (iblk1 V c 3 t) (iblk1 V c 4 t) y
      = RowProduct.prod (SelfLoop.combine (V c main_v45) (V c main_v32) (V c main_v27) (V c main_v28)) (V c main_arg5)
          (((cfg1.win 5).blk t).view.emb y) := by
  have hN : cfg1.N = 20 := N_1
  have ht := t.isLt
  obtain ⟨p, j, rfl⟩ : ∃ (p : Fin 5000) (j : Fin 64), y = ix2 p j := ⟨y 0, y 1, eq_ix2 y⟩
  obtain ⟨e4, e5⟩ := idx1_5 t
  have hr : 5000 * t.val + p.val < 100000 := by have := p.isLt; omega
  have hemb : ((cfg1.win 5).blk t).view.emb (ix2 p j) = (ix2 ⟨5000 * t.val + p.val, hr⟩ j : S100000x64.Idx) := by
    funext a
    apply Fin.ext
    match a with
    | ⟨0, _⟩ => show win1_5.index t 0 * 5000 + 1 * p.val = 5000 * t.val + p.val; rw [e4]; omega
    | ⟨1, _⟩ => show win1_5.index t 1 * 64 + 1 * j.val = j.val; rw [e5]; omega
  rw [hemb]
  refine (pay1_apply (iblk1 V c 0 t) (iblk1 V c 1 t) (iblk1 V c 2 t) (iblk1 V c 3 t) (iblk1 V c 4 t) p j).trans ?_
  rw [RowProduct.prod_ix2]
  refine Finset.sum_congr rfl fun k _ => ?_
  refine congrArg₂ (· * ·) ?_ (blk1_4_apply V c t (ix2 k j) (ix2 k j) rfl rfl)
  exact SelfLoop.block_rows (V c main_v45) (V c main_v32) (V c main_v27) (V c main_v28)
    (iblk1 V c 0 t) (iblk1 V c 1 t) (iblk1 V c 2 t) (iblk1 V c 3 t) (5000 * t.val) p k hr
    (blk1_0_apply V c t (ix2 p k) (ix2 ⟨5000 * t.val + p.val, hr⟩ k) rfl rfl)
    (blk1_1_apply V c t (ix2 p k) (ix2 ⟨5000 * t.val + p.val, hr⟩ k) rfl rfl)
    (blk1_2_apply V c t (ix2 p (0 : Fin 1)) (ix2 ⟨5000 * t.val + p.val, hr⟩ (0 : Fin 1)) rfl rfl)
    (blk1_3_apply V c t (ix2 (0 : Fin 1) k) (ix2 (0 : Fin 1) k) rfl rfl)

/-- What point `t` writes back is block `t` of that function of the arrays the launch was entered with. -/
theorem flushed1_eq (c : Dev nD) (t : Fin cfg1.N) :
    (dat1 V c).flushed 5 t = ((cfg1.win 5).blk t).view.read (Elt Ideal)
      (RowProduct.prod (SelfLoop.combine (V c main_v45) (V c main_v32) (V c main_v27) (V c main_v28)) (V c main_arg5)) := by
  show (cfg1.win 5).cut (grid1.coords t) ((dat1 V c).after 5 t) = _
  rw [after1_5]
  unfold out1_5
  rw [View.canon_unit_zero hz1]
  simp only [View.ld_unit_zero (S := S5000x64) hz1, View.ld_unit_zero (S := S5000x1) hz1, View.ld_unit_zero (S := S1x64) hz1,
    View.ld_unit_zero (S := S64x64) hz1]
  funext y
  exact point1 V c t y

/-- Row `r` of the result is written by the point `r / 5000`. -/
theorem cover1 (i : S100000x64.Idx) :
    ∃ t : Fin cfg1.N, (cfg1.win 5).flush t = true ∧ i ∈ ((cfg1.win 5).blk t).view.set := by
  have hi0 : (i 0).val < 100000 := (i 0).isLt
  have hi1 : (i 1).val < 64 := (i 1).isLt
  have hN : cfg1.N = 20 := N_1
  have hlt : (i 0).val / 5000 < cfg1.N := by rw [hN]; omega
  obtain ⟨e4, e5⟩ := idx1_5 ⟨(i 0).val / 5000, hlt⟩
  refine ⟨⟨(i 0).val / 5000, hlt⟩, flush1_5 _, ?_⟩
  rw [mem_blk1]
  intro a
  match a with
  | ⟨0, _⟩ =>
    show win1_5.index ⟨(i 0).val / 5000, hlt⟩ 0 * 5000 ≤ (i 0).val
      ∧ (i 0).val < win1_5.index ⟨(i 0).val / 5000, hlt⟩ 0 * 5000 + 5000
    rw [e4]; show (i 0).val / 5000 * 5000 ≤ (i 0).val ∧ (i 0).val < (i 0).val / 5000 * 5000 + 5000; omega
  | ⟨1, _⟩ =>
    show win1_5.index ⟨(i 0).val / 5000, hlt⟩ 1 * 64 ≤ (i 1).val
      ∧ (i 1).val < win1_5.index ⟨(i 0).val / 5000, hlt⟩ 1 * 64 + 64
    rw [e5]; omega

/-- The result array after the second launch: the closed first layer times the second weight matrix. -/
theorem final1 (c : Dev nD) :
    (dat1 V c).arrAt 5 cfg1.N
      = RowProduct.prod (SelfLoop.combine (V c main_v45) (V c main_v32) (V c main_v27) (V c main_v28)) (V c main_arg5) :=
  (dat1 V c).arrAt_eq_of_cover 5
    (RowProduct.prod (SelfLoop.combine (V c main_v45) (V c main_v32) (V c main_v27) (V c main_v28)) (V c main_arg5))
    (fun t _ => flushed1_eq V c t) cover1

end Cert.KernelIdeal.Whole

end
-- ==== Proof.Layer2Close.lean ====
/-
  The third launch: the second layer's closing step, twenty blocks of 5000 rows. At grid point `t` the body takes rows
  `5000 t …` of the aggregated messages `S`, of the second layer's product `H` and of the self-loop coefficient column `d`, and
  the bias row `b`, and stores `max (S(r,j) + d(r)·H(r,j) + b(j)) 0` as rows `5000 t …` of the result. So the result array after
  the launch is the closed layer as one function of the four arrays the launch was entered with, whatever they are.
-/
import proofs.«171051_j85856396247086_1_alg».proof.Proof.Gen.KernelIdeal.Frame
import proofs.«171051_j85856396247086_1_alg».proof.Proof.LibSelfLoop
import Idealize.ShloMosaic.Lib.Pipeline.Value
import Idealize.ShloMosaic.Lib.ValueIdx

set_option maxRecDepth 16384

noncomputable section

namespace Cert.KernelIdeal.Whole

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen

-- the buffer contents a launch is entered with: every statement below holds for any
variable (V : (c : Dev nD) → (b : Ref sig .tc) → Buf (Elt Ideal) ((c : Thread nD τ).loc b))

theorem hz2 : (![0, 0] : Fin 2 → Nat) = fun _ => 0 := funext fun a => by fin_cases a <;> rfl

theorem idx2_0 : ∀ t : Fin cfg2.N, win2_0.index t (0 : Fin 2) = t.val ∧ win2_0.index t (1 : Fin 2) = 0 :=
  (by decide +kernel : ∀ t : Fin grid2.N, _)

/-- The message block at point `t` is rows `5000 t …` of the aggregated messages. -/
theorem blk2_0_apply (c : Dev nD) (t : Fin cfg2.N) (x : S5000x64.Idx) (k : S100000x64.Idx)
    (hk0 : (k 0).val = 5000 * t.val + (x 0).val) (hk1 : (k 1).val = (x 1).val) :
    (iblk2 V c 0 t : Vec Ideal S5000x64 .f32) x = (V c main_v59 : S100000x64.Idx → Elt Ideal .f32) k := by
  obtain ⟨e0, e1⟩ := idx2_0 t
  unfold iblk2
  rw [View.read_apply]
  show V c main_v59 _ = V c main_v59 _
  refine congrArg (V c main_v59) ?_
  funext a
  apply Fin.ext
  match a with
  | ⟨0, _⟩ => show win2_0.index t 0 * 5000 + 1 * (x 0).val = (k 0).val; rw [e0, hk0]; omega
  | ⟨1, _⟩ => show win2_0.index t 1 * 64 + 1 * (x 1).val = (k 1).val; rw [e1, hk1]; omega

theorem idx2_1 : ∀ t : Fin cfg2.N, win2_1.index t (0 : Fin 2) = t.val ∧ win2_1.index t (1 : Fin 2) = 0 :=
  (by decide +kernel : ∀ t : Fin grid2.N, _)

/-- The feature block at point `t` is rows `5000 t …` of the second layer's product. -/
theorem blk2_1_apply (c : Dev nD) (t : Fin cfg2.N) (x : S5000x64.Idx) (k : S100000x64.Idx)
    (hk0 : (k 0).val = 5000 * t.val + (x 0).val) (hk1 : (k 1).val = (x 1).val) :
    (iblk2 V c 1 t : Vec Ideal S5000x64 .f32) x = (V c main_v46 : S100000x64.Idx → Elt Ideal .f32) k := by
  obtain ⟨e0, e1⟩ := idx2_1 t
  unfold iblk2
  rw [View.read_apply]
  show V c main_v46 _ = V c main_v46 _
  refine congrArg (V c main_v46) ?_
  funext a
  apply Fin.ext
  match a with
  | ⟨0, _⟩ => show win2_1.index t 0 * 5000 + 1 * (x 0).val = (k 0).val; rw [e0, hk0]; omega
  | ⟨1, _⟩ => show win2_1.index t 1 * 64 + 1 * (x 1).val = (k 1).val; rw [e1, hk1]; omega

theorem idx2_2 : ∀ t : Fin cfg2.N, win2_2.index t (0 : Fin 2) = t.val ∧ win2_2.index t (1 : Fin 2) = 0 :=
  (by decide +kernel : ∀ t : Fin grid2.N, _)

/-- The coefficient block at point `t` is rows `5000 t …` of the coefficient column. -/
theorem blk2_2_apply (c : Dev nD) (t : Fin cfg2.N) (x : S5000x1.Idx) (k : S100000x1.Idx)
    (hk0 : (k 0).val = 5000 * t.val + (x 0).val) (hk1 : (k 1).val = (x 1).val) :
    (iblk2 V c 2 t : Vec Ideal S5000x1 .f32) x = (V c main_v27 : S100000x1.Idx → Elt Ideal .f32) k := by
  obtain ⟨e0, e1⟩ := idx2_2 t
  unfold iblk2
  rw [View.read_apply]
  show V c main_v27 _ = V c main_v27 _
  refine congrArg (V c main_v27) ?_
  funext a
  apply Fin.ext
  match a with
  | ⟨0, _⟩ => show win2_2.index t 0 * 5000 + 1 * (x 0).val = (k 0).val; rw [e0, hk0]; omega
  | ⟨1, _⟩ => show win2_2.index t 1 * 1 + 1 * (x 1).val = (k 1).val; rw [e1, hk1]; omega

theorem idx2_3 : ∀ t : Fin cfg2.N, win2_3.index t (0 : Fin 2) = 0 ∧ win2_3.index t (1 : Fin 2) = 0 :=
  (by decide +kernel : ∀ t : Fin grid2.N, _)

/-- The bias block at every point is the whole bias row. -/
theorem blk2_3_apply (c : Dev nD) (t : Fin cfg2.N) (x : S1x64.Idx) (k : S1x64.Idx)
    (hk0 : (k 0).val = (x 0).val) (hk1 : (k 1).val = (x 1).val) :
    (iblk2 V c 3 t : Vec Ideal S1x64 .f32) x = (V c main_v29 : S1x64.Idx → Elt Ideal .f32) k := by
  obtain ⟨e0, e1⟩ := idx2_3 t
  unfold iblk2
  rw [View.read_apply]
  show V c main_v29 _ = V c main_v29 _
  refine congrArg (V c main_v29) ?_
  funext a
  apply Fin.ext
  match a with
  | ⟨0, _⟩ => show win2_3.index t 0 * 1 + 1 * (x 0).val = (k 0).val; rw [e0, hk0]; omega
  | ⟨1, _⟩ => show win2_3.index t 1 * 64 + 1 * (x 1).val = (k 1).val; rw [e1, hk1]; omega

theorem idx2_4 : ∀ t : Fin cfg2.N, win2_4.index t (0 : Fin 2) = t.val ∧ win2_4.index t (1 : Fin 2) = 0 :=
  (by decide +kernel : ∀ t : Fin grid2.N, _)

/-- An index of the result array is in point `t`'s block iff each coordinate is in the block's range on its axis. -/
theorem mem_blk2 (t : Fin cfg2.N) (i : S100000x64.Idx) :
    i ∈ ((cfg2.win 4).blk t).view.set ↔ ∀ a : Fin 2, win2_4.index t a * S5000x64.size a ≤ (i a).val
      ∧ (i a).val < win2_4.index t a * S5000x64.size a + S5000x64.size a := by
  show i ∈ ((View.whole main_v60).slice (win2_4.rect t)).set ↔ _
  rw [View.set_slice_whole, Rect.mem_set_unit]
  exact Iff.rfl

/-- The body's stored value at `(p, j)`. -/
theorem pay2_apply (x0 x4 : Vec Ideal S5000x64 .f32) (x2 : Vec Ideal S5000x1 .f32) (x9 : Vec Ideal S1x64 .f32)
    (p : Fin 5000) (j : Fin 64) :
    k2_pay1 (F := Ideal) x0 x2 x4 x9 (ix2 p j)
      = max ((x0 (ix2 p j) + x2 (ix2 p (0 : Fin 1)) * x4 (ix2 p j)) + x9 (ix2 (0 : Fin 1) j)) (Ideal.ofBits .f32 0x00000000#32) :=
  SelfLoop.body_apply x0 x4 x2 x9 shapeCasts_S5000x64_S5000x64 shapeCasts_S5000x1_S5000x1 shapeCasts_S1x64_S1x64
    broadcasts_S5000x1_S5000x64 broadcasts_S1x64_S5000x64 p j

/-- What point `t` stores at `y` is the whole array function at the array index `y` sits at. -/
theorem point2 (c : Dev nD) (t : Fin cfg2.N) (y : S5000x64.Idx) :
    k2_pay1 (F := Ideal) (iblk2 V c 0 t) (iblk2 V c 2 t) (iblk2 V c 1 t) (iblk2 V c 3 t) y
      = SelfLoop.combine (V c main_v59) (V c main_v46) (V c main_v27) (V c main_v29) (((cfg2.win 4).blk t).view.emb y) := by
  have hN : cfg2.N = 20 := N_2
  have ht := t.isLt
  obtain ⟨p, j, rfl⟩ : ∃ (p : Fin 5000) (j : Fin 64), y = ix2 p j := ⟨y 0, y 1, eq_ix2 y⟩
  obtain ⟨e4, e5⟩ := idx2_4 t
  have hr : 5000 * t.val + p.val < 100000 := by have := p.isLt; omega
  have hemb : ((cfg2.win 4).blk t).view.emb (ix2 p j) = (ix2 ⟨5000 * t.val + p.val, hr⟩ j : S100000x64.Idx) := by
    funext a
    apply Fin.ext
    match a with
    | ⟨0, _⟩ => show win2_4.index t 0 * 5000 + 1 * p.val = 5000 * t.val + p.val; rw [e4]; omega
    | ⟨1, _⟩ => show win2_4.index t 1 * 64 + 1 * j.val = j.val; rw [e5]; omega
  rw [hemb]
  refine (pay2_apply (iblk2 V c 0 t) (iblk2 V c 1 t) (iblk2 V c 2 t) (iblk2 V c 3 t) p j).trans ?_
  exact SelfLoop.block_rows (V c main_v59) (V c main_v46) (V c main_v27) (V c main_v29)
    (iblk2 V c 0 t) (iblk2 V c 1 t) (iblk2 V c 2 t) (iblk2 V c 3 t) (5000 * t.val) p j hr
    (blk2_0_apply V c t (ix2 p j) (ix2 ⟨5000 * t.val + p.val, hr⟩ j) rfl rfl)
    (blk2_1_apply V c t (ix2 p j) (ix2 ⟨5000 * t.val + p.val, hr⟩ j) rfl rfl)
    (blk2_2_apply V c t (ix2 p (0 : Fin 1)) (ix2 ⟨5000 * t.val + p.val, hr⟩ (0 : Fin 1)) rfl rfl)
    (blk2_3_apply V c t (ix2 (0 : Fin 1) j) (ix2 (0 : Fin 1) j) rfl rfl)

/-- What point `t` writes back is block `t` of that function of the arrays the launch was entered with. -/
theorem flushed2_eq (c : Dev nD) (t : Fin cfg2.N) :
    (dat2 V c).flushed 4 t = ((cfg2.win 4).blk t).view.read (Elt Ideal)
      (SelfLoop.combine (V c main_v59) (V c main_v46) (V c main_v27) (V c main_v29)) := by
  show (cfg2.win 4).cut (grid2.coords t) ((dat2 V c).after 4 t) = _
  rw [after2_4]
  unfold out2_4
  rw [View.canon_unit_zero hz2]
  simp only [View.ld_unit_zero (S := S5000x64) hz2, View.ld_unit_zero (S := S5000x1) hz2, View.ld_unit_zero (S := S1x64) hz2]
  funext y
  exact point2 V c t y

/-- Row `r` of the result is written by the point `r / 5000`. -/
theorem cover2 (i : S100000x64.Idx) :
    ∃ t : Fin cfg2.N, (cfg2.win 4).flush t = true ∧ i ∈ ((cfg2.win 4).blk t).view.set := by
  have hi0 : (i 0).val < 100000 := (i 0).isLt
  have hi1 : (i 1).val < 64 := (i 1).isLt
  have hN : cfg2.N = 20 := N_2
  have hlt : (i 0).val / 5000 < cfg2.N := by rw [hN]; omega
  obtain ⟨e4, e5⟩ := idx2_4 ⟨(i 0).val / 5000, hlt⟩
  refine ⟨⟨(i 0).val / 5000, hlt⟩, flush2_4 _, ?_⟩
  rw [mem_blk2]
  intro a
  match a with
  | ⟨0, _⟩ =>
    show win2_4.index ⟨(i 0).val / 5000, hlt⟩ 0 * 5000 ≤ (i 0).val
      ∧ (i 0).val < win2_4.index ⟨(i 0).val / 5000, hlt⟩ 0 * 5000 + 5000
    rw [e4]; show (i 0).val / 5000 * 5000 ≤ (i 0).val ∧ (i 0).val < (i 0).val / 5000 * 5000 + 5000; omega
  | ⟨1, _⟩ =>
    show win2_4.index ⟨(i 0).val / 5000, hlt⟩ 1 * 64 ≤ (i 1).val
      ∧ (i 1).val < win2_4.index ⟨(i 0).val / 5000, hlt⟩ 1 * 64 + 64
    rw [e5]; omega

/-- The result array after the third launch: the closed second layer. -/
theorem final2 (c : Dev nD) :
    (dat2 V c).arrAt 4 cfg2.N = SelfLoop.combine (V c main_v59) (V c main_v46) (V c main_v27) (V c main_v29) :=
  (dat2 V c).arrAt_eq_of_cover 4 (SelfLoop.combine (V c main_v59) (V c main_v46) (V c main_v27) (V c main_v29))
    (fun t _ => flushed2_eq V c t) cover2

end Cert.KernelIdeal.Whole

end
-- ==== Proof.LibBiasRelu.lean ====
/-
  A bias row added to every row of a matrix and the sum rectified, `max (Z(r,j) + b(j)) 0`, over the extended reals, as ONE
  function and in its two spellings. A kernel body holds the bias as a one-row matrix `[1, M]` and repeats it down the
  rows of its block, then takes the maximum with a splat zero. The host lifts the bias vector `[M]` to `[1, M]` and then to
  `[A, M]`, and takes the maximum with a rank-0 zero broadcast to `[A, M]`. The zero is the same f32 word on both sides and is
  never evaluated. Entry `(r, j)` reads row `r` of `Z` only, so a block of rows of `Z` yields the same rows of the result.
-/
import Idealize.ShloMosaic.PureOps.Ideal.Laws
import Idealize.ShloMosaic.Lib.ValueIdx
import Idealize.ShloMosaic.Lib.ValueLayout
import Idealize.ShloMosaic.Lib.Pipeline.Value
import proofs.«171051_j85856396247086_1_alg».proof.Proof.LibAffine

namespace Idealize.ShloMosaic.BiasRelu

open Idealize.ShloMosaic.ValueIdx

variable {A B M : Nat}

/-- `max (Z(r,j) + b(0,j)) 0`, the bias a one-row matrix, the zero kept as its f32 word. -/
noncomputable def biasRelu (Z : FVec Ideal ⟨2, ![A, M]⟩ .f32) (b : FVec Ideal ⟨2, ![1, M]⟩ .f32) : FVec Ideal ⟨2, ![A, M]⟩ .f32 :=
  fun i => max (Z i + b (ix2 (0 : Fin 1) ⟨(i 1).val, idx2_lt1 i⟩)) (Ideal.ofBits .f32 0x00000000#32)

theorem biasRelu_ix2 (Z : FVec Ideal ⟨2, ![A, M]⟩ .f32) (b : FVec Ideal ⟨2, ![1, M]⟩ .f32) (r : Fin A) (j : Fin M) :
    biasRelu Z b (ix2 r j) = max (Z (ix2 r j) + b (ix2 (0 : Fin 1) j)) (Ideal.ofBits .f32 0x00000000#32) := rfl

/-- The kernel body's spelling at `(p, j)` of its block (the two casts to a vector's own shape are the identity). -/
theorem body_apply (x0 : FVec Ideal ⟨2, ![B, M]⟩ .f32) (x1 : FVec Ideal ⟨2, ![1, M]⟩ .f32)
    (h0 : (⟨2, ![B, M]⟩ : Shape).ShapeCasts ⟨2, ![B, M]⟩) (h1 : (⟨2, ![1, M]⟩ : Shape).ShapeCasts ⟨2, ![1, M]⟩)
    (hb : (⟨2, ![1, M]⟩ : Shape).Broadcasts ⟨2, ![B, M]⟩) (p : Fin B) (j : Fin M) :
    maximumf (addf (shapeCast ⟨2, ![B, M]⟩ x0 h0) (broadcastTo ⟨2, ![B, M]⟩ (shapeCast ⟨2, ![1, M]⟩ x1 h1) hb))
        (broadcast ⟨2, ![B, M]⟩ (FloatOps.ofBits (F := Ideal) .f32 0x00000000#32)) (ix2 p j)
      = max (x0 (ix2 p j) + x1 (ix2 (0 : Fin 1) j)) (Ideal.ofBits .f32 0x00000000#32) := by
  rw [shapeCast_self, shapeCast_self]
  refine (maximumf_apply _ _ _).trans ?_
  refine congrArg₂ max ?_ rfl
  refine (addf_apply _ _ _).trans ?_
  exact congrArg (x0 (ix2 p j) + ·) (broadcastTo_1b_ab_apply x1 hb p j)

/-- A block holding the rows `o + p` of `Z`, with the same bias row, yields the rows `o + p` of the whole result. -/
theorem block_rows (Z : FVec Ideal ⟨2, ![A, M]⟩ .f32) (b : FVec Ideal ⟨2, ![1, M]⟩ .f32)
    (x0 : FVec Ideal ⟨2, ![B, M]⟩ .f32) (x1 : FVec Ideal ⟨2, ![1, M]⟩ .f32) (o : Nat) (p : Fin B) (j : Fin M)
    (hr : o + p.val < A) (h0 : x0 (ix2 p j) = Z (ix2 ⟨o + p.val, hr⟩ j)) (h1 : x1 (ix2 (0 : Fin 1) j) = b (ix2 (0 : Fin 1) j)) :
    max (x0 (ix2 p j) + x1 (ix2 (0 : Fin 1) j)) (Ideal.ofBits .f32 0x00000000#32) = biasRelu Z b (ix2 ⟨o + p.val, hr⟩ j) := by
  rw [biasRelu_ix2, h0, h1]

/-- The host's spelling at `(r, j)`. -/
theorem host_apply (Z : FVec Ideal ⟨2, ![A, M]⟩ .f32) (b : FVec Ideal ⟨1, ![M]⟩ .f32)
    (h1 : (⟨1, ![M]⟩ : Shape).BroadcastsInDim ⟨2, ![1, M]⟩ ![1])
    (h2 : (⟨2, ![1, M]⟩ : Shape).BroadcastsInDim ⟨2, ![A, M]⟩ ![0, 1])
    (hz : (⟨0, ![]⟩ : Shape).BroadcastsInDim ⟨2, ![A, M]⟩ ![]) (r : Fin A) (j : Fin M) :
    maximumf (addf Z (broadcastInDim ⟨2, ![A, M]⟩ ![0, 1] h2 (broadcastInDim ⟨2, ![1, M]⟩ ![1] h1 b)))
        (broadcastInDim ⟨2, ![A, M]⟩ ![] hz (constant (F := Ideal) ⟨0, ![]⟩ .f32 0x00000000#32)) (ix2 r j)
      = max (Z (ix2 r j) + b (ix1 j)) (Ideal.ofBits .f32 0x00000000#32) := by
  refine (maximumf_apply _ _ _).trans ?_
  refine congrArg₂ max ?_ ?_
  · refine (addf_apply _ _ _).trans ?_
    exact congrArg (Z (ix2 r j) + ·) (Affine.bias_rows_apply b h1 h2 r j)
  · exact broadcastInDim_apply _ hz _ (ix2 r j) (fun a => a.elim0) (fun a => a.elim0)

/-- The two spellings agree as whole arrays: the kernel's bias row is the host's bias vector recast to `[1, M]`. -/
theorem biasRelu_eq_host (Z : FVec Ideal ⟨2, ![A, M]⟩ .f32) (b : FVec Ideal ⟨1, ![M]⟩ .f32)
    (hc : (⟨1, ![M]⟩ : Shape).ShapeCasts ⟨2, ![1, M]⟩)
    (h1 : (⟨1, ![M]⟩ : Shape).BroadcastsInDim ⟨2, ![1, M]⟩ ![1])
    (h2 : (⟨2, ![1, M]⟩ : Shape).BroadcastsInDim ⟨2, ![A, M]⟩ ![0, 1])
    (hz : (⟨0, ![]⟩ : Shape).BroadcastsInDim ⟨2, ![A, M]⟩ ![]) :
    biasRelu Z (shapeCast ⟨2, ![1, M]⟩ b hc)
      = maximumf (addf Z (broadcastInDim ⟨2, ![A, M]⟩ ![0, 1] h2 (broadcastInDim ⟨2, ![1, M]⟩ ![1] h1 b)))
          (broadcastInDim ⟨2, ![A, M]⟩ ![] hz (constant (F := Ideal) ⟨0, ![]⟩ .f32 0x00000000#32)) := by
  funext i
  obtain ⟨r, j, rfl⟩ : ∃ (r : Fin A) (j : Fin M), i = ix2 r j := ⟨i 0, i 1, eq_ix2 i⟩
  rw [host_apply, biasRelu_ix2, shapeCast_a_1a_apply]

end Idealize.ShloMosaic.BiasRelu
-- ==== Proof.LibBiasRows.lean ====
/-
  A bias row added to every row of a matrix, `Z(r,j) + b(j)`, over the extended reals, as ONE function and in its two
  spellings. A kernel body holds the bias as a one-row matrix `[1, M]` and repeats it down the rows of its block. The host
  lifts the bias vector `[M]` to `[1, M]` and then to `[A, M]`. Entry `(r, j)` reads row `r` of `Z` only, so a block of
  rows of `Z` yields the same rows of the result. No finiteness is used: it is one sum on both sides.
-/
import Idealize.ShloMosaic.PureOps.Ideal.Laws
import Idealize.ShloMosaic.Lib.ValueIdx
import Idealize.ShloMosaic.Lib.ValueLayout
import Idealize.ShloMosaic.Lib.Pipeline.Value
import proofs.«171051_j85856396247086_1_alg».proof.Proof.LibAffine

namespace Idealize.ShloMosaic.BiasRows

open Idealize.ShloMosaic.ValueIdx

variable {A B M : Nat}

/-- `Z(r,j) + b(0,j)`, the bias a one-row matrix. -/
noncomputable def biasRows (Z : FVec Ideal ⟨2, ![A, M]⟩ .f32) (b : FVec Ideal ⟨2, ![1, M]⟩ .f32) : FVec Ideal ⟨2, ![A, M]⟩ .f32 :=
  fun i => Z i + b (ix2 (0 : Fin 1) ⟨(i 1).val, idx2_lt1 i⟩)

theorem biasRows_ix2 (Z : FVec Ideal ⟨2, ![A, M]⟩ .f32) (b : FVec Ideal ⟨2, ![1, M]⟩ .f32) (r : Fin A) (j : Fin M) :
    biasRows Z b (ix2 r j) = Z (ix2 r j) + b (ix2 (0 : Fin 1) j) := rfl

/-- The kernel body's spelling at `(p, j)` of its block (the two casts to a vector's own shape are the identity). -/
theorem body_apply (x0 : FVec Ideal ⟨2, ![B, M]⟩ .f32) (x1 : FVec Ideal ⟨2, ![1, M]⟩ .f32)
    (h0 : (⟨2, ![B, M]⟩ : Shape).ShapeCasts ⟨2, ![B, M]⟩) (h1 : (⟨2, ![1, M]⟩ : Shape).ShapeCasts ⟨2, ![1, M]⟩)
    (hb : (⟨2, ![1, M]⟩ : Shape).Broadcasts ⟨2, ![B, M]⟩) (p : Fin B) (j : Fin M) :
    addf (shapeCast ⟨2, ![B, M]⟩ x0 h0) (broadcastTo ⟨2, ![B, M]⟩ (shapeCast ⟨2, ![1, M]⟩ x1 h1) hb) (ix2 p j)
      = x0 (ix2 p j) + x1 (ix2 (0 : Fin 1) j) := by
  rw [shapeCast_self, shapeCast_self]
  refine (addf_apply _ _ _).trans ?_
  exact congrArg (x0 (ix2 p j) + ·) (broadcastTo_1b_ab_apply x1 hb p j)

/-- A block holding the rows `o + p` of `Z`, with the same bias row, yields the rows `o + p` of the whole result. -/
theorem block_rows (Z : FVec Ideal ⟨2, ![A, M]⟩ .f32) (b : FVec Ideal ⟨2, ![1, M]⟩ .f32)
    (x0 : FVec Ideal ⟨2, ![B, M]⟩ .f32) (x1 : FVec Ideal ⟨2, ![1, M]⟩ .f32) (o : Nat) (p : Fin B) (j : Fin M)
    (hr : o + p.val < A) (h0 : x0 (ix2 p j) = Z (ix2 ⟨o + p.val, hr⟩ j)) (h1 : x1 (ix2 (0 : Fin 1) j) = b (ix2 (0 : Fin 1) j)) :
    x0 (ix2 p j) + x1 (ix2 (0 : Fin 1) j) = biasRows Z b (ix2 ⟨o + p.val, hr⟩ j) := by
  rw [biasRows_ix2, h0, h1]

/-- The host's spelling at `(r, j)`. -/
theorem host_apply (Z : FVec Ideal ⟨2, ![A, M]⟩ .f32) (b : FVec Ideal ⟨1, ![M]⟩ .f32)
    (h1 : (⟨1, ![M]⟩ : Shape).BroadcastsInDim ⟨2, ![1, M]⟩ ![1])
    (h2 : (⟨2, ![1, M]⟩ : Shape).BroadcastsInDim ⟨2, ![A, M]⟩ ![0, 1]) (r : Fin A) (j : Fin M) :
    addf Z (broadcastInDim ⟨2, ![A, M]⟩ ![0, 1] h2 (broadcastInDim ⟨2, ![1, M]⟩ ![1] h1 b)) (ix2 r j)
      = Z (ix2 r j) + b (ix1 j) := by
  refine (addf_apply _ _ _).trans ?_
  exact congrArg (Z (ix2 r j) + ·) (Affine.bias_rows_apply b h1 h2 r j)

/-- The two spellings agree as whole arrays: the kernel's bias row is the host's bias vector recast to `[1, M]`. -/
theorem biasRows_eq_host (Z : FVec Ideal ⟨2, ![A, M]⟩ .f32) (b : FVec Ideal ⟨1, ![M]⟩ .f32)
    (hc : (⟨1, ![M]⟩ : Shape).ShapeCasts ⟨2, ![1, M]⟩)
    (h1 : (⟨1, ![M]⟩ : Shape).BroadcastsInDim ⟨2, ![1, M]⟩ ![1])
    (h2 : (⟨2, ![1, M]⟩ : Shape).BroadcastsInDim ⟨2, ![A, M]⟩ ![0, 1]) :
    biasRows Z (shapeCast ⟨2, ![1, M]⟩ b hc)
      = addf Z (broadcastInDim ⟨2, ![A, M]⟩ ![0, 1] h2 (broadcastInDim ⟨2, ![1, M]⟩ ![1] h1 b)) := by
  funext i
  obtain ⟨r, j, rfl⟩ : ∃ (r : Fin A) (j : Fin M), i = ix2 r j := ⟨i 0, i 1, eq_ix2 i⟩
  rw [host_apply, biasRows_ix2, shapeCast_a_1a_apply]

end Idealize.ShloMosaic.BiasRows
-- ==== Proof.Head.lean ====
/-
  The fourth launch: the classifier head on the pooled graph embeddings, one grid point whose blocks are the whole arrays.
  The body multiplies the embeddings `G` by `Wc1` (both rounded to bf16, the identity on the extended reals) into a zero
  accumulator, adds the bias row `bc1`, rectifies, multiplies by `Wc2` into a zero accumulator and adds the bias row `bc2`. So the
  result array after the launch is `max (G·Wc1 + bc1) 0 · Wc2 + bc2` as one function of the five arrays the launch was entered
  with, whatever they are.
-/
import proofs.«171051_j85856396247086_1_alg».proof.Proof.Gen.KernelIdeal.Frame
import proofs.«171051_j85856396247086_1_alg».proof.Proof.LibRowProduct
import proofs.«171051_j85856396247086_1_alg».proof.Proof.LibBiasRelu
import proofs.«171051_j85856396247086_1_alg».proof.Proof.LibBiasRows
import Idealize.ShloMosaic.Lib.Pipeline.Value
import Idealize.ShloMosaic.Lib.ValueIdx

set_option maxRecDepth 16384

noncomputable section

namespace Cert.KernelIdeal.Whole

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen

-- the buffer contents a launch is entered with: every statement below holds for any
variable (V : (c : Dev nD) → (b : Ref sig .tc) → Buf (Elt Ideal) ((c : Thread nD τ).loc b))

theorem hz3 : (![0, 0] : Fin 2 → Nat) = fun _ => 0 := funext fun a => by fin_cases a <;> rfl

/-- The head as one function of its five arrays. -/
def headOf (G : FVec Ideal S256x64 .f32) (W1 : FVec Ideal S64x32 .f32) (b1 : FVec Ideal S1x32 .f32) (W2 : FVec Ideal S32x2 .f32)
    (b2 : FVec Ideal S1x2 .f32) : FVec Ideal S256x2 .f32 :=
  BiasRows.biasRows (RowProduct.prod (BiasRelu.biasRelu (RowProduct.prod G W1) b1) W2) b2

theorem headOf_ix2 (G : FVec Ideal S256x64 .f32) (W1 : FVec Ideal S64x32 .f32) (b1 : FVec Ideal S1x32 .f32)
    (W2 : FVec Ideal S32x2 .f32) (b2 : FVec Ideal S1x2 .f32) (p : Fin 256) (j : Fin 2) :
    headOf G W1 b1 W2 b2 (ix2 p j)
      = (∑ k : Fin 32, max ((∑ l : Fin 64, G (ix2 p l) * W1 (ix2 l k)) + b1 (ix2 (0 : Fin 1) k)) (Ideal.ofBits .f32 0x00000000#32)
            * W2 (ix2 k j)) + b2 (ix2 (0 : Fin 1) j) := rfl

theorem idx3_0 : ∀ t : Fin cfg3.N, win3_0.index t (0 : Fin 2) = 0 ∧ win3_0.index t (1 : Fin 2) = 0 :=
  (by decide +kernel : ∀ t : Fin grid3.N, _)

/-- The embedding block is the whole embedding array. -/
theorem blk3_0_apply (c : Dev nD) (t : Fin cfg3.N) (x : S256x64.Idx) (k : S256x64.Idx)
    (hk0 : (k 0).val = (x 0).val) (hk1 : (k 1).val = (x 1).val) :
    (iblk3 V c 0 t : Vec Ideal S256x64 .f32) x = (V c main_v72 : S256x64.Idx → Elt Ideal .f32) k := by
  obtain ⟨e0, e1⟩ := idx3_0 t
  unfold iblk3
  rw [View.read_apply]
  show V c main_v72 _ = V c main_v72 _
  refine congrArg (V c main_v72) ?_
  funext a
  apply Fin.ext
  match a with
  | ⟨0, _⟩ => show win3_0.index t 0 * 256 + 1 * (x 0).val = (k 0).val; rw [e0, hk0]; omega
  | ⟨1, _⟩ => show win3_0.index t 1 * 64 + 1 * (x 1).val = (k 1).val; rw [e1, hk1]; omega

theorem idx3_1 : ∀ t : Fin cfg3.N, win3_1.index t (0 : Fin 2) = 0 ∧ win3_1.index t (1 : Fin 2) = 0 :=
  (by decide +kernel : ∀ t : Fin grid3.N, _)

/-- The first weight block is the whole matrix. -/
theorem blk3_1_apply (c : Dev nD) (t : Fin cfg3.N) (x : S64x32.Idx) (k : S64x32.Idx)
    (hk0 : (k 0).val = (x 0).val) (hk1 : (k 1).val = (x 1).val) :
    (iblk3 V c 1 t : Vec Ideal S64x32 .f32) x = (V c main_arg7 : S64x32.Idx → Elt Ideal .f32) k := by
  obtain ⟨e0, e1⟩ := idx3_1 t
  unfold iblk3
  rw [View.read_apply]
  show V c main_arg7 _ = V c main_arg7 _
  refine congrArg (V c main_arg7) ?_
  funext a
  apply Fin.ext
  match a with
  | ⟨0, _⟩ => show win3_1.index t 0 * 64 + 1 * (x 0).val = (k 0).val; rw [e0, hk0]; omega
  | ⟨1, _⟩ => show win3_1.index t 1 * 32 + 1 * (x 1).val = (k 1).val; rw [e1, hk1]; omega

theorem idx3_2 : ∀ t : Fin cfg3.N, win3_2.index t (0 : Fin 2) = 0 ∧ win3_2.index t (1 : Fin 2) = 0 :=
  (by decide +kernel : ∀ t : Fin grid3.N, _)

/-- The first bias block is the whole bias row. -/
theorem blk3_2_apply (c : Dev nD) (t : Fin cfg3.N) (x : S1x32.Idx) (k : S1x32.Idx)
    (hk0 : (k 0).val = (x 0).val) (hk1 : (k 1).val = (x 1).val) :
    (iblk3 V c 2 t : Vec Ideal S1x32 .f32) x = (V c main_v30 : S1x32.Idx → Elt Ideal .f32) k := by
  obtain ⟨e0, e1⟩ := idx3_2 t
  unfold iblk3
  rw [View.read_apply]
  show V c main_v30 _ = V c main_v30 _
  refine congrArg (V c main_v30) ?_
  funext a
  apply Fin.ext
  match a with
  | ⟨0, _⟩ => show win3_2.index t 0 * 1 + 1 * (x 0).val = (k 0).val; rw [e0, hk0]; omega
  | ⟨1, _⟩ => show win3_2.index t 1 * 32 + 1 * (x 1).val = (k 1).val; rw [e1, hk1]; omega

theorem idx3_3 : ∀ t : Fin cfg3.N, win3_3.index t (0 : Fin 2) = 0 ∧ win3_3.index t (1 : Fin 2) = 0 :=
  (by decide +kernel : ∀ t : Fin grid3.N, _)

/-- The second weight block is the whole matrix. -/
theorem blk3_3_apply (c : Dev nD) (t : Fin cfg3.N) (x : S32x2.Idx) (k : S32x2.Idx)
    (hk0 : (k 0).val = (x 0).val) (hk1 : (k 1).val = (x 1).val) :
    (iblk3 V c 3 t : Vec Ideal S32x2 .f32) x = (V c main_arg9 : S32x2.Idx → Elt Ideal .f32) k := by
  obtain ⟨e0, e1⟩ := idx3_3 t
  unfold iblk3
  rw [View.read_apply]
  show V c main_arg9 _ = V c main_arg9 _
  refine congrArg (V c main_arg9) ?_
  funext a
  apply Fin.ext
  match a with
  | ⟨0, _⟩ => show win3_3.index t 0 * 32 + 1 * (x 0).val = (k 0).val; rw [e0, hk0]; omega
  | ⟨1, _⟩ => show win3_3.index t 1 * 2 + 1 * (x 1).val = (k 1).val; rw [e1, hk1]; omega

theorem idx3_4 : ∀ t : Fin cfg3.N, win3_4.index t (0 : Fin 2) = 0 ∧ win3_4.index t (1 : Fin 2) = 0 :=
  (by decide +kernel : ∀ t : Fin grid3.N, _)

/-- The second bias block is the whole bias row. -/
theorem blk3_4_apply (c : Dev nD) (t : Fin cfg3.N) (x : S1x2.Idx) (k : S1x2.Idx)
    (hk0 : (k 0).val = (x 0).val) (hk1 : (k 1).val = (x 1).val) :
    (iblk3 V c 4 t : Vec Ideal S1x2 .f32) x = (V c main_v31 : S1x2.Idx → Elt Ideal .f32) k := by
  obtain ⟨e0, e1⟩ := idx3_4 t
  unfold iblk3
  rw [View.read_apply]
  show V c main_v31 _ = V c main_v31 _
  refine congrArg (V c main_v31) ?_
  funext a
  apply Fin.ext
  match a with
  | ⟨0, _⟩ => show win3_4.index t 0 * 1 + 1 * (x 0).val = (k 0).val; rw [e0, hk0]; omega
  | ⟨1, _⟩ => show win3_4.index t 1 * 2 + 1 * (x 1).val = (k 1).val; rw [e1, hk1]; omega

theorem idx3_5 : ∀ t : Fin cfg3.N, win3_5.index t (0 : Fin 2) = 0 ∧ win3_5.index t (1 : Fin 2) = 0 :=
  (by decide +kernel : ∀ t : Fin grid3.N, _)

/-- An index of the result array is in point `t`'s block iff each coordinate is in the block's range on its axis. -/
theorem mem_blk3 (t : Fin cfg3.N) (i : S256x2.Idx) :
    i ∈ ((cfg3.win 5).blk t).view.set ↔ ∀ a : Fin 2, win3_5.index t a * S256x2.size a ≤ (i a).val
      ∧ (i a).val < win3_5.index t a * S256x2.size a + S256x2.size a := by
  show i ∈ ((View.whole main_v73).slice (win3_5.rect t)).set ↔ _
  rw [View.set_slice_whole, Rect.mem_set_unit]
  exact Iff.rfl

/-- The body's stored value at `(p, j)`. -/
theorem pay3_apply (x0 : Vec Ideal S256x64 .f32) (x3 : Vec Ideal S64x32 .f32) (x6 : Vec Ideal S1x32 .f32)
    (x13 : Vec Ideal S32x2 .f32) (x16 : Vec Ideal S1x2 .f32) (p : Fin 256) (j : Fin 2) :
    k3_pay1 (F := Ideal) x0 x3 x6 x13 x16 (ix2 p j)
      = (∑ k : Fin 32, max ((∑ l : Fin 64, x0 (ix2 p l) * x3 (ix2 l k)) + x6 (ix2 (0 : Fin 1) k)) (Ideal.ofBits .f32 0x00000000#32)
            * x13 (ix2 k j)) + x16 (ix2 (0 : Fin 1) j) := by
  unfold k3_pay1
  refine (addf_apply _ _ _).trans ?_
  refine congrArg₂ (· + ·) ?_ ?_
  · refine (PlainDot.matmul_apply_ix2 none _ _ p j).trans ?_
    refine Finset.sum_congr rfl fun k _ => ?_
    refine congrArg₂ (· * ·) ?_ rfl
    refine (maximumf_apply _ _ _).trans ?_
    refine congrArg₂ max ?_ rfl
    refine (addf_apply _ _ _).trans ?_
    refine congrArg₂ (· + ·) ?_ ?_
    · refine (PlainDot.matmul_apply_ix2 none _ _ p k).trans ?_
      refine Finset.sum_congr rfl fun l _ => ?_
      refine congrArg₂ (· * ·) ?_ rfl
      exact congrFun (shapeCast_self x0 shapeCasts_S256x64_S256x64) (ix2 p l)
    · rw [shapeCast_self]
      exact broadcastTo_1b_ab_apply x6 broadcasts_S1x32_S256x32 p k
  · rw [shapeCast_self]
    exact broadcastTo_1b_ab_apply x16 broadcasts_S1x2_S256x2 p j

/-- What the one point stores at `y` is the head's function at the array index `y` sits at. -/
theorem point3 (c : Dev nD) (t : Fin cfg3.N) (y : S256x2.Idx) :
    k3_pay1 (F := Ideal) (iblk3 V c 0 t) (iblk3 V c 1 t) (iblk3 V c 2 t) (iblk3 V c 3 t) (iblk3 V c 4 t) y
      = headOf (V c main_v72) (V c main_arg7) (V c main_v30) (V c main_arg9) (V c main_v31) (((cfg3.win 5).blk t).view.emb y) := by
  obtain ⟨p, j, rfl⟩ : ∃ (p : Fin 256) (j : Fin 2), y = ix2 p j := ⟨y 0, y 1, eq_ix2 y⟩
  obtain ⟨e4, e5⟩ := idx3_5 t
  have hemb : ((cfg3.win 5).blk t).view.emb (ix2 p j) = (ix2 p j : S256x2.Idx) := by
    funext a
    apply Fin.ext
    match a with
    | ⟨0, _⟩ => show win3_5.index t 0 * 256 + 1 * p.val = p.val; rw [e4]; omega
    | ⟨1, _⟩ => show win3_5.index t 1 * 2 + 1 * j.val = j.val; rw [e5]; omega
  rw [hemb, headOf_ix2]
  refine (pay3_apply (iblk3 V c 0 t) (iblk3 V c 1 t) (iblk3 V c 2 t) (iblk3 V c 3 t) (iblk3 V c 4 t) p j).trans ?_
  refine congrArg₂ (· + ·) ?_ (blk3_4_apply V c t (ix2 (0 : Fin 1) j) (ix2 (0 : Fin 1) j) rfl rfl)
  refine Finset.sum_congr rfl fun k _ => ?_
  refine congrArg₂ (· * ·) ?_ (blk3_3_apply V c t (ix2 k j) (ix2 k j) rfl rfl)
  refine congrArg₂ max ?_ rfl
  refine congrArg₂ (· + ·) ?_ (blk3_2_apply V c t (ix2 (0 : Fin 1) k) (ix2 (0 : Fin 1) k) rfl rfl)
  refine Finset.sum_congr rfl fun l _ => ?_
  exact congrArg₂ (· * ·) (blk3_0_apply V c t (ix2 p l) (ix2 p l) rfl rfl) (blk3_1_apply V c t (ix2 l k) (ix2 l k) rfl rfl)

/-- What the one point writes back is the block of that function of the arrays the launch was entered with. -/
theorem flushed3_eq (c : Dev nD) (t : Fin cfg3.N) :
    (dat3 V c).flushed 5 t = ((cfg3.win 5).blk t).view.read (Elt Ideal)
      (headOf (V c main_v72) (V c main_arg7) (V c main_v30) (V c main_arg9) (V c main_v31)) := by
  show (cfg3.win 5).cut (grid3.coords t) ((dat3 V c).after 5 t) = _
  rw [after3_5]
  unfold out3_5
  rw [View.canon_unit_zero hz3]
  simp only [View.ld_unit_zero (S := S256x64) hz3, View.ld_unit_zero (S := S64x32) hz3, View.ld_unit_zero (S := S1x32) hz3,
    View.ld_unit_zero (S := S32x2) hz3, View.ld_unit_zero (S := S1x2) hz3]
  funext y
  exact point3 V c t y

/-- The one point's block is the whole result array. -/
theorem cover3 (i : S256x2.Idx) :
    ∃ t : Fin cfg3.N, (cfg3.win 5).flush t = true ∧ i ∈ ((cfg3.win 5).blk t).view.set := by
  have hi0 : (i 0).val < 256 := (i 0).isLt
  have hi1 : (i 1).val < 2 := (i 1).isLt
  obtain ⟨e4, e5⟩ := idx3_5 t3_0
  refine ⟨t3_0, flush3_5 _, ?_⟩
  rw [mem_blk3]
  intro a
  match a with
  | ⟨0, _⟩ =>
    show win3_5.index t3_0 0 * 256 ≤ (i 0).val ∧ (i 0).val < win3_5.index t3_0 0 * 256 + 256
    rw [e4]; omega
  | ⟨1, _⟩ =>
    show win3_5.index t3_0 1 * 2 ≤ (i 1).val ∧ (i 1).val < win3_5.index t3_0 1 * 2 + 2
    rw [e5]; omega

/-- The result array after the fourth launch: the classifier head of the five arrays it was entered with. -/
theorem final3 (c : Dev nD) :
    (dat3 V c).arrAt 5 cfg3.N = headOf (V c main_v72) (V c main_arg7) (V c main_v30) (V c main_arg9) (V c main_v31) :=
  (dat3 V c).arrAt_eq_of_cover 5 (headOf (V c main_v72) (V c main_arg7) (V c main_v30) (V c main_arg9) (V c main_v31))
    (fun t _ => flushed3_eq V c t) cover3

end Cert.KernelIdeal.Whole

end
-- ==== Proof.Model.lean ====
/-
  The computation both programs perform, as ONE term of the eleven argument arrays, in the host's spelling, cut into named
  stages: the edge endpoints read off the edge list; the degree normalisation `dinv = rsqrt (deg + 1)`; the edge weights
  `dinv[src] · dinv[dst]`; a layer's neighbour aggregation (gather rows at the sources, weight, scatter-add at the
  destinations); a layer's closing step `max (agg + dinv² · h + b) 0`; the two linear maps; the mean pool over graph ids; and the
  two-layer classifier head. The gathers and scatter-adds are applied to the same operands on both sides and are never opened.
-/
import proofs.«171051_j85856396247086_1_alg».proof.Proof.Gen.ReferenceIdeal.Run

noncomputable section

namespace Cert.Model

open Cert.ReferenceIdeal Cert.ReferenceIdeal.Gen Idealize.ShloMosaic Idealize.ShloMosaic.TcCoe Idealize.SL.Sem

variable {F : FTy → Type} [FloatOps F]

/-- Row 0 of the edge list: the source node of every edge. -/
def src (e : (⟨S2x1600000, .i32⟩ : BufTy).Contents (Elt F)) : (⟨S1600000, .i32⟩ : BufTy).Contents (Elt F) :=
  shapeCast _ (extractStridedSlice S1x1600000 ![0, 0] e slices_S2x1600000_S1x1600000_0_0) shapeCasts_S1x1600000_S1600000

/-- Row 1 of the edge list: the destination node of every edge. -/
def dst (e : (⟨S2x1600000, .i32⟩ : BufTy).Contents (Elt F)) : (⟨S1600000, .i32⟩ : BufTy).Contents (Elt F) :=
  shapeCast _ (extractStridedSlice S1x1600000 ![1, 0] e slices_S2x1600000_S1x1600000_1_0) shapeCasts_S1x1600000_S1600000

/-- A node id per edge as a gather's start indices: negative ids wrapped by the node count, one index per row. -/
def startIdx (v : (⟨S1600000, .i32⟩ : BufTy).Contents (Elt F)) : (⟨S1600000x1, .i32⟩ : BufTy).Contents (Elt F) :=
  broadcastInDim S1600000x1 ![0] bcast_S1600000_S1600000x1_0 (select (cmpi .slt v (broadcastInDim S1600000 ![] bcast_S_S1600000 (constantI S_ 32 0#32))) (addi v (broadcastInDim S1600000 ![] bcast_S_S1600000 (constantI S_ 32 100000#32))) v)

/-- `rsqrt (in-degree + 1)` per node: ones scatter-added at the destinations, plus one for the self loop. -/
def dinv (d : (⟨S1600000, .i32⟩ : BufTy).Contents (Elt F)) : (⟨S100000, .f32⟩ : BufTy).Contents (Elt F) :=
  Host.rsqrt (addf (Host.scatterAdd scatter_S100000_S1600000x1_S1600000_n_0_0_1 (broadcastInDim S100000 ![] bcast_S_S100000 (constant S_ .f32 0x00000000#32)) (broadcastInDim S1600000x1 ![0] bcast_S1600000_S1600000x1_0 d) (broadcastInDim S1600000 ![] bcast_S_S1600000 (constant S_ .f32 0x3F800000#32))) (broadcastInDim S100000 ![] bcast_S_S100000 (constant S_ .f32 0x3F800000#32)))

/-- The weight of every edge: `dinv[src] · dinv[dst]`. -/
def norm (s d : (⟨S1600000, .i32⟩ : BufTy).Contents (Elt F)) : (⟨S1600000, .f32⟩ : BufTy).Contents (Elt F) :=
  mulf (Host.gather gather_S100000_S1600000x1_S1600000_n_0_n_n_0_1_1 (dinv d) (startIdx s)) (Host.gather gather_S100000_S1600000x1_S1600000_n_0_n_n_0_1_1 (dinv d) (startIdx d))

/-- The self-loop coefficient per node: `dinv²`. -/
def dinvSq (d : (⟨S1600000, .i32⟩ : BufTy).Contents (Elt F)) : (⟨S100000, .f32⟩ : BufTy).Contents (Elt F) :=
  mulf (dinv d) (dinv d)

/-- A layer's neighbour aggregation: the rows of `h` at the sources, each times its edge's weight, summed at the destinations. -/
def agg (s d : (⟨S1600000, .i32⟩ : BufTy).Contents (Elt F)) (h : (⟨S100000x64, .f32⟩ : BufTy).Contents (Elt F)) :
    (⟨S100000x64, .f32⟩ : BufTy).Contents (Elt F) :=
  Host.scatterAdd scatter_S100000x64_S1600000x1_S1600000x64_1_0_0_1 (broadcastInDim S100000x64 ![] bcast_S_S100000x64 (constant S_ .f32 0x00000000#32)) (broadcastInDim S1600000x1 ![0] bcast_S1600000_S1600000x1_0 d) (mulf (broadcastInDim S1600000x64 ![0, 1] bcast_S1600000x1_S1600000x64_0_1 (broadcastInDim S1600000x1 ![0] bcast_S1600000_S1600000x1_0 (norm s d))) (Host.gather gather_S100000x64_S1600000x1_S1600000x64_1_0_n_n_0_1_164 h (startIdx s)))

/-- A layer's closing step: `max (a + q · h + b) 0`, the coefficients `q` per row, the bias `b` per column. -/
def close (a h : (⟨S100000x64, .f32⟩ : BufTy).Contents (Elt F)) (q : (⟨S100000, .f32⟩ : BufTy).Contents (Elt F))
    (b : (⟨S64, .f32⟩ : BufTy).Contents (Elt F)) : (⟨S100000x64, .f32⟩ : BufTy).Contents (Elt F) :=
  maximumf (addf (addf a (mulf (broadcastInDim S100000x64 ![0, 1] bcast_S100000x1_S100000x64_0_1 (broadcastInDim S100000x1 ![0] bcast_S100000_S100000x1_0 q)) h)) (broadcastInDim S100000x64 ![0, 1] bcast_S1x64_S100000x64_0_1 (broadcastInDim S1x64 ![1] bcast_S64_S1x64_1 b))) (broadcastInDim S100000x64 ![] bcast_S_S100000x64 (constant S_ .f32 0x00000000#32))

/-- The first linear map: node features times the first weight matrix. -/
def lin1 (x : (⟨S100000x128, .f32⟩ : BufTy).Contents (Elt F)) (w : (⟨S128x64, .f32⟩ : BufTy).Contents (Elt F)) :
    (⟨S100000x64, .f32⟩ : BufTy).Contents (Elt F) :=
  Host.dotGeneral dot_S100000x128_S128x64_S100000x64_1_0_0_1_n_n none x w

/-- The second linear map. -/
def lin2 (h : (⟨S100000x64, .f32⟩ : BufTy).Contents (Elt F)) (w : (⟨S64x64, .f32⟩ : BufTy).Contents (Elt F)) :
    (⟨S100000x64, .f32⟩ : BufTy).Contents (Elt F) :=
  Host.dotGeneral dot_S100000x64_S64x64_S100000x64_1_0_0_1_n_n none h w

/-- The mean pool over graph ids: the rows of `h` summed per graph, over the graph's node count (at least one). -/
def pool (g : (⟨S100000, .i32⟩ : BufTy).Contents (Elt F)) (h : (⟨S100000x64, .f32⟩ : BufTy).Contents (Elt F)) :
    (⟨S256x64, .f32⟩ : BufTy).Contents (Elt F) :=
  Host.divf (Host.scatterAdd scatter_S256x64_S100000x1_S100000x64_1_0_0_1 (broadcastInDim S256x64 ![] bcast_S_S256x64 (constant S_ .f32 0x00000000#32)) (broadcastInDim S100000x1 ![0] bcast_S100000_S100000x1_0 g) h) (broadcastInDim S256x64 ![0, 1] bcast_S256x1_S256x64_0_1 (broadcastInDim S256x1 ![0] bcast_S256_S256x1_0 (maximumf (Host.scatterAdd scatter_S256_S100000x1_S100000_n_0_0_1 (broadcastInDim S256 ![] bcast_S_S256 (constant S_ .f32 0x00000000#32)) (broadcastInDim S100000x1 ![0] bcast_S100000_S100000x1_0 g) (broadcastInDim S100000 ![] bcast_S_S100000 (constant S_ .f32 0x3F800000#32))) (broadcastInDim S256 ![] bcast_S_S256 (constant S_ .f32 0x3F800000#32)))))

/-- The classifier head: `max (p · Wc1 + bc1) 0 · Wc2 + bc2`. -/
def head (p : (⟨S256x64, .f32⟩ : BufTy).Contents (Elt F)) (w1 : (⟨S64x32, .f32⟩ : BufTy).Contents (Elt F))
    (b1 : (⟨S32, .f32⟩ : BufTy).Contents (Elt F)) (w2 : (⟨S32x2, .f32⟩ : BufTy).Contents (Elt F))
    (b2 : (⟨S2, .f32⟩ : BufTy).Contents (Elt F)) : (⟨S256x2, .f32⟩ : BufTy).Contents (Elt F) :=
  addf (Host.dotGeneral dot_S256x32_S32x2_S256x2_1_0_0_1_n_n none (maximumf (addf (Host.dotGeneral dot_S256x64_S64x32_S256x32_1_0_0_1_n_n none p w1) (broadcastInDim S256x32 ![0, 1] bcast_S1x32_S256x32_0_1 (broadcastInDim S1x32 ![1] bcast_S32_S1x32_1 b1))) (broadcastInDim S256x32 ![] bcast_S_S256x32 (constant S_ .f32 0x00000000#32))) w2) (broadcastInDim S256x2 ![0, 1] bcast_S1x2_S256x2_0_1 (broadcastInDim S1x2 ![1] bcast_S2_S1x2_1 b2))

/-- The first layer's output before aggregation. -/
def h1 (x : (⟨S100000x128, .f32⟩ : BufTy).Contents (Elt F)) (w1 : (⟨S128x64, .f32⟩ : BufTy).Contents (Elt F)) :
    (⟨S100000x64, .f32⟩ : BufTy).Contents (Elt F) := lin1 x w1

/-- The second layer's linear map of the first layer's closed output. -/
def h2 (x : (⟨S100000x128, .f32⟩ : BufTy).Contents (Elt F)) (e : (⟨S2x1600000, .i32⟩ : BufTy).Contents (Elt F))
    (w1 : (⟨S128x64, .f32⟩ : BufTy).Contents (Elt F)) (b1 : (⟨S64, .f32⟩ : BufTy).Contents (Elt F))
    (w2 : (⟨S64x64, .f32⟩ : BufTy).Contents (Elt F)) : (⟨S100000x64, .f32⟩ : BufTy).Contents (Elt F) :=
  lin2 (close (agg (src e) (dst e) (h1 x w1)) (h1 x w1) (dinvSq (dst e)) b1) w2

/-- The second layer's closed output. -/
def h2act (x : (⟨S100000x128, .f32⟩ : BufTy).Contents (Elt F)) (e : (⟨S2x1600000, .i32⟩ : BufTy).Contents (Elt F))
    (w1 : (⟨S128x64, .f32⟩ : BufTy).Contents (Elt F)) (b1 : (⟨S64, .f32⟩ : BufTy).Contents (Elt F))
    (w2 : (⟨S64x64, .f32⟩ : BufTy).Contents (Elt F)) (b2 : (⟨S64, .f32⟩ : BufTy).Contents (Elt F)) :
    (⟨S100000x64, .f32⟩ : BufTy).Contents (Elt F) :=
  close (agg (src e) (dst e) (h2 x e w1 b1 w2)) (h2 x e w1 b1 w2) (dinvSq (dst e)) b2

/-- The whole computation. -/
def out (x : (⟨S100000x128, .f32⟩ : BufTy).Contents (Elt F)) (e : (⟨S2x1600000, .i32⟩ : BufTy).Contents (Elt F))
    (g : (⟨S100000, .i32⟩ : BufTy).Contents (Elt F))
    (w1 : (⟨S128x64, .f32⟩ : BufTy).Contents (Elt F)) (b1 : (⟨S64, .f32⟩ : BufTy).Contents (Elt F))
    (w2 : (⟨S64x64, .f32⟩ : BufTy).Contents (Elt F)) (b2 : (⟨S64, .f32⟩ : BufTy).Contents (Elt F))
    (wc1 : (⟨S64x32, .f32⟩ : BufTy).Contents (Elt F)) (bc1 : (⟨S32, .f32⟩ : BufTy).Contents (Elt F))
    (wc2 : (⟨S32x2, .f32⟩ : BufTy).Contents (Elt F)) (bc2 : (⟨S2, .f32⟩ : BufTy).Contents (Elt F)) :
    (⟨S256x2, .f32⟩ : BufTy).Contents (Elt F) :=
  head (pool g (h2act x e w1 b1 w2 b2)) wc1 bc1 wc2 bc2

set_option maxRecDepth 8192 in
/-- The reference program's result term is that computation of its argument arrays. -/
theorem reference_eq (m : (ℓ : Loc nD τ sig) → Buf (Elt F) ℓ) (c : Dev nD) :
    Cert.ReferenceIdeal.Value.res_main_v114 m c
      = out (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5))
          (m ((c.tc : Thread nD τ).loc main_arg6)) (m ((c.tc : Thread nD τ).loc main_arg7)) (m ((c.tc : Thread nD τ).loc main_arg8))
          (m ((c.tc : Thread nD τ).loc main_arg9)) (m ((c.tc : Thread nD τ).loc main_arg10)) := by
  unfold Cert.ReferenceIdeal.Value.res_main_v114 out head pool h2act h2 h1 close agg lin1 lin2 norm dinvSq dinv startIdx src dst
  rfl

end Cert.Model

end
-- ==== Proof.Boundaries.lean ====
/-
  The idealized kernel program's result as the one computation of its argument arrays. The program alternates stretches of
  host operations with four launches. Walking its buffers' contents boundary by boundary — each host operation's result its
  function of its operands' contents, each launch's result array the whole-array function the launch's module proves, every
  other buffer carried unchanged — the result buffer at the last boundary holds the computation of the launch contents of the
  eleven arguments. The degree normalisation, the edge weights, the gathers and the scatter-adds are the host's own operations
  on both sides, applied to equal operands.
-/
import proofs.«171051_j85856396247086_1_alg».proof.Proof.Gen.KernelIdeal.Frame
import proofs.«171051_j85856396247086_1_alg».proof.Proof.Layer1Product
import proofs.«171051_j85856396247086_1_alg».proof.Proof.Layer1Close
import proofs.«171051_j85856396247086_1_alg».proof.Proof.Layer2Close
import proofs.«171051_j85856396247086_1_alg».proof.Proof.Head
import proofs.«171051_j85856396247086_1_alg».proof.Proof.Model
import Idealize.ShloMosaic.Lib.StableHlo.Run

set_option maxRecDepth 16384

noncomputable section

namespace Cert.KernelIdeal.Whole

open Idealize.ShloMosaic Idealize.ShloMosaic.TcCoe Idealize.ShloMosaic.ValueIdx Idealize.ShloMosaic.StableHlo
open Idealize.SL Idealize.SL.Sem
open Idealize.ShloMosaic.Pipeline (Dat Cfg Window)
open Cert.KernelIdeal Cert.KernelIdeal.Gen

set_option quotPrecheck false

variable (m : (ℓ : Loc nD τ sig) → Buf (Elt Ideal) ℓ) (ρ : Dev nD → PrngReg) (c : Dev nD)

local notation "𝔞0" => m ((c : Thread nD τ).loc main_arg0)
local notation "𝔞1" => m ((c : Thread nD τ).loc main_arg1)
local notation "𝔞2" => m ((c : Thread nD τ).loc main_arg2)
local notation "𝔞3" => m ((c : Thread nD τ).loc main_arg3)
local notation "𝔞4" => m ((c : Thread nD τ).loc main_arg4)
local notation "𝔞5" => m ((c : Thread nD τ).loc main_arg5)
local notation "𝔞6" => m ((c : Thread nD τ).loc main_arg6)
local notation "𝔞7" => m ((c : Thread nD τ).loc main_arg7)
local notation "𝔞8" => m ((c : Thread nD τ).loc main_arg8)
local notation "𝔞9" => m ((c : Thread nD τ).loc main_arg9)
local notation "𝔞10" => m ((c : Thread nD τ).loc main_arg10)

/-! ## The spellings: each launch's whole-array function is the host's term of the same stage -/

/-- The row product of the whole arrays is the host's first linear map. -/
theorem lin1_eq (X : FVec Ideal S100000x128 .f32) (W : FVec Ideal S128x64 .f32) : RowProduct.prod X W = Model.lin1 (F := Ideal) X W :=
  (RowProduct.host_eq none .single X W).symm

/-- … and the second. -/
theorem lin2_eq (X : FVec Ideal S100000x64 .f32) (W : FVec Ideal S64x64 .f32) : RowProduct.prod X W = Model.lin2 (F := Ideal) X W :=
  (RowProduct.host_eq none .single X W).symm

/-- A launch's closing step, its coefficient column and bias row the host's vectors recast, is the host's closing step. -/
theorem close_eq (S H : FVec Ideal S100000x64 .f32) (q : FVec Ideal S100000 .f32) (b : FVec Ideal S64 .f32) :
    SelfLoop.combine S H (shapeCast S100000x1 q shapeCasts_S100000_S100000x1) (shapeCast S1x64 b shapeCasts_S64_S1x64)
      = Model.close (F := Ideal) S H q b := by
  unfold Model.close
  exact SelfLoop.combine_eq_host S H q b _ _ _ _ _ _ _

/-- The launch's classifier head, its bias rows the host's vectors recast, is the host's head. -/
theorem head_eq (G : FVec Ideal S256x64 .f32) (W1 : FVec Ideal S64x32 .f32) (b1 : FVec Ideal S32 .f32) (W2 : FVec Ideal S32x2 .f32)
    (b2 : FVec Ideal S2 .f32) :
    headOf G W1 (shapeCast S1x32 b1 shapeCasts_S32_S1x32) W2 (shapeCast S1x2 b2 shapeCasts_S2_S1x2) = Model.head (F := Ideal) G W1 b1 W2 b2 := by
  unfold headOf Model.head
  rw [BiasRows.biasRows_eq_host _ b2 shapeCasts_S2_S1x2 Cert.ReferenceIdeal.Gen.bcast_S2_S1x2_1 Cert.ReferenceIdeal.Gen.bcast_S1x2_S256x2_0_1,
    BiasRelu.biasRelu_eq_host _ b1 shapeCasts_S32_S1x32 Cert.ReferenceIdeal.Gen.bcast_S32_S1x32_1 Cert.ReferenceIdeal.Gen.bcast_S1x32_S256x32_0_1
      Cert.ReferenceIdeal.Gen.bcast_S_S256x32,
    ← RowProduct.host_eq none .single G W1, ← RowProduct.host_eq none .single _ W2]
  rfl

/-! ## Boundary 1: after the host operations before the first launch -/

theorem at1_arg0 : W1 m ρ c (Proc.devRef .tc main_arg0) = 𝔞0 := by
  show StableHlo.after hostOps0 (W0 m ρ c) (Proc.devRef .tc main_arg0) = _
  dsimp only [hostOps0]
  after_results_simp <;> rfl

theorem at1_arg3 : W1 m ρ c (Proc.devRef .tc main_arg3) = 𝔞3 := by
  show StableHlo.after hostOps0 (W0 m ρ c) (Proc.devRef .tc main_arg3) = _
  dsimp only [hostOps0]
  after_results_simp <;> rfl

theorem at1_v1 : W1 m ρ c (Proc.devRef .tc main_v1) = Model.src (F := Ideal) 𝔞1 := by
  show StableHlo.after hostOps0 (W0 m ρ c) (Proc.devRef .tc main_v1) = _
  dsimp only [hostOps0]
  after_results_simp <;> rfl

theorem at1_v3 : W1 m ρ c (Proc.devRef .tc main_v3) = Model.dst (F := Ideal) 𝔞1 := by
  show StableHlo.after hostOps0 (W0 m ρ c) (Proc.devRef .tc main_v3) = _
  dsimp only [hostOps0]
  after_results_simp <;> rfl

theorem at1_v25 : W1 m ρ c (Proc.devRef .tc main_v25) = Model.norm (F := Ideal) (Model.src (F := Ideal) 𝔞1) (Model.dst (F := Ideal) 𝔞1) := by
  show StableHlo.after hostOps0 (W0 m ρ c) (Proc.devRef .tc main_v25) = _
  dsimp only [hostOps0]
  after_results_simp <;> rfl

theorem at1_v27 : W1 m ρ c (Proc.devRef .tc main_v27) = shapeCast S100000x1 (Model.dinvSq (F := Ideal) (Model.dst (F := Ideal) 𝔞1)) shapeCasts_S100000_S100000x1 := by
  show StableHlo.after hostOps0 (W0 m ρ c) (Proc.devRef .tc main_v27) = _
  dsimp only [hostOps0]
  after_results_simp <;> rfl

theorem at1_v28 : W1 m ρ c (Proc.devRef .tc main_v28) = shapeCast S1x64 𝔞4 shapeCasts_S64_S1x64 := by
  show StableHlo.after hostOps0 (W0 m ρ c) (Proc.devRef .tc main_v28) = _
  dsimp only [hostOps0]
  after_results_simp <;> rfl

theorem at1_v29 : W1 m ρ c (Proc.devRef .tc main_v29) = shapeCast S1x64 𝔞6 shapeCasts_S64_S1x64 := by
  show StableHlo.after hostOps0 (W0 m ρ c) (Proc.devRef .tc main_v29) = _
  dsimp only [hostOps0]
  after_results_simp <;> rfl

theorem at1_v30 : W1 m ρ c (Proc.devRef .tc main_v30) = shapeCast S1x32 𝔞8 shapeCasts_S32_S1x32 := by
  show StableHlo.after hostOps0 (W0 m ρ c) (Proc.devRef .tc main_v30) = _
  dsimp only [hostOps0]
  after_results_simp <;> rfl

theorem at1_v31 : W1 m ρ c (Proc.devRef .tc main_v31) = shapeCast S1x2 𝔞10 shapeCasts_S2_S1x2 := by
  show StableHlo.after hostOps0 (W0 m ρ c) (Proc.devRef .tc main_v31) = _
  dsimp only [hostOps0]
  after_results_simp <;> rfl

theorem at1_arg5 : W1 m ρ c (Proc.devRef .tc main_arg5) = 𝔞5 := by
  show StableHlo.after hostOps0 (W0 m ρ c) (Proc.devRef .tc main_arg5) = _
  dsimp only [hostOps0]
  after_results_simp <;> rfl

theorem at1_arg7 : W1 m ρ c (Proc.devRef .tc main_arg7) = 𝔞7 := by
  show StableHlo.after hostOps0 (W0 m ρ c) (Proc.devRef .tc main_arg7) = _
  dsimp only [hostOps0]
  after_results_simp <;> rfl

theorem at1_arg9 : W1 m ρ c (Proc.devRef .tc main_arg9) = 𝔞9 := by
  show StableHlo.after hostOps0 (W0 m ρ c) (Proc.devRef .tc main_arg9) = _
  dsimp only [hostOps0]
  after_results_simp <;> rfl

theorem at1_arg2 : W1 m ρ c (Proc.devRef .tc main_arg2) = 𝔞2 := by
  show StableHlo.after hostOps0 (W0 m ρ c) (Proc.devRef .tc main_arg2) = _
  dsimp only [hostOps0]
  after_results_simp <;> rfl

/-! ## Boundary 2: after the first launch -/

theorem at2_v32 : W2 m ρ c (Proc.devRef .tc main_v32) = Model.h1 (F := Ideal) 𝔞0 𝔞3 := by
  refine (W2_arr m ρ c 2).trans ((final0 (V1 m ρ) c).trans ?_)
  rw [show V1 m ρ c main_arg0 = _ from at1_arg0 m ρ c, show V1 m ρ c main_arg3 = _ from at1_arg3 m ρ c, lin1_eq]
  rfl

theorem at2_v1 : W2 m ρ c (Proc.devRef .tc main_v1) = Model.src (F := Ideal) 𝔞1 :=
  (W2_of_ne m ρ c main_v1 (by decide)).trans (at1_v1 m ρ c)

theorem at2_v3 : W2 m ρ c (Proc.devRef .tc main_v3) = Model.dst (F := Ideal) 𝔞1 :=
  (W2_of_ne m ρ c main_v3 (by decide)).trans (at1_v3 m ρ c)

theorem at2_v25 : W2 m ρ c (Proc.devRef .tc main_v25) = Model.norm (F := Ideal) (Model.src (F := Ideal) 𝔞1) (Model.dst (F := Ideal) 𝔞1) :=
  (W2_of_ne m ρ c main_v25 (by decide)).trans (at1_v25 m ρ c)

theorem at2_v27 : W2 m ρ c (Proc.devRef .tc main_v27) = shapeCast S100000x1 (Model.dinvSq (F := Ideal) (Model.dst (F := Ideal) 𝔞1)) shapeCasts_S100000_S100000x1 :=
  (W2_of_ne m ρ c main_v27 (by decide)).trans (at1_v27 m ρ c)

theorem at2_v28 : W2 m ρ c (Proc.devRef .tc main_v28) = shapeCast S1x64 𝔞4 shapeCasts_S64_S1x64 :=
  (W2_of_ne m ρ c main_v28 (by decide)).trans (at1_v28 m ρ c)

theorem at2_v29 : W2 m ρ c (Proc.devRef .tc main_v29) = shapeCast S1x64 𝔞6 shapeCasts_S64_S1x64 :=
  (W2_of_ne m ρ c main_v29 (by decide)).trans (at1_v29 m ρ c)

theorem at2_v30 : W2 m ρ c (Proc.devRef .tc main_v30) = shapeCast S1x32 𝔞8 shapeCasts_S32_S1x32 :=
  (W2_of_ne m ρ c main_v30 (by decide)).trans (at1_v30 m ρ c)

theorem at2_v31 : W2 m ρ c (Proc.devRef .tc main_v31) = shapeCast S1x2 𝔞10 shapeCasts_S2_S1x2 :=
  (W2_of_ne m ρ c main_v31 (by decide)).trans (at1_v31 m ρ c)

theorem at2_arg5 : W2 m ρ c (Proc.devRef .tc main_arg5) = 𝔞5 :=
  (W2_of_ne m ρ c main_arg5 (by decide)).trans (at1_arg5 m ρ c)

theorem at2_arg7 : W2 m ρ c (Proc.devRef .tc main_arg7) = 𝔞7 :=
  (W2_of_ne m ρ c main_arg7 (by decide)).trans (at1_arg7 m ρ c)

theorem at2_arg9 : W2 m ρ c (Proc.devRef .tc main_arg9) = 𝔞9 :=
  (W2_of_ne m ρ c main_arg9 (by decide)).trans (at1_arg9 m ρ c)

theorem at2_arg2 : W2 m ρ c (Proc.devRef .tc main_arg2) = 𝔞2 :=
  (W2_of_ne m ρ c main_arg2 (by decide)).trans (at1_arg2 m ρ c)

/-! ## Boundary 3: after the first aggregation -/

theorem at3_v45 : W3 m ρ c (Proc.devRef .tc main_v45) = Model.agg (F := Ideal) (Model.src (F := Ideal) 𝔞1) (Model.dst (F := Ideal) 𝔞1) (Model.h1 (F := Ideal) 𝔞0 𝔞3) := by
  show StableHlo.after hostOps1 (W2 m ρ c) (Proc.devRef .tc main_v45) = _
  dsimp only [hostOps1]
  after_results_simp
  rw [at2_v25 m ρ c, at2_v1 m ρ c, at2_v3 m ρ c, at2_v32 m ρ c]
  rfl

theorem at3_v32 : W3 m ρ c (Proc.devRef .tc main_v32) = Model.h1 (F := Ideal) 𝔞0 𝔞3 :=
  (show StableHlo.after hostOps1 (W2 m ρ c) (Proc.devRef .tc main_v32) = W2 m ρ c (Proc.devRef .tc main_v32) from by
    dsimp only [hostOps1]; after_results_simp).trans (at2_v32 m ρ c)

theorem at3_v27 : W3 m ρ c (Proc.devRef .tc main_v27) = shapeCast S100000x1 (Model.dinvSq (F := Ideal) (Model.dst (F := Ideal) 𝔞1)) shapeCasts_S100000_S100000x1 :=
  (show StableHlo.after hostOps1 (W2 m ρ c) (Proc.devRef .tc main_v27) = W2 m ρ c (Proc.devRef .tc main_v27) from by
    dsimp only [hostOps1]; after_results_simp).trans (at2_v27 m ρ c)

theorem at3_v28 : W3 m ρ c (Proc.devRef .tc main_v28) = shapeCast S1x64 𝔞4 shapeCasts_S64_S1x64 :=
  (show StableHlo.after hostOps1 (W2 m ρ c) (Proc.devRef .tc main_v28) = W2 m ρ c (Proc.devRef .tc main_v28) from by
    dsimp only [hostOps1]; after_results_simp).trans (at2_v28 m ρ c)

theorem at3_arg5 : W3 m ρ c (Proc.devRef .tc main_arg5) = 𝔞5 :=
  (show StableHlo.after hostOps1 (W2 m ρ c) (Proc.devRef .tc main_arg5) = W2 m ρ c (Proc.devRef .tc main_arg5) from by
    dsimp only [hostOps1]; after_results_simp).trans (at2_arg5 m ρ c)

theorem at3_v1 : W3 m ρ c (Proc.devRef .tc main_v1) = Model.src (F := Ideal) 𝔞1 :=
  (show StableHlo.after hostOps1 (W2 m ρ c) (Proc.devRef .tc main_v1) = W2 m ρ c (Proc.devRef .tc main_v1) from by
    dsimp only [hostOps1]; after_results_simp).trans (at2_v1 m ρ c)

theorem at3_v3 : W3 m ρ c (Proc.devRef .tc main_v3) = Model.dst (F := Ideal) 𝔞1 :=
  (show StableHlo.after hostOps1 (W2 m ρ c) (Proc.devRef .tc main_v3) = W2 m ρ c (Proc.devRef .tc main_v3) from by
    dsimp only [hostOps1]; after_results_simp).trans (at2_v3 m ρ c)

theorem at3_v25 : W3 m ρ c (Proc.devRef .tc main_v25) = Model.norm (F := Ideal) (Model.src (F := Ideal) 𝔞1) (Model.dst (F := Ideal) 𝔞1) :=
  (show StableHlo.after hostOps1 (W2 m ρ c) (Proc.devRef .tc main_v25) = W2 m ρ c (Proc.devRef .tc main_v25) from by
    dsimp only [hostOps1]; after_results_simp).trans (at2_v25 m ρ c)

theorem at3_v29 : W3 m ρ c (Proc.devRef .tc main_v29) = shapeCast S1x64 𝔞6 shapeCasts_S64_S1x64 :=
  (show StableHlo.after hostOps1 (W2 m ρ c) (Proc.devRef .tc main_v29) = W2 m ρ c (Proc.devRef .tc main_v29) from by
    dsimp only [hostOps1]; after_results_simp).trans (at2_v29 m ρ c)

theorem at3_v30 : W3 m ρ c (Proc.devRef .tc main_v30) = shapeCast S1x32 𝔞8 shapeCasts_S32_S1x32 :=
  (show StableHlo.after hostOps1 (W2 m ρ c) (Proc.devRef .tc main_v30) = W2 m ρ c (Proc.devRef .tc main_v30) from by
    dsimp only [hostOps1]; after_results_simp).trans (at2_v30 m ρ c)

theorem at3_v31 : W3 m ρ c (Proc.devRef .tc main_v31) = shapeCast S1x2 𝔞10 shapeCasts_S2_S1x2 :=
  (show StableHlo.after hostOps1 (W2 m ρ c) (Proc.devRef .tc main_v31) = W2 m ρ c (Proc.devRef .tc main_v31) from by
    dsimp only [hostOps1]; after_results_simp).trans (at2_v31 m ρ c)

theorem at3_arg7 : W3 m ρ c (Proc.devRef .tc main_arg7) = 𝔞7 :=
  (show StableHlo.after hostOps1 (W2 m ρ c) (Proc.devRef .tc main_arg7) = W2 m ρ c (Proc.devRef .tc main_arg7) from by
    dsimp only [hostOps1]; after_results_simp).trans (at2_arg7 m ρ c)

theorem at3_arg9 : W3 m ρ c (Proc.devRef .tc main_arg9) = 𝔞9 :=
  (show StableHlo.after hostOps1 (W2 m ρ c) (Proc.devRef .tc main_arg9) = W2 m ρ c (Proc.devRef .tc main_arg9) from by
    dsimp only [hostOps1]; after_results_simp).trans (at2_arg9 m ρ c)

theorem at3_arg2 : W3 m ρ c (Proc.devRef .tc main_arg2) = 𝔞2 :=
  (show StableHlo.after hostOps1 (W2 m ρ c) (Proc.devRef .tc main_arg2) = W2 m ρ c (Proc.devRef .tc main_arg2) from by
    dsimp only [hostOps1]; after_results_simp).trans (at2_arg2 m ρ c)

/-! ## Boundary 4: after the second launch -/

theorem at4_v46 : W4 m ρ c (Proc.devRef .tc main_v46) = Model.h2 (F := Ideal) 𝔞0 𝔞1 𝔞3 𝔞4 𝔞5 := by
  refine (W4_arr m ρ c 5).trans ((final1 (V3 m ρ) c).trans ?_)
  rw [show V3 m ρ c main_v45 = _ from at3_v45 m ρ c,
    show V3 m ρ c main_v32 = _ from at3_v32 m ρ c,
    show V3 m ρ c main_v27 = _ from at3_v27 m ρ c,
    show V3 m ρ c main_v28 = _ from at3_v28 m ρ c,
    show V3 m ρ c main_arg5 = _ from at3_arg5 m ρ c, close_eq, lin2_eq]
  rfl

theorem at4_v1 : W4 m ρ c (Proc.devRef .tc main_v1) = Model.src (F := Ideal) 𝔞1 :=
  (W4_of_ne m ρ c main_v1 (by decide)).trans (at3_v1 m ρ c)

theorem at4_v3 : W4 m ρ c (Proc.devRef .tc main_v3) = Model.dst (F := Ideal) 𝔞1 :=
  (W4_of_ne m ρ c main_v3 (by decide)).trans (at3_v3 m ρ c)

theorem at4_v25 : W4 m ρ c (Proc.devRef .tc main_v25) = Model.norm (F := Ideal) (Model.src (F := Ideal) 𝔞1) (Model.dst (F := Ideal) 𝔞1) :=
  (W4_of_ne m ρ c main_v25 (by decide)).trans (at3_v25 m ρ c)

theorem at4_v27 : W4 m ρ c (Proc.devRef .tc main_v27) = shapeCast S100000x1 (Model.dinvSq (F := Ideal) (Model.dst (F := Ideal) 𝔞1)) shapeCasts_S100000_S100000x1 :=
  ((W4_arr m ρ c 2).trans (((dat1 (V3 m ρ) c).arrAt_in 2 rfl _).trans (A_eq1 (V3 m ρ) c 2))).trans (at3_v27 m ρ c)

theorem at4_v29 : W4 m ρ c (Proc.devRef .tc main_v29) = shapeCast S1x64 𝔞6 shapeCasts_S64_S1x64 :=
  (W4_of_ne m ρ c main_v29 (by decide)).trans (at3_v29 m ρ c)

theorem at4_v30 : W4 m ρ c (Proc.devRef .tc main_v30) = shapeCast S1x32 𝔞8 shapeCasts_S32_S1x32 :=
  (W4_of_ne m ρ c main_v30 (by decide)).trans (at3_v30 m ρ c)

theorem at4_v31 : W4 m ρ c (Proc.devRef .tc main_v31) = shapeCast S1x2 𝔞10 shapeCasts_S2_S1x2 :=
  (W4_of_ne m ρ c main_v31 (by decide)).trans (at3_v31 m ρ c)

theorem at4_arg7 : W4 m ρ c (Proc.devRef .tc main_arg7) = 𝔞7 :=
  (W4_of_ne m ρ c main_arg7 (by decide)).trans (at3_arg7 m ρ c)

theorem at4_arg9 : W4 m ρ c (Proc.devRef .tc main_arg9) = 𝔞9 :=
  (W4_of_ne m ρ c main_arg9 (by decide)).trans (at3_arg9 m ρ c)

theorem at4_arg2 : W4 m ρ c (Proc.devRef .tc main_arg2) = 𝔞2 :=
  (W4_of_ne m ρ c main_arg2 (by decide)).trans (at3_arg2 m ρ c)

/-! ## Boundary 5: after the second aggregation -/

theorem at5_v59 : W5 m ρ c (Proc.devRef .tc main_v59) = Model.agg (F := Ideal) (Model.src (F := Ideal) 𝔞1) (Model.dst (F := Ideal) 𝔞1) (Model.h2 (F := Ideal) 𝔞0 𝔞1 𝔞3 𝔞4 𝔞5) := by
  show StableHlo.after hostOps2 (W4 m ρ c) (Proc.devRef .tc main_v59) = _
  dsimp only [hostOps2]
  after_results_simp
  rw [at4_v25 m ρ c, at4_v1 m ρ c, at4_v3 m ρ c, at4_v46 m ρ c]
  rfl

theorem at5_v46 : W5 m ρ c (Proc.devRef .tc main_v46) = Model.h2 (F := Ideal) 𝔞0 𝔞1 𝔞3 𝔞4 𝔞5 :=
  (show StableHlo.after hostOps2 (W4 m ρ c) (Proc.devRef .tc main_v46) = W4 m ρ c (Proc.devRef .tc main_v46) from by
    dsimp only [hostOps2]; after_results_simp).trans (at4_v46 m ρ c)

theorem at5_v27 : W5 m ρ c (Proc.devRef .tc main_v27) = shapeCast S100000x1 (Model.dinvSq (F := Ideal) (Model.dst (F := Ideal) 𝔞1)) shapeCasts_S100000_S100000x1 :=
  (show StableHlo.after hostOps2 (W4 m ρ c) (Proc.devRef .tc main_v27) = W4 m ρ c (Proc.devRef .tc main_v27) from by
    dsimp only [hostOps2]; after_results_simp).trans (at4_v27 m ρ c)

theorem at5_v29 : W5 m ρ c (Proc.devRef .tc main_v29) = shapeCast S1x64 𝔞6 shapeCasts_S64_S1x64 :=
  (show StableHlo.after hostOps2 (W4 m ρ c) (Proc.devRef .tc main_v29) = W4 m ρ c (Proc.devRef .tc main_v29) from by
    dsimp only [hostOps2]; after_results_simp).trans (at4_v29 m ρ c)

theorem at5_v30 : W5 m ρ c (Proc.devRef .tc main_v30) = shapeCast S1x32 𝔞8 shapeCasts_S32_S1x32 :=
  (show StableHlo.after hostOps2 (W4 m ρ c) (Proc.devRef .tc main_v30) = W4 m ρ c (Proc.devRef .tc main_v30) from by
    dsimp only [hostOps2]; after_results_simp).trans (at4_v30 m ρ c)

theorem at5_v31 : W5 m ρ c (Proc.devRef .tc main_v31) = shapeCast S1x2 𝔞10 shapeCasts_S2_S1x2 :=
  (show StableHlo.after hostOps2 (W4 m ρ c) (Proc.devRef .tc main_v31) = W4 m ρ c (Proc.devRef .tc main_v31) from by
    dsimp only [hostOps2]; after_results_simp).trans (at4_v31 m ρ c)

theorem at5_arg7 : W5 m ρ c (Proc.devRef .tc main_arg7) = 𝔞7 :=
  (show StableHlo.after hostOps2 (W4 m ρ c) (Proc.devRef .tc main_arg7) = W4 m ρ c (Proc.devRef .tc main_arg7) from by
    dsimp only [hostOps2]; after_results_simp).trans (at4_arg7 m ρ c)

theorem at5_arg9 : W5 m ρ c (Proc.devRef .tc main_arg9) = 𝔞9 :=
  (show StableHlo.after hostOps2 (W4 m ρ c) (Proc.devRef .tc main_arg9) = W4 m ρ c (Proc.devRef .tc main_arg9) from by
    dsimp only [hostOps2]; after_results_simp).trans (at4_arg9 m ρ c)

theorem at5_arg2 : W5 m ρ c (Proc.devRef .tc main_arg2) = 𝔞2 :=
  (show StableHlo.after hostOps2 (W4 m ρ c) (Proc.devRef .tc main_arg2) = W4 m ρ c (Proc.devRef .tc main_arg2) from by
    dsimp only [hostOps2]; after_results_simp).trans (at4_arg2 m ρ c)

/-! ## Boundary 6: after the third launch -/

theorem at6_v60 : W6 m ρ c (Proc.devRef .tc main_v60) = Model.h2act (F := Ideal) 𝔞0 𝔞1 𝔞3 𝔞4 𝔞5 𝔞6 := by
  refine (W6_arr m ρ c 4).trans ((final2 (V5 m ρ) c).trans ?_)
  rw [show V5 m ρ c main_v59 = _ from at5_v59 m ρ c,
    show V5 m ρ c main_v46 = _ from at5_v46 m ρ c,
    show V5 m ρ c main_v27 = _ from at5_v27 m ρ c,
    show V5 m ρ c main_v29 = _ from at5_v29 m ρ c, close_eq]
  rfl

theorem at6_arg2 : W6 m ρ c (Proc.devRef .tc main_arg2) = 𝔞2 :=
  (W6_of_ne m ρ c main_arg2 (by decide)).trans (at5_arg2 m ρ c)

theorem at6_v30 : W6 m ρ c (Proc.devRef .tc main_v30) = shapeCast S1x32 𝔞8 shapeCasts_S32_S1x32 :=
  (W6_of_ne m ρ c main_v30 (by decide)).trans (at5_v30 m ρ c)

theorem at6_v31 : W6 m ρ c (Proc.devRef .tc main_v31) = shapeCast S1x2 𝔞10 shapeCasts_S2_S1x2 :=
  (W6_of_ne m ρ c main_v31 (by decide)).trans (at5_v31 m ρ c)

theorem at6_arg7 : W6 m ρ c (Proc.devRef .tc main_arg7) = 𝔞7 :=
  (W6_of_ne m ρ c main_arg7 (by decide)).trans (at5_arg7 m ρ c)

theorem at6_arg9 : W6 m ρ c (Proc.devRef .tc main_arg9) = 𝔞9 :=
  (W6_of_ne m ρ c main_arg9 (by decide)).trans (at5_arg9 m ρ c)

/-! ## Boundary 7: after the mean pool -/

theorem at7_v72 : W7 m ρ c (Proc.devRef .tc main_v72) = Model.pool (F := Ideal) 𝔞2 (Model.h2act (F := Ideal) 𝔞0 𝔞1 𝔞3 𝔞4 𝔞5 𝔞6) := by
  show StableHlo.after hostOps3 (W6 m ρ c) (Proc.devRef .tc main_v72) = _
  dsimp only [hostOps3]
  after_results_simp
  rw [at6_v60 m ρ c, at6_arg2 m ρ c]
  rfl

theorem at7_v30 : W7 m ρ c (Proc.devRef .tc main_v30) = shapeCast S1x32 𝔞8 shapeCasts_S32_S1x32 :=
  (show StableHlo.after hostOps3 (W6 m ρ c) (Proc.devRef .tc main_v30) = W6 m ρ c (Proc.devRef .tc main_v30) from by
    dsimp only [hostOps3]; after_results_simp).trans (at6_v30 m ρ c)

theorem at7_v31 : W7 m ρ c (Proc.devRef .tc main_v31) = shapeCast S1x2 𝔞10 shapeCasts_S2_S1x2 :=
  (show StableHlo.after hostOps3 (W6 m ρ c) (Proc.devRef .tc main_v31) = W6 m ρ c (Proc.devRef .tc main_v31) from by
    dsimp only [hostOps3]; after_results_simp).trans (at6_v31 m ρ c)

theorem at7_arg7 : W7 m ρ c (Proc.devRef .tc main_arg7) = 𝔞7 :=
  (show StableHlo.after hostOps3 (W6 m ρ c) (Proc.devRef .tc main_arg7) = W6 m ρ c (Proc.devRef .tc main_arg7) from by
    dsimp only [hostOps3]; after_results_simp).trans (at6_arg7 m ρ c)

theorem at7_arg9 : W7 m ρ c (Proc.devRef .tc main_arg9) = 𝔞9 :=
  (show StableHlo.after hostOps3 (W6 m ρ c) (Proc.devRef .tc main_arg9) = W6 m ρ c (Proc.devRef .tc main_arg9) from by
    dsimp only [hostOps3]; after_results_simp).trans (at6_arg9 m ρ c)

/-! ## Boundary 8: after the fourth launch, the program's result -/

theorem at8_v73 : W8 m ρ c (Proc.devRef .tc main_v73) = Model.out (F := Ideal) 𝔞0 𝔞1 𝔞2 𝔞3 𝔞4 𝔞5 𝔞6 𝔞7 𝔞8 𝔞9 𝔞10 := by
  refine (W8_arr m ρ c 5).trans ((final3 (V7 m ρ) c).trans ?_)
  rw [show V7 m ρ c main_v72 = _ from at7_v72 m ρ c,
    show V7 m ρ c main_arg7 = _ from at7_arg7 m ρ c,
    show V7 m ρ c main_v30 = _ from at7_v30 m ρ c,
    show V7 m ρ c main_arg9 = _ from at7_arg9 m ρ c,
    show V7 m ρ c main_v31 = _ from at7_v31 m ρ c, head_eq]
  rfl

end Cert.KernelIdeal.Whole

end
-- ==== Proof.lean ====
/-
  A two-layer graph convolution network with a mean pool and a two-layer classifier head, computed two ways.

  Both programs compute, from node features `x`, an edge list, graph ids and the weights:
    `dinv = rsqrt (in-degree + 1)`, the edge weights `dinv[src] · dinv[dst]`;
    `h1 = x · W1`; `a1 = scatter-add at dst of weight · h1[src]`; `z1 = max (a1 + dinv² · h1 + b1) 0`;
    `h2 = z1 · W2`; `a2 = scatter-add at dst of weight · h2[src]`; `z2 = max (a2 + dinv² · h2 + b2) 0`;
    `g = (sum of z2's rows per graph) / max (node count per graph) 1`; the result `max (g · Wc1 + bc1) 0 · Wc2 + bc2`.
  The reference does all of it with host operations. The kernel program does the degree normalisation, the gathers, the
  scatter-adds and the pool with the same host operations, and four steps in launches tiled over blocks of 5000 rows: `x · W1`;
  the first closing step fused with `· W2`; the second closing step; the head. Over the extended reals a change of float
  format is the identity and a block's rows of a matrix product, of a row-wise sum, product or maximum are the same rows of
  the whole-array operation, so each launch's result array is the host's term of that stage; the sums, products and maxima
  are applied in the same order on both sides, so no law of arithmetic and no finiteness of the inputs is used. The ideal
  pass rewrote nothing, so the kernel program's idealization is its own text read over the extended reals.
-/
import proofs.«171051_j85856396247086_1_alg».proof.Defs
import proofs.«171051_j85856396247086_1_alg».proof.Proof.Gen.Kernel
import proofs.«171051_j85856396247086_1_alg».proof.Proof.Gen.Kernel.Frame
import proofs.«171051_j85856396247086_1_alg».proof.Proof.Gen.KernelIdeal
import proofs.«171051_j85856396247086_1_alg».proof.Proof.Gen.KernelIdeal.Frame
import proofs.«171051_j85856396247086_1_alg».proof.Proof.Gen.ReferenceIdeal
import proofs.«171051_j85856396247086_1_alg».proof.Proof.Gen.ReferenceIdeal.Run
import proofs.«171051_j85856396247086_1_alg».proof.Proof.Gen.Pre_finite_inputs
import proofs.«171051_j85856396247086_1_alg».proof.Proof.KernelRun
import proofs.«171051_j85856396247086_1_alg».proof.Proof.Boundaries
import proofs.«171051_j85856396247086_1_alg».proof.Proof.Model
import Idealize.ShloMosaic.Adequacy
import Idealize.ShloMosaic.Init

noncomputable section

namespace Cert.Proof

open Idealize.ShloMosaic Idealize.ShloMosaic.TcCoe Idealize.SL.Sem

/-- The word-level kernel program runs and keeps its arguments. -/
theorem frame_kernel : Cert.frame_Kernel := fun m ρ _ => Cert.Kernel.Gen.frame m ρ

/-- So does its reading over the extended reals. -/
theorem frame_kernel_ideal : Cert.frame_KernelIdeal := fun m ρ _ => Cert.KernelIdeal.Gen.frame m ρ

/-- The reference runs and keeps its arguments: its run with the result dropped. -/
theorem frame_reference_ideal : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- Over the extended reals both programs end with the one computation of the (agreeing) arguments in their result buffers:
    the kernel program by its run read boundary by boundary, the reference by its run's composed term. -/
theorem algebraic : Cert.algebraic_KernelIdeal_ReferenceIdeal := by
  intro m ρ m' ρ' _ hagree
  refine ⟨fun c => Cert.Model.out (F := Ideal) (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10)), ?_, ?_⟩
  · exact (θ_run Cert.KernelIdeal.defs _ _).mono
      (fun r h c => ⟨((h c).1).trans (Cert.KernelIdeal.Whole.at8_v73 m ρ c), (h c).2⟩)
      (Cert.KernelIdeal.Whole.run_result m ρ)
  · refine (θ_run Cert.ReferenceIdeal.defs _ _).mono (fun r h c => ⟨?_, (h c).2⟩)
      (Cert.ReferenceIdeal.Value.run (F := Ideal) m' ρ')
    obtain ⟨e0, e1, e2, e3, e4, e5, e6, e7, e8, e9, e10⟩ := hagree c
    rw [(h c).1, Cert.Model.reference_eq, e0, e1, e2, e3, e4, e5, e6, e7, e8, e9, e10]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, preserves, algebraic⟩

end Cert.Proof

end
